-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x4096 : Shape := ⟨2, ![10000, 4096]⟩
abbrev S128x128 : Shape := ⟨2, ![128, 128]⟩
abbrev S_ : Shape := ⟨0, ![]⟩
abbrev S10000 : Shape := ⟨1, ![10000]⟩
abbrev S10000x1 : Shape := ⟨2, ![10000, 1]⟩
abbrev S4096 : Shape := ⟨1, ![4096]⟩

class Facts : Prop where
  reducesTo_S10000x4096_S10000_d1 : S10000x4096.ReducesTo [1] S10000
  h_S_ : 0 < S_.numel
  bcast_S10000_S10000x1_0 : S10000.BroadcastsInDim S10000x1 (![0] : Fin 1 → Fin S10000x1.rank)
  bcast_S10000x1_S10000x4096_0_1 : S10000x1.BroadcastsInDim S10000x4096 (![0, 1] : Fin 2 → Fin S10000x4096.rank)
  reducesTo_S10000x4096_S4096_d0 : S10000x4096.ReducesTo [0] S4096
  bcast_S_S10000x128 : S_.BroadcastsInDim S10000x128 (![] : Fin 0 → Fin S10000x128.rank)
  reducesTo_S10000x128_S_d0_1 : S10000x128.ReducesTo [0, 1] S_
  bcast_S_S10000x4096 : S_.BroadcastsInDim S10000x4096 (![] : Fin 0 → Fin S10000x4096.rank)
  reducesTo_S10000x4096_S_d0_1 : S10000x4096.ReducesTo [0, 1] S_
  bcast_S_S128x128 : S_.BroadcastsInDim S128x128 (![] : Fin 0 → Fin S128x128.rank)
  reducesTo_S128x128_S_d0_1 : S128x128.ReducesTo [0, 1] S_
  bcast_S_S10000 : S_.BroadcastsInDim S10000 (![] : Fin 0 → Fin S10000.rank)
  reducesTo_S10000_S_d0 : S10000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v0 : FVec F S10000 .f32) (main_v6 : FVec F S4096 .f32) (main_v15 : IVec S_ 1) (main_v16 : FVec F S128x128 .f32) : IVec S_ 1 :=
  let main_cst_5 : FVec F S_ .f32 := constant S_ .f32 0x7F800000#32
  let main_v17 : FVec F S128x128 .f32 := broadcastInDim S128x128 ![] bcast_S_S128x128 main_cst_5
  let main_v18 : IVec S128x128 1 := cmpf .olt main_v16 main_v17
  let main_c_6 : IVec S_ 1 := constantI S_ 1 1#1
  let main_v19 : IVec S_ 1 := (fun x v => Host.reduce IntOp.andi x v reducesTo_S128x128_S_d0_1 h_S_) main_v18 main_c_6
  let main_v20 : IVec S_ 1 := andi main_v15 main_v19
  let main_cst_7 : FVec F S_ .f32 := constant S_ .f32 0x00000000#32
  let main_v21 : FVec F S10000 .f32 := broadcastInDim S10000 ![] bcast_S_S10000 main_cst_7
  let main_v22 : IVec S10000 1 := cmpf .ogt main_v0 main_v21
  let main_c_8 : IVec S_ 1 := constantI S_ 1 1#1
  let main_v23 : IVec S_ 1 := (fun x v => Host.reduce IntOp.andi x v reducesTo_S10000_S_d0 h_S_) main_v22 main_c_8
  let main_v24 : IVec S_ 1 := andi main_v20 main_v23
  let main_cst_9 : FVec F S_ .f32 := constant S_ .f32 0x00000000#32
  let main_v25 : FVec F S4096 .f32 := broadcastInDim S4096 ![] bcast_S_S4096 main_cst_9
  let main_v26 : IVec S4096 1 := cmpf .ogt main_v6 main_v25
  let main_c_10 : IVec S_ 1 := constantI S_ 1 1#1
  let main_v27 : IVec S_ 1 := (fun x v => Host.reduce IntOp.andi x v reducesTo_S4096_S_d0 h_S_) main_v26 main_c_10
  let main_v28 : IVec S_ 1 := andi main_v24 main_v27
  main_v28

def fn {F : FTy → Type} [FloatOps F] (main_arg0 : FVec F S10000x128 .f32) (main_arg1 : FVec F S10000x4096 .f32) (main_arg2 : FVec F S128x128 .f32) : IVec S_ 1 :=
  let main_cst : FVec F S_ .f32 := constant S_ .f32 0x00000000#32
  let main_v0 : FVec F S10000 .f32 := (fun x v => Host.reduceAdd x v reducesTo_S10000x4096_S10000_d1 h_S_) main_arg1 main_cst
  let main_v1 : FVec F S10000x1 .f32 := broadcastInDim S10000x1 ![0] bcast_S10000_S10000x1_0 main_v0
  let main_v2 : FVec F S10000x4096 .f32 := broadcastInDim S10000x4096 ![0, 1] bcast_S10000x1_S10000x4096_0_1 main_v1
  let main_v3 : FVec F S10000x4096 .f32 := mulf main_v2 main_arg1
  let main_cst_0 : FVec F S_ .f32 := constant S_ .f32 0x00000000#32
  let main_v4 : FVec F S4096 .f32 := (fun x v => Host.reduceAdd x v reducesTo_S10000x4096_S4096_d0 h_S_) main_v3 main_cst_0
  let main_cst_1 : FVec F S_ .f32 := constant S_ .f32 0x00000000#32
  let main_v5 : FVec F S4096 .f32 := (fun x v => Host.reduceAdd x v reducesTo_S10000x4096_S4096_d0 h_S_) main_arg1 main_cst_1
  let main_v6 : FVec F S4096 .f32 := Host.divf main_v4 main_v5
  let main_v7 : FVec F S10000x128 .f32 := Host.absf main_arg0
  let main_cst_2 : FVec F S_ .f32 := constant S_ .f32 0x7F800000#32
  let main_v8 : FVec F S10000x128 .f32 := broadcastInDim S10000x128 ![] bcast_S_S10000x128 main_cst_2
  let main_v9 : IVec S10000x128 1 := cmpf .olt main_v7 main_v8
  let main_c : IVec S_ 1 := constantI S_ 1 1#1
  let main_v10 : IVec S_ 1 := (fun x v => Host.reduce IntOp.andi x v reducesTo_S10000x128_S_d0_1 h_S_) main_v9 main_c
  let main_v11 : FVec F S10000x4096 .f32 := Host.absf main_arg1
  let main_cst_3 : FVec F S_ .f32 := constant S_ .f32 0x7F800000#32
  let main_v12 : FVec F S10000x4096 .f32 := broadcastInDim S10000x4096 ![] bcast_S_S10000x4096 main_cst_3
  let main_v13 : IVec S10000x4096 1 := cmpf .olt main_v11 main_v12
  let main_c_4 : IVec S_ 1 := constantI S_ 1 1#1
  let main_v14 : IVec S_ 1 := (fun x v => Host.reduce IntOp.andi x v reducesTo_S10000x4096_S_d0_1 h_S_) main_v13 main_c_4
  let main_v15 : IVec S_ 1 := andi main_v10 main_v14
  let main_v16 : FVec F S128x128 .f32 := Host.absf main_arg2
  fn_part1 (F := F) main_v0 main_v6 main_v15 main_v16
-- ==== Kernel.lean ====
abbrev S10000x128 : Shape := ⟨2, ![10000, 128]⟩
abbrev S10000x4096 : Shape := ⟨2, ![10000, 4096]⟩
abbrev S128x128 : Shape := ⟨2, ![128, 128]⟩
abbrev S128x4096 : Shape := ⟨2, ![128, 4096]⟩
abbrev S1x4096 : Shape := ⟨2, ![1, 4096]⟩
abbrev S1000x128 : Shape := ⟨2, ![1000, 128]⟩
abbrev S1000x4096 : Shape := ⟨2, ![1000, 4096]⟩
abbrev S128x1000 : Shape := ⟨2, ![128, 1000]⟩
abbrev S1000 : Shape := ⟨1, ![1000]⟩
abbrev S1000x1 : Shape := ⟨2, ![1000, 1]⟩
abbrev S4096 : Shape := ⟨1, ![4096]⟩

abbrev nBuf : Space → Nat
  | .hbm => 8
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S128x4096, .f32⟩
  | .hbm, ⟨4, _⟩ => ⟨S1x4096, .f32⟩
  | .hbm, ⟨5, _⟩ => ⟨S1x4096, .f32⟩
  | .hbm, ⟨6, _⟩ => ⟨S128x128, .f32⟩
  | .hbm, ⟨7, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x4096, .f32⟩
  | .local _ .vmem, ⟨3, _⟩ => ⟨S1000x4096, .f32⟩
  | .local _ .vmem, ⟨4, _⟩ => ⟨S128x4096, .f32⟩
  | .local _ .vmem, ⟨5, _⟩ => ⟨S1x4096, .f32⟩
  | .local _ .vmem, ⟨6, _⟩ => ⟨S1x4096, .f32⟩
  | .local _ .vmem, ⟨7, _⟩ => ⟨S1000x4096, .f32⟩
  | .local _ .vmem, ⟨8, _⟩ => ⟨S1000x4096, .f32⟩
  | .local _ .vmem, ⟨9, _⟩ => ⟨S1000x128, .f32⟩
  | .local _ .vmem, ⟨10, _⟩ => ⟨S1000x128, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S128x128, .f32⟩
  | .local _ .vmem, ⟨15, _⟩ => ⟨S1000x128, .f32⟩
  | .local _ .vmem, ⟨16, _⟩ => ⟨S1000x128, .f32⟩
  | .local _ .vmem, ⟨17, _⟩ => ⟨S128x4096, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_6 : BitVec 32 := 0#32
  let v16 : BitVec 1 := Scalar.cmpi .ne v15 c0_i32_6
  v16

def k0_cond2 (i : grid0.Coords) : BitVec 1 :=
  let arg0 : BitVec 32 := BitVec.ofNat 32 (i 0).val
  let c0_i32_7 : BitVec 32 := 0#32
  let v17 : BitVec 1 := Scalar.cmpi .ne arg0 c0_i32_7
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S1000x4096_S1000x4096_0_0 : ∀ a, (![0, 0] : Fin 2 → Nat) a + S1000x4096.size a ≤ S1000x4096.size a
  h_S1000x4096 : 0 < S1000x4096.numel
  inb_S1000x128_S1000x128_0_0 : ∀ a, (![0, 0] : Fin 2 → Nat) a + S1000x128.size a ≤ S1000x128.size a
  h_S1000x128 : 0 < S1000x128.numel
  transposes_S1000x128_p1_0_S128x1000 : S1000x128.Transposes [1, 0] S128x1000
  bitsLt_bf16_f32 : FTy.bits .bf16 < FTy.bits .f32
  reduces_S1000x4096_S1000 : S1000x4096.Reduces [1] S1000
  shapeCasts_S1000_S1000x1 : S1000.ShapeCasts S1000x1
  reduces_S1000x4096_S4096 : S1000x4096.Reduces [0] S4096
  shapeCasts_S4096_S1x4096 : S4096.ShapeCasts S1x4096
  broadcasts_S1000x1_S1000x4096 : S1000x1.Broadcasts S1000x4096
  inb_S128x4096_S128x4096_0_0 : ∀ a, (![0, 0] : Fin 2 → Nat) a + S128x4096.size a ≤ S128x4096.size a
  h_S128x4096 : 0 < S128x4096.numel
  inb_S1x4096_S1x4096_0_0 : ∀ a, (![0, 0] : Fin 2 → Nat) a + S1x4096.size a ≤ S1x4096.size a
  h_S1x4096 : 0 < S1x4096.numel
  shapeCasts_S128x4096_S128x4096 : S128x4096.ShapeCasts S128x4096
  shapeCasts_S1x4096_S1x4096 : S1x4096.ShapeCasts S1x4096
  transposes_S128x128_S128x128_1_0 : S128x128.Transposes [1, 0] S128x128
  broadcasts_S1x4096_S128x4096 : S1x4096.Broadcasts S128x4096
  packedbf16_S128x4096_S128x4096_0_0 : (Rect.unit (s := S128x4096) ![0, 0] S128x4096.size inb_S128x4096_S128x4096_0_0).PackedRows (EltTy.packing .bf16)
  broadcasts_S1000x1_S1000x128 : S1000x1.Broadcasts S1000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S128x1000_S1000x4096_S128x4096_1_0_0_1_n_n_wf : DotDims.WF S128x1000 S1000x4096 S128x4096 [1] [0] [0] [1] [] []
  dot_S1000x4096_S128x4096_S1000x128_1_1_0_0_n_n_wf : DotDims.WF S1000x4096 S128x4096 S1000x128 [1] [1] [0] [0] [] []
  dot_S1000x128_S128x128_S1000x128_1_0_0_1_n_n_wf : DotDims.WF S1000x128 S128x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x4096.size a ≤ S10000x4096.size a
  hwx0_1 : ∀ i : grid0.Coords, EltTy.bits .f32 = 32 ∨ (Rect.block (s := S10000x4096) S1000x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .f32 = 32 ∨ (Rect.block (s := S128x4096) S128x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x4096.size a ≤ S10000x4096.size a
  hwx1_0 : ∀ i : grid1.Coords, EltTy.bits .f32 = 32 ∨ (Rect.block (s := S10000x4096) S1000x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x128.size a ≤ S10000x128.size a
  hwx1_1 : ∀ i : grid1.Coords, EltTy.bits .f32 = 32 ∨ (Rect.block (s := S10000x128) S1000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S128x4096.size a
  hwx1_2 : ∀ i : grid1.Coords, EltTy.bits .f32 = 32 ∨ (Rect.block (s := S128x4096) S128x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1000x128.size a ≤ S10000x128.size a
  hwx1_6 : ∀ i : grid1.Coords, EltTy.bits .f32 = 32 ∨ (Rect.block (s := S10000x128) S1000x128.size (cc1_transform_6 i) (hinb1_6 i)).WholeWords (EltTy.packing .f32)

variable [Facts₀]

def dot_S128x1000_S1000x4096_S128x4096_1_0_0_1_n_n : DotDims S128x1000 S1000x4096 S128x4096 where
  lhsContracting := [1]
  rhsContracting := [0]
  lhsNonContracting := [0]
  rhsNonContracting := [1]
  lhsBatch := []
  rhsBatch := []
  wf := dot_S128x1000_S1000x4096_S128x4096_1_0_0_1_n_n_wf
def dot_S1000x4096_S128x4096_S1000x128_1_1_0_0_n_n : DotDims S1000x4096 S128x4096 S1000x128 where
  lhsContracting := [1]
  rhsContracting := [1]
  lhsNonContracting := [0]
  rhsNonContracting := [0]
  lhsBatch := []
  rhsBatch := []
  wf := dot_S1000x4096_S128x4096_S1000x128_1_1_0_0_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S128x4096.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4096.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x4096.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) && !(k0_cond2 i == 1#1) | 3 => fun i => !(k0_cond1 i == 1#1) && !(k0_cond2 i == 1#1) | 4 => fun i => !(k0_cond1 i == 1#1) && !(k0_cond2 i == 1#1) | ⟨_ + 5, h⟩ => absurd h (Nat.not_lt.2 (Nat.le_add_left _ _))

abbrev win1_0 : Pipeline.Window sig grid1 :=
  Pipeline.Window.ofSpec (Memref.whole main_arg1) S1000x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S128x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_2) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x4096 : Shape := ⟨2, ![10000, 4096]⟩
abbrev S128x128 : Shape := ⟨2, ![128, 128]⟩
abbrev S4096x10000 : Shape := ⟨2, ![4096, 10000]⟩
abbrev S4096x128 : Shape := ⟨2, ![4096, 128]⟩
abbrev S_ : Shape := ⟨0, ![]⟩
abbrev S10000 : Shape := ⟨1, ![10000]⟩
abbrev S10000x1 : Shape := ⟨2, ![10000, 1]⟩
abbrev S4096 : Shape := ⟨1, ![4096]⟩
abbrev S1x4096 : Shape := ⟨2, ![1, 4096]⟩

abbrev nBuf : Space → Nat
  | .hbm => 46
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x4096, .f32⟩
  | .hbm, ⟨2, _⟩ => ⟨S128x128, .f32⟩
  | .hbm, ⟨3, _⟩ => ⟨S4096x10000, .f32⟩
  | .hbm, ⟨4, _⟩ => ⟨S4096x128, .f32⟩
  | .hbm, ⟨5, _⟩ => ⟨S_, .f32⟩
  | .hbm, ⟨6, _⟩ => ⟨S10000, .f32⟩
  | .hbm, ⟨7, _⟩ => ⟨S10000x1, .f32⟩
  | .hbm, ⟨8, _⟩ => ⟨S10000x4096, .f32⟩
  | .hbm, ⟨9, _⟩ => ⟨S10000x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S1x4096, .f32⟩
  | .hbm, ⟨20, _⟩ => ⟨S10000x4096, .f32⟩
  | .hbm, ⟨21, _⟩ => ⟨S10000x4096, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000x128, .f32⟩
  | .hbm, ⟨32, _⟩ => ⟨S10000x128, .f32⟩
  | .hbm, ⟨33, _⟩ => ⟨S_, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S_, .f32⟩
  | .hbm, ⟨38, _⟩ => ⟨S10000x128, .f32⟩
  | .hbm, ⟨39, _⟩ => ⟨S10000x128, .f32⟩
  | .hbm, ⟨40, _⟩ => ⟨S128x128, .f32⟩
  | .hbm, ⟨41, _⟩ => ⟨S10000x128, .f32⟩
  | .hbm, ⟨42, _⟩ => ⟨S_, .f32⟩
  | .hbm, ⟨43, _⟩ => ⟨S10000x128, .f32⟩
  | .hbm, ⟨44, _⟩ => ⟨S10000x128, .f32⟩
  | .hbm, ⟨45, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S10000x4096_S4096x10000_1_0 : S10000x4096.Transposes [1, 0] S4096x10000
  reducesTo_S10000x4096_S10000_d1 : S10000x4096.ReducesTo [1] S10000
  h_S_ : 0 < S_.numel
  bcast_S10000_S10000x1_0 : S10000.BroadcastsInDim S10000x1 (![0] : Fin 1 → Fin S10000x1.rank)
  bcast_S10000x1_S10000x4096_0_1 : S10000x1.BroadcastsInDim S10000x4096 (![0, 1] : Fin 2 → Fin S10000x4096.rank)
  reducesTo_S10000x4096_S4096_d0 : S10000x4096.ReducesTo [0] S4096
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S10000x4096_0_1 : S1x4096.BroadcastsInDim S10000x4096 (![0, 1] : Fin 2 → Fin S10000x4096.rank)
  bcast_S_S10000 : S_.BroadcastsInDim S10000 (![] : Fin 0 → Fin S10000.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  transposes_S128x128_S128x128_1_0 : S128x128.Transposes [1, 0] S128x128
  dot_S4096x10000_S10000x128_S4096x128_1_0_0_1_n_n_wf : DotDims.WF S4096x10000 S10000x128 S4096x128 [1] [0] [0] [1] [] []
  dot_S10000x4096_S4096x128_S10000x128_1_0_0_1_n_n_wf : DotDims.WF S10000x4096 S4096x128 S10000x128 [1] [0] [0] [1] [] []
  dot_S10000x128_S128x128_S10000x128_1_0_0_1_n_n_wf : DotDims.WF S10000x128 S128x128 S10000x128 [1] [0] [0] [1] [] []

variable [Facts₀]

def dot_S4096x10000_S10000x128_S4096x128_1_0_0_1_n_n : DotDims S4096x10000 S10000x128 S4096x128 where
  lhsContracting := [1]
  rhsContracting := [0]
  lhsNonContracting := [0]
  rhsNonContracting := [1]
  lhsBatch := []
  rhsBatch := []
  wf := dot_S4096x10000_S10000x128_S4096x128_1_0_0_1_n_n_wf
def dot_S10000x4096_S4096x128_S10000x128_1_0_0_1_n_n : DotDims S10000x4096 S4096x128 S10000x128 where
  lhsContracting := [1]
  rhsContracting := [0]
  lhsNonContracting := [0]
  rhsNonContracting := [1]
  lhsBatch := []
  rhsBatch := []
  wf := dot_S10000x4096_S4096x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.WK0Defs.lean ====
/-
  The first pass over the incidence matrix, as data for the pipeline library.

  The grid has ten points; point `t` sees rows 1000·t … 1000·t+999 of the node features (window 0) and of the incidence
  matrix (window 1). The three results — the feature-major message table (window 2), the column sums (window 3) and the
  degree-weighted column sums (window 4) — each live in ONE block that every point maps to, so their staging buffers are
  written back only after the last point and carry a running sum in between: the first point stores its block's
  contribution, every later point adds its own to what the point before left.
  `acc0` is that running triple after point `n`; `dat0` hands it to the library as what the body leaves.
-/
import proofs.«135583_g910533067196_cont_9to1c4b_380_9_alg».proof.Proof.Gen.Kernel.Launch
import proofs.«135583_g910533067196_cont_9to1c4b_380_9_alg».proof.Proof.Gen.Kernel.Skeleton
import proofs.«135583_g910533067196_cont_9to1c4b_380_9_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sums after the body at position `n`: (message table, column sums, weighted column sums).
    Position 0 stores the first block's contribution; position `n + 1` adds its block's to what position `n` left. -/
def acc0 (c : Dev nD) : (n : ℕ) → n < cfg0.N → Vec F S128x4096 .f32 × Vec F S1x4096 .f32 × Vec F S1x4096 .f32
  | 0, hn => (k0_pay1 (iblk0 V c 1 ⟨0, hn⟩) (iblk0 V c 0 ⟨0, hn⟩), k0_pay2 (iblk0 V c 1 ⟨0, hn⟩), k0_pay3 (iblk0 V c 1 ⟨0, hn⟩))
  | n + 1, hn =>
    (k0_pay4 (iblk0 V c 1 ⟨n + 1, hn⟩) (iblk0 V c 0 ⟨n + 1, hn⟩) (acc0 c n (Nat.lt_of_succ_lt hn)).1,
     k0_pay5 (iblk0 V c 1 ⟨n + 1, hn⟩) (acc0 c n (Nat.lt_of_succ_lt hn)).2.1,
     k0_pay6 (iblk0 V c 1 ⟨n + 1, hn⟩) (acc0 c n (Nat.lt_of_succ_lt hn)).2.2)

theorem acc0_zero (c : Dev nD) (t : Fin cfg0.N) (h0 : t.val = 0) :
    acc0 V c t.val t.isLt = (k0_pay1 (iblk0 V c 1 t) (iblk0 V c 0 t), k0_pay2 (iblk0 V c 1 t), k0_pay3 (iblk0 V c 1 t)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt =
      (k0_pay4 (iblk0 V c 1 t) (iblk0 V c 0 t) (acc0 V c (t.val - 1) (Nat.lt_of_le_of_lt (Nat.sub_le _ _) t.isLt)).1,
       k0_pay5 (iblk0 V c 1 t) (acc0 V c (t.val - 1) (Nat.lt_of_le_of_lt (Nat.sub_le _ _) t.isLt)).2.1,
       k0_pay6 (iblk0 V c 1 t) (acc0 V c (t.val - 1) (Nat.lt_of_le_of_lt (Nat.sub_le _ _) t.isLt)).2.2) := by
  obtain ⟨n, hn⟩ := t
  cases n with
  | zero => exact absurd rfl h0
  | succ n => rfl

/-- The proof data of the first pass on core `c`: the arrays as the region finds them; after the body at point `t` each
    input's buffer at its block and the three results' at the running sums; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2 := by dsimp only [dat0]

end

end Cert.Kernel.Hand

end
-- ==== Proof.WK1Defs.lean ====
/-
  The second pass over the incidence matrix, as data for the pipeline library.

  Ten points again; point `t` sees rows 1000·t … 1000·t+999 of the incidence matrix (window 0) and of the node features
  (window 1), and the whole of the first pass's three results (windows 2, 3, 4) and of the transposed weights (window 5),
  fetched once. The result (window 6) is written back block by block, one block per point.
  A scratch buffer holds the message table scaled per hyperedge: the first point fills it from windows 2–4 before using
  it, every later point finds it as the first point left it. `acc1` is (result block, scratch) after point `n`;
  the invariant `PhiS1` carries the scratch from one point to the next.
-/
import proofs.«135583_g910533067196_cont_9to1c4b_380_9_alg».proof.Proof.Gen.Kernel.Launch
import proofs.«135583_g910533067196_cont_9to1c4b_380_9_alg».proof.Proof.Gen.Kernel.Skeleton
import proofs.«135583_g910533067196_cont_9to1c4b_380_9_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer, whole. -/
abbrev scM1 : Memref sig .tc .vmem S128x4096 .bf16 := Memref.whole cc1_scratch0

/-- (result block, scratch) after the body at position `n`. Position 0 fills the scratch with the scaled message table
    and uses it; position `n + 1` uses the scratch as position `n` left it and leaves it so. -/
def acc1 (c : Dev nD) : (n : ℕ) → n < cfg1.N → Vec F S1000x128 .f32 × Vec F S128x4096 .bf16
  | 0, hn =>
    (k1_pay2 (iblk1 V c 0 ⟨0, hn⟩) (k1_pay1 (iblk1 V c 4 ⟨0, hn⟩) (iblk1 V c 3 ⟨0, hn⟩) (iblk1 V c 2 ⟨0, hn⟩)) (iblk1 V c 1 ⟨0, hn⟩) (iblk1 V c 5 ⟨0, hn⟩),
     k1_pay1 (iblk1 V c 4 ⟨0, hn⟩) (iblk1 V c 3 ⟨0, hn⟩) (iblk1 V c 2 ⟨0, hn⟩))
  | n + 1, hn =>
    (k1_pay2 (iblk1 V c 0 ⟨n + 1, hn⟩) (acc1 c n (Nat.lt_of_succ_lt hn)).2 (iblk1 V c 1 ⟨n + 1, hn⟩) (iblk1 V c 5 ⟨n + 1, hn⟩),
     (acc1 c n (Nat.lt_of_succ_lt hn)).2)

theorem acc1_zero (c : Dev nD) (t : Fin cfg1.N) (h0 : t.val = 0) :
    acc1 V c t.val t.isLt =
      (k1_pay2 (iblk1 V c 0 t) (k1_pay1 (iblk1 V c 4 t) (iblk1 V c 3 t) (iblk1 V c 2 t)) (iblk1 V c 1 t) (iblk1 V c 5 t),
       k1_pay1 (iblk1 V c 4 t) (iblk1 V c 3 t) (iblk1 V c 2 t)) := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt =
      (k1_pay2 (iblk1 V c 0 t) (acc1 V c (t.val - 1) (Nat.lt_of_le_of_lt (Nat.sub_le _ _) t.isLt)).2 (iblk1 V c 1 t) (iblk1 V c 5 t),
       (acc1 V c (t.val - 1) (Nat.lt_of_le_of_lt (Nat.sub_le _ _) t.isLt)).2) := by
  obtain ⟨n, hn⟩ := t
  cases n with
  | zero => exact absurd rfl h0
  | succ n => rfl

/-- The invariant before position `n`: before the first point the scoped rest (every scoped buffer no window stages —
    the first pass's seven staging buffers and the scratch — at anything) and the generator register; afterwards the same
    with the scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c (n - 1) (by omega)).2)) ∗ (∃ r, prngReg c r)) := by
  cases n with
  | zero => exact absurd rfl hz
  | succ n => rfl

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (acc1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (acc1 V c t.val t.isLt).1 := by dsimp only [dat1]

end

end Cert.Kernel.Hand

end
-- ==== Proof.WRun.lean ====
/-
  The whole run of the two-pass program, at any float instance.

  @main is: the first pass (a pipelined region), one host operation (the weight matrix transposed), the second pass
  (a pipelined region). Between two of these items a core holds every unscoped buffer whole, at contents named here as a
  fold from the launch memory: as launched (`B0`); after the first pass, with its arrays at what its write-backs leave
  (`B1`); after the transposition (`B2`); after the second pass (`B3`). Each pass is a segment of the pipeline
  library's several-regions launch, taking its body obligation as a hypothesis; what rides beside the buffers is the
  generator register at some state and the core owing nothing. The conclusion names every unscoped buffer of the final
  memory: it holds `B3` there. The frame claim and the value claim both read it.
-/
import proofs.«135583_g910533067196_cont_9to1c4b_380_9_alg».proof.Proof.WK0Defs
import proofs.«135583_g910533067196_cont_9to1c4b_380_9_alg».proof.Proof.WK1Defs
import proofs.«135583_g910533067196_cont_9to1c4b_380_9_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- As launched. -/
abbrev B0 : Dev nD → Valuation τ sig (Elt F) := fun c b => (s₀ m ρ).mem ((c : Dev nD), b)
/-- The same at the TensorCore's references: what the first pass is entered with. -/
abbrev ent0 : (c : Dev nD) → (b : Ref sig .tc) → Buf (Elt F) ((c : Thread nD τ).loc b) := fun c b => B0 m ρ c b
/-- After the first pass: its arrays at what its write-backs leave, every other buffer as entered. -/
def B1 (c : Dev nD) : Valuation τ sig (Elt F) :=
  Pipeline.withArrays spec0 c (B0 m ρ c) fun w => (dat0 (ent0 m ρ) c).arrAt w cfg0.N
theorem B1_arr (c : Dev nD) (w : Fin cfg0.W) :
    B1 m ρ c (Proc.devRef .tc (Pipeline.arrRef spec0 w)) = (dat0 (ent0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev mid0 : (c : Dev nD) → (b : Ref sig .tc) → Buf (Elt F) ((c : Thread nD τ).loc b) := fun c b => B1 m ρ c b
theorem left0 (c : Dev nD) (w : Fin cfg0.W) : (dat0 (ent0 m ρ) c).arrAt w cfg0.N = mid0 m ρ c (Pipeline.arrRef spec0 w) :=
  (B1_arr m ρ c w).symm
theorem kept0 (c : Dev nD) : ∀ b, b ∉ Finset.univ.image (Pipeline.arrRef spec0) → mid0 m ρ c b = ent0 m ρ c b :=
  fun b hb => B1_of_ne m ρ c b fun w e => hb (Finset.mem_image.mpr ⟨w, Finset.mem_univ _, e⟩)

/-- After the transposition of the weights. -/
abbrev B2 : Dev nD → Valuation τ sig (Elt F) := fun c => StableHlo.after hostOps1 (B1 m ρ c)
/-- The same at the TensorCore's references: what the second pass is entered with. -/
abbrev ent1 : (c : Dev nD) → (b : Ref sig .tc) → Buf (Elt F) ((c : Thread nD τ).loc b) := fun c b => B2 m ρ c b
/-- After the second pass. -/
def B3 (c : Dev nD) : Valuation τ sig (Elt F) :=
  Pipeline.withArrays spec1 c (B2 m ρ c) fun w => (dat1 (ent1 m ρ) c).arrAt w cfg1.N
theorem B3_arr (c : Dev nD) (w : Fin cfg1.W) :
    B3 m ρ c (Proc.devRef .tc (Pipeline.arrRef spec1 w)) = (dat1 (ent1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev fin1 : (c : Dev nD) → (b : Ref sig .tc) → Buf (Elt F) ((c : Thread nD τ).loc b) := fun c b => B3 m ρ c b
theorem left1 (c : Dev nD) (w : Fin cfg1.W) : (dat1 (ent1 m ρ) c).arrAt w cfg1.N = fin1 m ρ c (Pipeline.arrRef spec1 w) :=
  (B3_arr m ρ c w).symm
theorem kept1 (c : Dev nD) : ∀ b, b ∉ Finset.univ.image (Pipeline.arrRef spec1) → fin1 m ρ c b = ent1 m ρ c b :=
  fun b hb => B3_of_ne m ρ c b fun w e => hb (Finset.mem_image.mpr ⟨w, Finset.mem_univ _, e⟩)

/-! ## The proof data family and what rides beside the buffers -/

/-- No pallas_call has a prefetched table. -/
abbrev adm : (p : Fin 2) → (pcfgs (F := F) p).Adm := fun p => (cfgs p).toPCfg_adm
/-- Both passes' proof data, each at its own entry contents. -/
def fam : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev noVar : Variants := Variants.none
abbrev noLev : GSem nD τ sig → Finset Unit := fun _ => ∅
abbrev lv0 : GSem nD τ sig → Unit → ℕ := fun _ _ => 0
/-- The generator register at some state, and the core owing nothing. -/
abbrev carry (c : Dev nD) : sProp 𝕄 := iprop((∃ r, prngReg c r) ∗ ∃ W, owes (c : Thread nD τ) (0 : CellTallies nD τ sig Unit) W)

/-- The transposition as a host segment from the contents `W`. -/
abbrev hostPart (W : Dev nD → Valuation τ sig (Elt F)) :
    Pipeline.HostSeg (Name := ℕ) (U := UR sig nD τ) (pcfgs (F := F)) defs₀ noVar noLev lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W carry

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev lastT (c : Dev nD) : sProp 𝕄 := iprop(StableHlo.held (c : Thread nD τ) (Pipeline.ucRefs τ sig) (B3 m ρ c) ∗ ∃ r, prngReg c r)

/-! ## The two passes as segments -/

section Passes

variable (ob0 : ∀ (V : (c : Dev nD) → (b : Ref sig .tc) → Buf (Elt F) ((c : Thread nD τ).loc b)) (c : Dev nD),
    BodyObligation (dat0 (F := F) V c) (defs₀ (F := F)) Variants.none () Set.univ)
variable (ob1 : ∀ (V : (c : Dev nD) → (b : Ref sig .tc) → Buf (Elt F) ((c : Thread nD τ).loc b)) (c : Dev nD),
    BodyObligation (dat1 (F := F) V c) (defs₀ (F := F)) Variants.none () Set.univ)
variable (hin1 : ∀ (V : (c : Dev nD) → (b : Ref sig .tc) → Buf (Elt F) ((c : Thread nD τ).loc b)) (c : Dev nD),
    Pipeline.ΦA spec1 c ⊢ (dat1 (F := F) V c).Φ 0)
variable (hout1 : ∀ (V : (c : Dev nD) → (b : Ref sig .tc) → Buf (Elt F) ((c : Thread nD τ).loc b)) (c : Dev nD),
    (dat1 (F := F) V c).Φ (Fin.last cfg1.N) ⊢ Pipeline.ΦA spec1 c)

set_option backward.isDefEq.respectTransparency.types false in
/-- The first pass: entered from every unscoped buffer at `B0`, left at `B1`. -/
def passOne : Pipeline.RegionSeg (pcfgs (F := F)) adm (fam m ρ) () defs₀ noVar noLev lv0 0 where
  win := launch0.win.to₀
  block_pos := launch0.block_pos
  stage_whole := launch0.stage_whole
  K := PEmpty
  osem k := k.elim
  ho := Pipeline.OwnSemFacts.none _
  hbody c := (ob0 (ent0 m ρ) c).loose
  hwaits := Pipeline.hwaits_of_owed_zero _ _ _ _ noLev lv0 0 fun _ _ => rfl
  pre c := iprop(StableHlo.held (c : Thread nD τ) (Pipeline.ucRefs τ sig) (B0 m ρ c) ∗ carry c)
  post c := iprop(StableHlo.held (c : Thread nD τ) (Pipeline.ucRefs τ sig) (B1 m ρ c) ∗ carry c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (fam m ρ) launch0.win launch0.arr_whole c
      ((fam m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fam m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fam m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fam m ρ) ((fam m ρ 0 c).share_full fun _ => rfl)
      (ent0 m ρ c) (mid0 m ρ c) ((fam m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `B2`, left at `B3`. Its invariant starts as the scoped
    rest and the generator register (`hin1`) and gives them back after the last point (`hout1`). -/
def passTwo : Pipeline.RegionSeg (pcfgs (F := F)) adm (fam m ρ) () defs₀ noVar noLev lv0 1 where
  win := launch1.win.to₀
  block_pos := launch1.block_pos
  stage_whole := launch1.stage_whole
  K := PEmpty
  osem k := k.elim
  ho := Pipeline.OwnSemFacts.none _
  hbody c := (ob1 (ent1 m ρ) c).loose
  hwaits := Pipeline.hwaits_of_owed_zero _ _ _ _ noLev lv0 1 fun _ _ => rfl
  pre c := iprop(StableHlo.held (c : Thread nD τ) (Pipeline.ucRefs τ sig) (B2 m ρ c) ∗ carry c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (fam m ρ) launch1.win launch1.arr_whole c
      ((fam m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin1 (ent1 m ρ) c
    unfold Pipeline.ΦA at h1
    rw [show (fam m ρ 1 c).Φ 0 = (dat1 (ent1 m ρ) c).Φ 0 from rfl]
    iintro ⟨Hp, -, Hr⟩
    iapply h1
    isplitl [Hr]; · iexact Hr
    iexact Hp
  hout c := by
    rw [Pipeline.ownSems0_none]
    have h1 := hout1 (ent1 m ρ) c
    unfold Pipeline.ΦA at h1
    rw [show (fam m ρ 1 c).Φ (Fin.last _) = (dat1 (ent1 m ρ) c).Φ (Fin.last cfg1.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (fam m ρ) ((fam m ρ 1 c).share_full fun _ => rfl)
      (ent1 m ρ c) (fin1 m ρ c) ((fam m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three items in order. -/
abbrev parts : List (Pipeline.Seg (pcfgs (F := F)) adm (fam m ρ) () defs₀ noVar noLev lv0) :=
  [ .region (passOne m ρ ob0),
    .host (hostPart (B1 m ρ)),
    .region (passTwo m ρ ob1 hin1 hout1) ]

include ob0 ob1 hin1 hout1 in
theorem main_is_parts (c : Dev nD) : main (F := F) c = Pipeline.Seg.run (parts m ρ ob0 ob1 hin1 hout1) :=
  (main_chain c).trans (by chain_rfl)

include ob0 ob1 hin1 hout1 in
set_option backward.isDefEq.respectTransparency.types false in
/-- THE RUN. From any memory with zero counters every weakly fair execution of @main terminates, nothing faulting,
    and in the final memory every unscoped buffer of every core holds `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (fam m ρ) () cellOf_inj emb₁ defs₀ noVar noLev lv0 m ρ main (parts m ρ ob0 ob1 hin1 hout1)
    (fun c Q => by rw [main_is_parts m ρ ob0 ob1 hin1 hout1 c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ carry c)) (Tₙ := lastT m ρ)
    (hch := ⟨fun _ => .rfl, fun _ => .rfl, fun _ => .rfl, fun _ => .rfl⟩)
    (hinit := by
      refine Pipeline.initEach noLev lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

end Passes

end Cert.Kernel.Hand

end
-- ==== Proof.WBetween.lean ====
/-
  The buffers between the items of the program, read back to the launch memory.

  The transposition writes only its own result, so every other buffer the second pass is entered with is what the
  first pass left; the first pass changes only its three result arrays, so the two arrays it reads and the weight matrix
  are still as launched; the transposed weights at (k, d) are the weights at (d, k). After the second pass the three
  argument arrays are again as launched: it reads two of them through input windows and never touches the third.
-/
import proofs.«135583_g910533067196_cont_9to1c4b_380_9_alg».proof.Proof.WRun
import Idealize.ShloMosaic.Lib.Pipeline.Value
import Idealize.ShloMosaic.Lib.ValueIdx
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg) (c : Dev nD)

/-- What the second pass is entered with, at a buffer the transposition does not write: what the first pass left. -/
theorem ent1_of (b : Ref sig .tc) (h : b ∉ hostOps1_W) : ent1 m ρ c b = mid0 m ρ c b :=
  StableHlo.after_of_writes_sub hostOps1 _ hostOps1_writes h

/-- The first pass's arrays after it, window by window. -/
theorem mid0_x : mid0 m ρ c main_arg0 = (dat0 (ent0 m ρ) c).arrAt 0 cfg0.N := B1_arr m ρ c 0
theorem mid0_B : mid0 m ρ c main_arg1 = (dat0 (ent0 m ρ) c).arrAt 1 cfg0.N := B1_arr m ρ c 1
theorem mid0_msg : mid0 m ρ c main_v0_0 = (dat0 (ent0 m ρ) c).arrAt 2 cfg0.N := B1_arr m ρ c 2
theorem mid0_col : mid0 m ρ c main_v0_1 = (dat0 (ent0 m ρ) c).arrAt 3 cfg0.N := B1_arr m ρ c 3
theorem mid0_w : mid0 m ρ c main_v0_2 = (dat0 (ent0 m ρ) c).arrAt 4 cfg0.N := B1_arr m ρ c 4
/-- The weight matrix is no array of the first pass: it is still as launched. -/
theorem mid0_W : mid0 m ρ c main_arg2 = m ((c : Thread nD τ).loc main_arg2) :=
  (B1_of_ne m ρ c main_arg2 (by decide)).trans rfl
/-- An input window's array ends as entered. -/
theorem mid0_x' : mid0 m ρ c main_arg0 = m ((c : Thread nD τ).loc main_arg0) :=
  (mid0_x m ρ c).trans (((dat0 (ent0 m ρ) c).arrAt_in 0 rfl _).trans ((A_eq0 (ent0 m ρ) c 0).trans rfl))
theorem mid0_B' : mid0 m ρ c main_arg1 = m ((c : Thread nD τ).loc main_arg1) :=
  (mid0_B m ρ c).trans (((dat0 (ent0 m ρ) c).arrAt_in 1 rfl _).trans ((A_eq0 (ent0 m ρ) c 1).trans rfl))

theorem ent1_x : ent1 m ρ c main_arg0 = m ((c : Thread nD τ).loc main_arg0) :=
  (ent1_of m ρ c main_arg0 (by decide)).trans (mid0_x' m ρ c)
theorem ent1_B : ent1 m ρ c main_arg1 = m ((c : Thread nD τ).loc main_arg1) :=
  (ent1_of m ρ c main_arg1 (by decide)).trans (mid0_B' m ρ c)
theorem ent1_msg : ent1 m ρ c main_v0_0 = (dat0 (ent0 m ρ) c).arrAt 2 cfg0.N :=
  (ent1_of m ρ c main_v0_0 (by decide)).trans (mid0_msg m ρ c)
theorem ent1_col : ent1 m ρ c main_v0_1 = (dat0 (ent0 m ρ) c).arrAt 3 cfg0.N :=
  (ent1_of m ρ c main_v0_1 (by decide)).trans (mid0_col m ρ c)
theorem ent1_w : ent1 m ρ c main_v0_2 = (dat0 (ent0 m ρ) c).arrAt 4 cfg0.N :=
  (ent1_of m ρ c main_v0_2 (by decide)).trans (mid0_w m ρ c)

/-- The transposed weights as the second pass finds them: the transposition of the launch contents. -/
theorem ent1_WT : ent1 m ρ c main_v1
    = transpose S128x128 [1, 0] (m ((c : Thread nD τ).loc main_arg2)) transposes_S128x128_S128x128_1_0 := by
  have e : ent1 m ρ c main_v1 = transpose S128x128 [1, 0] (mid0 m ρ c main_arg2) transposes_S128x128_S128x128_1_0 := by
    show StableHlo.after hostOps1 (B1 m ρ c) (Proc.devRef .tc main_v1) = _
    after_results
  rw [e, mid0_W]

/-- Read at (k, d) it is the weight at (d, k). -/
theorem ent1_WT_apply (k d : Fin 128) :
    ent1 m ρ c main_v1 (ix2 k d) = m ((c : Thread nD τ).loc main_arg2) (ix2 d k) := by
  rw [ent1_WT]
  exact transpose_apply [1, 0] _ transposes_S128x128_S128x128_1_0 (ix2 k d) (ix2 d k) (fun b => match b with
    | ⟨0, _⟩ => rfl
    | ⟨1, _⟩ => rfl)

/-! ## After the second pass -/

theorem fin_out : B3 m ρ c (Proc.devRef .tc main_v2) = (dat1 (ent1 m ρ) c).arrAt 6 cfg1.N := B3_arr m ρ c 6
theorem fin_x : B3 m ρ c (Proc.devRef .tc main_arg0) = m ((c : Thread nD τ).loc main_arg0) :=
  (B3_arr m ρ c 1).trans (((dat1 (ent1 m ρ) c).arrAt_in 1 rfl _).trans ((A_eq1 (ent1 m ρ) c 1).trans (ent1_x m ρ c)))
theorem fin_B : B3 m ρ c (Proc.devRef .tc main_arg1) = m ((c : Thread nD τ).loc main_arg1) :=
  (B3_arr m ρ c 0).trans (((dat1 (ent1 m ρ) c).arrAt_in 0 rfl _).trans ((A_eq1 (ent1 m ρ) c 0).trans (ent1_B m ρ c)))
theorem fin_W : B3 m ρ c (Proc.devRef .tc main_arg2) = m ((c : Thread nD τ).loc main_arg2) :=
  (B3_of_ne m ρ c main_arg2 (by decide)).trans ((ent1_of m ρ c main_arg2 (by decide)).trans (mid0_W m ρ c))

end Cert.Kernel.Hand

end
-- ==== Proof.WK0Body.lean ====
/-
  The first pass over the incidence matrix: what one run of its body does to the staging buffers.

  The body loads the point's incidence block `B` (1000 × 4096) and feature block `x` (1000 × 128) whole, and forms
  the block's three contributions: the feature-major message table `xᵀ·B`, the column sums of `B`, and the column sums
  of `B` weighted by its row sums. Exactly one of its two branches is taken at every grid point: at the first point
  it stores the three contributions, at every later point it loads each result's running sum and stores the sum of
  that and the contribution. Every load and store is of a whole buffer, so after the body each result's buffer holds
  exactly the stored payload. Hence, by the two cases, the buffers are left at the running triple `acc0` of the
  proof data: at the first point by its base clause, at a later point by its step clause over what the point before
  left — the results' buffers are written back only after the last point and no window is ever idle, so a later
  point finds there what the point before left.
-/
import proofs.«135583_g910533067196_cont_9to1c4b_380_9_alg».proof.Proof.WK0Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and the idle table, decided over the ten grid points -/

/-- The first branch (store the block's contribution) is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second branch (add the block's contribution to the running sums) is taken at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches is taken at every coordinate, so no window is ever idle. -/
theorem liveAll0_0 : ∀ i : grid0.Coords, cfg0.idle 0 i = false := fun _ => rfl
theorem liveAll0_1 : ∀ i : grid0.Coords, cfg0.idle 1 i = false := fun _ => rfl
theorem liveAll0_2 : ∀ i : grid0.Coords, cfg0.idle 2 i = false := by decide +kernel
theorem liveAll0_3 : ∀ i : grid0.Coords, cfg0.idle 3 i = false := by decide +kernel
theorem liveAll0_4 : ∀ i : grid0.Coords, cfg0.idle 4 i = false := by decide +kernel

section
variable (V : (c : Dev nD) → (b : Ref sig .tc) → Buf (Elt F) ((c : Thread nD τ).loc b))

/-! ## What the body finds in each staging buffer -/

/-- The feature window's buffer holds its block at every point, fetched there or not. -/
theorem before0_0 (c : Dev nD) (t : Fin cfg0.N) (d) : (dat0 V c).before 0 t d = iblk0 V c 0 t :=
  ((dat0 V c).before_in_eq_fetched 0 rfl liveAll0_0 (fun _ _ _ => rfl)
    (fun t => by rw [after0_0]; unfold Dat.blockOf iblk0; rw [A_eq0]; try rfl) t d).trans
    (by unfold Dat.fetched Dat.blockOf iblk0; rw [A_eq0]; try rfl)

/-- The incidence window's buffer holds its block at every point, fetched there or not. -/
theorem before0_1 (c : Dev nD) (t : Fin cfg0.N) (d) : (dat0 V c).before 1 t d = iblk0 V c 1 t :=
  ((dat0 V c).before_in_eq_fetched 1 rfl liveAll0_1 (fun _ _ _ => rfl)
    (fun t => by rw [after0_1]; unfold Dat.blockOf iblk0; rw [A_eq0]; try rfl) t d).trans
    (by unfold Dat.fetched Dat.blockOf iblk0; rw [A_eq0]; try rfl)

/-- After the first point the message table's buffer holds the running sum the point before left: the buffer is
    written back after the last point only, and the window is live and uncut. -/
theorem before0_2 (c : Dev nD) (t : Fin cfg0.N) (h0 : t.val ≠ 0) (d) :
    (dat0 V c).before 2 t d = (acc0 V c (t.val - 1) (Nat.lt_of_le_of_lt (Nat.sub_le _ _) t.isLt)).1 := by
  have hN : t.val < 10 := lt_of_lt_of_eq t.isLt (show cfg0.N = 10 from N_0)
  rw [Dat.before_out_kept _ 2 rfl t h0 (Bool.eq_false_iff.mpr fun h => by have := (flush0_2 _).mp h; dsimp only at this; omega)
    liveAll0_2 (fun _ _ => rfl)]
  rw [after0_2]

/-- The same for the column sums, -/
theorem before0_3 (c : Dev nD) (t : Fin cfg0.N) (h0 : t.val ≠ 0) (d) :
    (dat0 V c).before 3 t d = (acc0 V c (t.val - 1) (Nat.lt_of_le_of_lt (Nat.sub_le _ _) t.isLt)).2.1 := by
  have hN : t.val < 10 := lt_of_lt_of_eq t.isLt (show cfg0.N = 10 from N_0)
  rw [Dat.before_out_kept _ 3 rfl t h0 (Bool.eq_false_iff.mpr fun h => by have := (flush0_3 _).mp h; dsimp only at this; omega)
    liveAll0_3 (fun _ _ => rfl)]
  rw [after0_3]

/-- and for the degree-weighted column sums. -/
theorem before0_4 (c : Dev nD) (t : Fin cfg0.N) (h0 : t.val ≠ 0) (d) :
    (dat0 V c).before 4 t d = (acc0 V c (t.val - 1) (Nat.lt_of_le_of_lt (Nat.sub_le _ _) t.isLt)).2.2 := by
  have hN : t.val < 10 := lt_of_lt_of_eq t.isLt (show cfg0.N = 10 from N_0)
  rw [Dat.before_out_kept _ 4 rfl t h0 (Bool.eq_false_iff.mpr fun h => by have := (flush0_4 _).mp h; dsimp only at this; omega)
    liveAll0_4 (fun _ _ => rfl)]
  rw [after0_4]

/-! ## Whole-buffer accesses

Every load and store of the body is through the rectangle of its buffer's own sizes at offset zero. -/

theorem hz : (![0, 0] : Fin 2 → Nat) = fun _ => 0 := funext fun a => by fin_cases a <;> rfl

/-- A load through the whole-buffer rectangle reads the buffer's contents. -/
theorem load_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-buffer rectangle leaves its payload, whatever the buffer held. -/
theorem store_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-! ## The body's triple, case by case -/

set_option maxHeartbeats 1000000 in
/-- AT THE FIRST POINT the body, on whole staging buffers — the inputs' at contents `x0` (features) and `x1`
    (incidence), the three results' at anything — runs to the continuation holding the inputs' as they were and each
    result's at its block's contribution. -/
theorem sound_kernel0_A (c : Dev nD) (E : Set ℕ) (i : grid0.Coords)
    (arg1 : Memref sig .tc .vmem S1000x128 .f32) (harg1 : arg1.IsWhole) (arg2 : Memref sig .tc .vmem S1000x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (hc1 : k0_cond1 i = 1#1) (hc2 : ¬k0_cond2 i = 1#1)
    (x0 : Vec F S1000x128 .f32) (x1 : Vec F S1000x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 x1 x0) ∗ owns (c : Thread nD τ) arg4 fullShare (k0_pay2 x1)
            ∗ owns (c : Thread nD τ) arg5 fullShare (k0_pay3 x1)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc1 | exact hc2)
  sl_step
  iapply Hk
  have e0 := load_whole (F := F) arg1.view f0 hz inb_S1000x128_S1000x128_0_0
  have e1 := load_whole (F := F) arg2.view f1 hz inb_S1000x4096_S1000x4096_0_0
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store_whole _ _ hz _ _).trans (by rw [e0, e1])
  isplitl [H3]
  · iexists _; isplitr
    swap; · iexact H3
    ipureintro
    exact (store_whole _ _ hz _ _).trans (by rw [e1])
  iexists _; isplitr
  swap; · iexact H4
  ipureintro
  exact (store_whole _ _ hz _ _).trans (by rw [e1])

set_option maxHeartbeats 1000000 in
/-- AT EVERY LATER POINT the body, on whole staging buffers — the inputs' at contents `x0` (features) and `x1`
    (incidence), the three results' at their running sums `xo2`, `xo3`, `xo4` — runs to the continuation holding the
    inputs' as they were and each result's at its running sum plus the block's contribution. -/
theorem sound_kernel0_B (c : Dev nD) (E : Set ℕ) (i : grid0.Coords)
    (arg1 : Memref sig .tc .vmem S1000x128 .f32) (harg1 : arg1.IsWhole) (arg2 : Memref sig .tc .vmem S1000x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (hc1 : ¬k0_cond1 i = 1#1) (hc2 : k0_cond2 i = 1#1)
    (x0 : Vec F S1000x128 .f32) (x1 : Vec F S1000x4096 .f32)
    (xo2 : Vec F S128x4096 .f32) (xo3 : Vec F S1x4096 .f32) (xo4 : Vec F S1x4096 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3 ∗ owns (c : Thread nD τ) arg5 fullShare xo4
        ∗ (iprop(owns (c : Thread nD τ) arg1 fullShare x0 ∗ owns (c : Thread nD τ) arg2 fullShare x1
            ∗ owns (c : Thread nD τ) arg3 fullShare (k0_pay4 x1 x0 xo2) ∗ owns (c : Thread nD τ) arg4 fullShare (k0_pay5 x1 xo3)
            ∗ owns (c : Thread nD τ) arg5 fullShare (k0_pay6 x1 xo4)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  have e0 := load_whole (F := F) arg1.view f0 hz inb_S1000x128_S1000x128_0_0
  have e1 := load_whole (F := F) arg2.view f1 hz inb_S1000x4096_S1000x4096_0_0
  have e2 := load_whole (F := F) arg3.view f2 hz inb_S128x4096_S128x4096_0_0
  have e3 := load_whole (F := F) arg4.view f3 hz inb_S1x4096_S1x4096_0_0
  have e4 := load_whole (F := F) arg5.view f4 hz inb_S1x4096_S1x4096_0_0
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store_whole _ _ hz _ _).trans (by rw [e0, e1, e2])
  isplitl [H3]
  · iexists _; isplitr
    swap; · iexact H3
    ipureintro
    exact (store_whole _ _ hz _ _).trans (by rw [e1, e3])
  iexists _; isplitr
  swap; · iexact H4
  ipureintro
  exact (store_whole _ _ hz _ _).trans (by rw [e1, e4])

/-! ## The body obligation, at a generic point -/

/-- What the body is called with at point `t`: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point. The inputs' buffers hold their blocks; no window is idle, so each buffer is left at what the
    proof data names. At the first point the first branch alone is taken and the results' buffers, holding anything,
    are left at the block's contributions; at a later point the second branch alone is taken and the results' buffers,
    holding the running sums the point before left, are left at those plus the block's contributions. The invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare (iblk0 V c 0 t) from by
        unfold Dat.leavesExact; rw [liveAll0_0 _, after0_0],
    show (dat0 V c).leavesExact 1 t = owns (c : Thread nD τ) (st0_1 t) fullShare (iblk0 V c 1 t) from by
        unfold Dat.leavesExact; rw [liveAll0_1 _, after0_1],
    show (dat0 V c).leavesExact 2 t = owns (c : Thread nD τ) (st0_2 t) fullShare (acc0 V c t.val t.isLt).1 from by
        unfold Dat.leavesExact; rw [liveAll0_2 _, after0_2],
    show (dat0 V c).leavesExact 3 t = owns (c : Thread nD τ) (st0_3 t) fullShare (acc0 V c t.val t.isLt).2.1 from by
        unfold Dat.leavesExact; rw [liveAll0_3 _, after0_3],
    show (dat0 V c).leavesExact 4 t = owns (c : Thread nD τ) (st0_4 t) fullShare (acc0 V c t.val t.isLt).2.2 from by
        unfold Dat.leavesExact; rw [liveAll0_4 _, after0_4]]
  by_cases h0 : t.val = 0
  · rw [acc0_zero V c t h0]
    dsimp only
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_1 t).mpr h0) (fun h => (hcond0_2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_2 V c t h0, before0_3 V c t h0, before0_4 V c t h0]
    rw [acc0_pos V c t h0]
    dsimp only
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_1 t).mp h)) ((hcond0_2 t).mpr h0)
      (iblk0 V c 0 t) (iblk0 V c 1 t) _ _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.WK1Body.lean ====
/-
  The second pass's body, point by point: the obligation the pipeline library asks of a kernel body.

  The body runs on whole staging buffers. At the first point it fills the scratch with the message table scaled per
  hyperedge — from the weighted sums, the column sums and the message table, windows 4, 3 and 2 — and reads it back; at
  every later point it finds the scratch as the first point left it. At every point it computes the result block from
  the incidence block, the scratch, the feature block and the transposed weights, and stores it whole. So after the body
  at any point each input's buffer holds its block still, the result's buffer holds the payload over those blocks and
  the scratch, and the scratch holds what `acc1` says.

  Every load and store here is of a whole buffer, through the rectangle of the buffer's own sizes at zero offsets: a load
  reads the contents, a store leaves its payload, and a load after a store reads that payload.

  Between points the invariant carries, beside the scratch, the first pass's seven staging buffers and the generator
  register, which this body never touches.
-/
import proofs.«135583_g910533067196_cont_9to1c4b_380_9_alg».proof.Proof.WK1Defs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every access of this body is through the rectangle of the buffer's own sizes at zero offsets: a load through it
reads the contents, and one store through it leaves its payload. -/

/-- The zero offsets of a two-axis buffer, as a literal vector. -/
theorem off2_zero : (![0, 0] : Fin 2 → Nat) = fun _ => 0 := funext fun a => by fin_cases a <;> rfl

/-- A load of the whole buffer reads what the buffer reads as. -/
theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-- After one store of the whole buffer, the buffer reads as the payload, whatever it held. -/
theorem read_writes_whole {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-! ## The branch condition -/

/-- The condition of the body's one conditional, from the grid coordinates: the first coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the ten points. -/
theorem hcond1 : ∀ t : Fin cfg1.N, cond1 (grid1.coords t) ↔ t.val = 0 :=
  (by decide +kernel : ∀ t : Fin grid1.N, cond1 (grid1.coords t) ↔ t.val = 0)

/-! ## The body's triple, case by case

The body on whole staging memrefs: the six inputs' at their read contents, the result's at anything. Windows 0 … 6 are
the arguments 1 … 7 and the scratch is argument 8. -/

set_option maxHeartbeats 4000000 in
/-- At the first point: the scratch, found at anything, is filled with the scaled message table (from the weighted sums,
    the column sums and the message table: windows 4, 3, 2) and read back; the result block is computed from it. -/
theorem sound_kernel1_first (c : Dev nD) (E : Set ℕ) (i : grid1.Coords) (arg1 : Memref sig .tc .vmem S1000x4096 .f32) (harg1 : arg1.IsWhole) (arg2 : Memref sig .tc .vmem S1000x128 .f32) (harg2 : arg2.IsWhole) (arg3 : Memref sig .tc .vmem S128x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S128x128 .f32) (harg6 : arg6.IsWhole) (arg7 : Memref sig .tc .vmem S1000x128 .f32) (harg7 : arg7.IsWhole) (arg8 : Memref sig .tc .vmem S128x4096 .bf16) (harg8 : arg8.IsWhole) (hc : cond1 i)
    (x0 : Vec F S1000x4096 .f32) (x1 : Vec F S1000x128 .f32) (x2 : Vec F S128x4096 .f32) (x3 : Vec F S1x4096 .f32) (x4 : Vec F S1x4096 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 (k1_pay1 x4 x3 x2) x1 x5)
            ∗ owns (c : Thread nD τ) arg8 fullShare (k1_pay1 x4 x3 x2)) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole _ _ off2_zero, View.readCov_unit_zero _ off2_zero,
      readAt_whole _ _ off2_zero, readAt_whole _ _ off2_zero, readAt_whole _ _ off2_zero, readAt_whole _ _ off2_zero, readAt_whole _ _ off2_zero, readAt_whole _ _ off2_zero]
  iexists _; isplitr
  swap; · iexact H7
  ipureintro
  rw [read_writes_whole _ _ off2_zero, readAt_whole _ _ off2_zero, readAt_whole _ _ off2_zero, readAt_whole _ _ off2_zero]

set_option maxHeartbeats 4000000 in
/-- At a later point: the scratch is found at what the point before left, `xs`, and left so; the result block is
    computed from it. -/
theorem sound_kernel1_later (c : Dev nD) (E : Set ℕ) (i : grid1.Coords) (arg1 : Memref sig .tc .vmem S1000x4096 .f32) (harg1 : arg1.IsWhole) (arg2 : Memref sig .tc .vmem S1000x128 .f32) (harg2 : arg2.IsWhole) (arg3 : Memref sig .tc .vmem S128x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S128x128 .f32) (harg6 : arg6.IsWhole) (arg7 : Memref sig .tc .vmem S1000x128 .f32) (harg7 : arg7.IsWhole) (arg8 : Memref sig .tc .vmem S128x4096 .bf16) (harg8 : arg8.IsWhole) (hc : ¬cond1 i)
    (x0 : Vec F S1000x4096 .f32) (x1 : Vec F S1000x128 .f32) (x2 : Vec F S128x4096 .f32) (x3 : Vec F S1x4096 .f32) (x4 : Vec F S1x4096 .f32) (x5 : Vec F S128x128 .f32) (xs : Vec F S128x4096 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 xs x1 x5)
            ∗ owns (c : Thread nD τ) arg8 fullShare xs) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole _ _ off2_zero, readAt_whole _ _ off2_zero, readAt_whole _ _ off2_zero, readAt_whole _ _ off2_zero, readAt_whole _ _ off2_zero]
  iexists f7; isplitr; · ipureintro; rfl
  iexact H7

section
-- the TensorCore's buffer contents when the region is entered
variable (V : (c : Dev nD) → (b : Ref sig .tc) → Buf (Elt F) ((c : Thread nD τ).loc b))

/-! ## The region's invariant, opened -/

/-- What the launch hands the region: the first pass's seven staging buffers and the scratch, each at some contents, and
    the generator register at some state — the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1 fullShare d)) ∗ (∃ r, prngReg c r)) := by
  unfold Pipeline.ΦA; rw [scopedRest1_eq]; simp only [scM1, owns_whole]; try rfl

/-! ## What the body finds in each input's buffer

Every input window's current staging buffer holds its block at every point, fetched there or not: a window fetched at
the first point only has a constant block index, so the block it was left with is still the point's. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point. The inputs' buffers hold their blocks. At the first point the invariant is the launch's: the
    scratch is handed over at anything and taken back filled; at a later point the invariant names what the point before
    left in the scratch, which is handed over and taken back unchanged. The first pass's staging buffers, the
    generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5, after1_6]
  by_cases hz : t.val = 0
  · rw [acc1_zero V c t hz]; dsimp only
    rw [PhiS1_castSucc V c t, PhiS1_zero V c _ _ hz, PhiA1_eq]
    iintro ⟨⟨⟨B0, B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_first c Set.univ (grid1.coords t) _ _ _ _ _ _ _ _ _ _ _ _ _ _ _ _ ((hcond1 t).mpr hz)
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [B0 B1 B2 B3 B4 B5 B6 HS Hg]
    · isplitl [B0 B1 B2 B3 B4 B5 B6 HS]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc1_pos V c t hz]; dsimp only
    rw [PhiS1_castSucc V c t, PhiS1_pos V c _ _ hz]
    iintro ⟨⟨⟨B0, B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_later c Set.univ (grid1.coords t) _ _ _ _ _ _ _ _ _ _ _ _ _ _ _ _ (fun h => hz ((hcond1 t).mp h))
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [B0 B1 B2 B3 B4 B5 B6 HS Hg]
    · isplitl [B0 B1 B2 B3 B4 B5 B6 HS]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch holds is forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨B0, B1, B2, B3, B4, B5, B6, HS⟩, Hg⟩
  isplitl [B0 B1 B2 B3 B4 B5 B6 HS]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  iexists _; iexact HS

/-- The same after the last point. -/
theorem hout1 (c : Dev nD) : (dat1 (F := F) V c).Φ (Fin.last cfg1.N) ⊢ Pipeline.ΦA spec1 c :=
  Phi_out1 V c _ (by rw [Fin.val_last]; have : cfg1.N = 10 := N_1; omega)

end

end Cert.Kernel.Hand

end
-- ==== Proof.WFrame.lean ====
/-
  The frame of the two-pass program, at any float instance: every weakly fair execution from any memory with zero
  counters terminates, nothing faulting, and the three argument arrays end as launched — read off the whole run, whose
  last thread state names every unscoped buffer.
-/
import proofs.«135583_g910533067196_cont_9to1c4b_380_9_alg».proof.Proof.WBetween
import proofs.«135583_g910533067196_cont_9to1c4b_380_9_alg».proof.Proof.WK0Body
import proofs.«135583_g910533067196_cont_9to1c4b_380_9_alg».proof.Proof.WK1Body

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The whole run with both passes' body obligations supplied. -/
theorem run_both : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  run_all m ρ body_obligation0 body_obligation1 hin1 hout1

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (fin_x m ρ c),
     (h c _ (mem_uc main_arg1 (by decide))).trans (fin_B m ρ c),
     (h c _ (mem_uc main_arg2 (by decide))).trans (fin_W m ρ c)⟩) (run_both m ρ)

end Cert.Kernel.Hand

end
-- ==== Proof.K0Defs.lean ====
/-
  The first pass over the incidence matrix, as data for the pipeline library.

  The grid has ten points; point `t` sees rows 1000·t … 1000·t+999 of the node features (window 0) and of the incidence
  matrix (window 1). The three results — the feature-major message table (window 2), the column sums (window 3) and the
  degree-weighted column sums (window 4) — each live in ONE block that every point maps to, so their staging buffers are
  written back only after the last point and carry a running sum in between: the first point stores its block's
  contribution, every later point adds its own to what the point before left.
  `acc0` is that running triple after point `n`; `dat0` hands it to the library as what the body leaves.
-/
import proofs.«135583_g910533067196_cont_9to1c4b_380_9_alg».proof.Proof.Gen.KernelIdeal.Launch
import proofs.«135583_g910533067196_cont_9to1c4b_380_9_alg».proof.Proof.Gen.KernelIdeal.Skeleton
import proofs.«135583_g910533067196_cont_9to1c4b_380_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sums after the body at position `n`: (message table, column sums, weighted column sums).
    Position 0 stores the first block's contribution; position `n + 1` adds its block's to what position `n` left. -/
def acc0 (c : Dev nD) : (n : ℕ) → n < cfg0.N → Vec F S128x4096 .f32 × Vec F S1x4096 .f32 × Vec F S1x4096 .f32
  | 0, hn => (k0_pay1 (iblk0 V c 1 ⟨0, hn⟩) (iblk0 V c 0 ⟨0, hn⟩), k0_pay2 (iblk0 V c 1 ⟨0, hn⟩), k0_pay3 (iblk0 V c 1 ⟨0, hn⟩))
  | n + 1, hn =>
    (k0_pay4 (iblk0 V c 1 ⟨n + 1, hn⟩) (iblk0 V c 0 ⟨n + 1, hn⟩) (acc0 c n (Nat.lt_of_succ_lt hn)).1,
     k0_pay5 (iblk0 V c 1 ⟨n + 1, hn⟩) (acc0 c n (Nat.lt_of_succ_lt hn)).2.1,
     k0_pay6 (iblk0 V c 1 ⟨n + 1, hn⟩) (acc0 c n (Nat.lt_of_succ_lt hn)).2.2)

theorem acc0_zero (c : Dev nD) (t : Fin cfg0.N) (h0 : t.val = 0) :
    acc0 V c t.val t.isLt = (k0_pay1 (iblk0 V c 1 t) (iblk0 V c 0 t), k0_pay2 (iblk0 V c 1 t), k0_pay3 (iblk0 V c 1 t)) := by
  obtain ⟨n, hn⟩ := t
  cases n with
  | zero => rfl
  | succ n => exact absurd h0 (Nat.succ_ne_zero n)

theorem acc0_pos (c : Dev nD) (t : Fin cfg0.N) (h0 : t.val ≠ 0) :
    acc0 V c t.val t.isLt =
      (k0_pay4 (iblk0 V c 1 t) (iblk0 V c 0 t) (acc0 V c (t.val - 1) (Nat.lt_of_le_of_lt (Nat.sub_le _ _) t.isLt)).1,
       k0_pay5 (iblk0 V c 1 t) (acc0 V c (t.val - 1) (Nat.lt_of_le_of_lt (Nat.sub_le _ _) t.isLt)).2.1,
       k0_pay6 (iblk0 V c 1 t) (acc0 V c (t.val - 1) (Nat.lt_of_le_of_lt (Nat.sub_le _ _) t.isLt)).2.2) := by
  obtain ⟨n, hn⟩ := t
  cases n with
  | zero => exact absurd rfl h0
  | succ n => rfl

/-- The proof data of the first pass on core `c`: the arrays as the region finds them; after the body at point `t` each
    input's buffer at its block and the three results' at the running sums; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2 := by dsimp only [dat0]

end

end Cert.KernelIdeal.Hand

end
-- ==== Proof.K1Defs.lean ====
/-
  The second pass over the incidence matrix, as data for the pipeline library.

  Ten points again; point `t` sees rows 1000·t … 1000·t+999 of the incidence matrix (window 0) and of the node features
  (window 1), and the whole of the first pass's three results (windows 2, 3, 4) and of the transposed weights (window 5),
  fetched once. The result (window 6) is written back block by block, one block per point.
  A scratch buffer holds the message table scaled per hyperedge: the first point fills it from windows 2–4 before using
  it, every later point finds it as the first point left it. `acc1` is (result block, scratch) after point `n`;
  the invariant `PhiS1` carries the scratch from one point to the next.
-/
import proofs.«135583_g910533067196_cont_9to1c4b_380_9_alg».proof.Proof.Gen.KernelIdeal.Launch
import proofs.«135583_g910533067196_cont_9to1c4b_380_9_alg».proof.Proof.Gen.KernelIdeal.Skeleton
import proofs.«135583_g910533067196_cont_9to1c4b_380_9_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch buffer, whole. -/
abbrev scM1 : Memref sig .tc .vmem S128x4096 .bf16 := Memref.whole cc1_scratch0

/-- (result block, scratch) after the body at position `n`. Position 0 fills the scratch with the scaled message table
    and uses it; position `n + 1` uses the scratch as position `n` left it and leaves it so. -/
def acc1 (c : Dev nD) : (n : ℕ) → n < cfg1.N → Vec F S1000x128 .f32 × Vec F S128x4096 .bf16
  | 0, hn =>
    (k1_pay2 (iblk1 V c 0 ⟨0, hn⟩) (k1_pay1 (iblk1 V c 4 ⟨0, hn⟩) (iblk1 V c 3 ⟨0, hn⟩) (iblk1 V c 2 ⟨0, hn⟩)) (iblk1 V c 1 ⟨0, hn⟩) (iblk1 V c 5 ⟨0, hn⟩),
     k1_pay1 (iblk1 V c 4 ⟨0, hn⟩) (iblk1 V c 3 ⟨0, hn⟩) (iblk1 V c 2 ⟨0, hn⟩))
  | n + 1, hn =>
    (k1_pay2 (iblk1 V c 0 ⟨n + 1, hn⟩) (acc1 c n (Nat.lt_of_succ_lt hn)).2 (iblk1 V c 1 ⟨n + 1, hn⟩) (iblk1 V c 5 ⟨n + 1, hn⟩),
     (acc1 c n (Nat.lt_of_succ_lt hn)).2)

theorem acc1_zero (c : Dev nD) (t : Fin cfg1.N) (h0 : t.val = 0) :
    acc1 V c t.val t.isLt =
      (k1_pay2 (iblk1 V c 0 t) (k1_pay1 (iblk1 V c 4 t) (iblk1 V c 3 t) (iblk1 V c 2 t)) (iblk1 V c 1 t) (iblk1 V c 5 t),
       k1_pay1 (iblk1 V c 4 t) (iblk1 V c 3 t) (iblk1 V c 2 t)) := by
  obtain ⟨n, hn⟩ := t
  cases n with
  | zero => rfl
  | succ n => exact absurd h0 (Nat.succ_ne_zero n)

theorem acc1_pos (c : Dev nD) (t : Fin cfg1.N) (h0 : t.val ≠ 0) :
    acc1 V c t.val t.isLt =
      (k1_pay2 (iblk1 V c 0 t) (acc1 V c (t.val - 1) (Nat.lt_of_le_of_lt (Nat.sub_le _ _) t.isLt)).2 (iblk1 V c 1 t) (iblk1 V c 5 t),
       (acc1 V c (t.val - 1) (Nat.lt_of_le_of_lt (Nat.sub_le _ _) t.isLt)).2) := by
  obtain ⟨n, hn⟩ := t
  cases n with
  | zero => exact absurd rfl h0
  | succ n => rfl

/-- The invariant before position `n`: before the first point the scoped rest (every scoped buffer no window stages —
    the first pass's seven staging buffers and the scratch — at anything) and the generator register; afterwards the same
    with the scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ owns (c : Thread nD τ) scM1 fullShare ((acc1 V c (n - 1) (by omega)).2)) ∗ (∃ r, prngReg c r)) := by
  cases n with
  | zero => exact absurd rfl hz
  | succ n => rfl

/-- The proof data of the second pass on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (acc1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (acc1 V c t.val t.isLt).1 := by dsimp only [dat1]

end

end Cert.KernelIdeal.Hand

end
-- ==== Proof.Run.lean ====
/-
  The whole run of the two-pass program, at any float instance.

  @main is: the first pass (a pipelined region), one host operation (the weight matrix transposed), the second pass
  (a pipelined region). Between two of these items a core holds every unscoped buffer whole, at contents named here as a
  fold from the launch memory: as launched (`B0`); after the first pass, with its arrays at what its write-backs leave
  (`B1`); after the transposition (`B2`); after the second pass (`B3`). Each pass is a segment of the pipeline
  library's several-regions launch, taking its body obligation as a hypothesis; what rides beside the buffers is the
  generator register at some state and the core owing nothing. The conclusion names every unscoped buffer of the final
  memory: it holds `B3` there. The frame claim and the value claim both read it.
-/
import proofs.«135583_g910533067196_cont_9to1c4b_380_9_alg».proof.Proof.K0Defs
import proofs.«135583_g910533067196_cont_9to1c4b_380_9_alg».proof.Proof.K1Defs
import proofs.«135583_g910533067196_cont_9to1c4b_380_9_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of @main -/

/-- As launched. -/
abbrev B0 : Dev nD → Valuation τ sig (Elt F) := fun c b => (s₀ m ρ).mem ((c : Dev nD), b)
/-- The same at the TensorCore's references: what the first pass is entered with. -/
abbrev ent0 : (c : Dev nD) → (b : Ref sig .tc) → Buf (Elt F) ((c : Thread nD τ).loc b) := fun c b => B0 m ρ c b
/-- After the first pass: its arrays at what its write-backs leave, every other buffer as entered. -/
def B1 (c : Dev nD) : Valuation τ sig (Elt F) :=
  Pipeline.withArrays spec0 c (B0 m ρ c) fun w => (dat0 (ent0 m ρ) c).arrAt w cfg0.N
theorem B1_arr (c : Dev nD) (w : Fin cfg0.W) :
    B1 m ρ c (Proc.devRef .tc (Pipeline.arrRef spec0 w)) = (dat0 (ent0 m ρ) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m ρ c (Proc.devRef .tc b) = B0 m ρ c (Proc.devRef .tc b) := by
  unfold B1; exact Pipeline.withArrays_of_ne spec0 c _ _ b hb
abbrev mid0 : (c : Dev nD) → (b : Ref sig .tc) → Buf (Elt F) ((c : Thread nD τ).loc b) := fun c b => B1 m ρ c b
theorem left0 (c : Dev nD) (w : Fin cfg0.W) : (dat0 (ent0 m ρ) c).arrAt w cfg0.N = mid0 m ρ c (Pipeline.arrRef spec0 w) :=
  (B1_arr m ρ c w).symm
theorem kept0 (c : Dev nD) : ∀ b, b ∉ Finset.univ.image (Pipeline.arrRef spec0) → mid0 m ρ c b = ent0 m ρ c b :=
  fun b hb => B1_of_ne m ρ c b fun w e => hb (Finset.mem_image.mpr ⟨w, Finset.mem_univ _, e⟩)

/-- After the transposition of the weights. -/
abbrev B2 : Dev nD → Valuation τ sig (Elt F) := fun c => StableHlo.after hostOps1 (B1 m ρ c)
/-- The same at the TensorCore's references: what the second pass is entered with. -/
abbrev ent1 : (c : Dev nD) → (b : Ref sig .tc) → Buf (Elt F) ((c : Thread nD τ).loc b) := fun c b => B2 m ρ c b
/-- After the second pass. -/
def B3 (c : Dev nD) : Valuation τ sig (Elt F) :=
  Pipeline.withArrays spec1 c (B2 m ρ c) fun w => (dat1 (ent1 m ρ) c).arrAt w cfg1.N
theorem B3_arr (c : Dev nD) (w : Fin cfg1.W) :
    B3 m ρ c (Proc.devRef .tc (Pipeline.arrRef spec1 w)) = (dat1 (ent1 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev fin1 : (c : Dev nD) → (b : Ref sig .tc) → Buf (Elt F) ((c : Thread nD τ).loc b) := fun c b => B3 m ρ c b
theorem left1 (c : Dev nD) (w : Fin cfg1.W) : (dat1 (ent1 m ρ) c).arrAt w cfg1.N = fin1 m ρ c (Pipeline.arrRef spec1 w) :=
  (B3_arr m ρ c w).symm
theorem kept1 (c : Dev nD) : ∀ b, b ∉ Finset.univ.image (Pipeline.arrRef spec1) → fin1 m ρ c b = ent1 m ρ c b :=
  fun b hb => B3_of_ne m ρ c b fun w e => hb (Finset.mem_image.mpr ⟨w, Finset.mem_univ _, e⟩)

/-! ## The proof data family and what rides beside the buffers -/

/-- No pallas_call has a prefetched table. -/
abbrev adm : (p : Fin 2) → (pcfgs (F := F) p).Adm := fun p => (cfgs p).toPCfg_adm
/-- Both passes' proof data, each at its own entry contents. -/
def fam : (p : Fin 2) → (c : Dev nD) → Dat τ (Elt F) Unit ℕ (UR sig nD τ) ℕ (Pipeline.pin (pcfgs (F := F)) adm p) c
  | ⟨0, _⟩ => fun c => dat0 (ent0 m ρ) c
  | ⟨1, _⟩ => fun c => dat1 (ent1 m ρ) c
abbrev noVar : Variants := Variants.none
abbrev noLev : GSem nD τ sig → Finset Unit := fun _ => ∅
abbrev lv0 : GSem nD τ sig → Unit → ℕ := fun _ _ => 0
/-- The generator register at some state, and the core owing nothing. -/
abbrev carry (c : Dev nD) : sProp 𝕄 := iprop((∃ r, prngReg c r) ∗ ∃ W, owes (c : Thread nD τ) (0 : CellTallies nD τ sig Unit) W)

/-- The transposition as a host segment from the contents `W`. -/
abbrev hostPart (W : Dev nD → Valuation τ sig (Elt F)) :
    Pipeline.HostSeg (Name := ℕ) (U := UR sig nD τ) (pcfgs (F := F)) defs₀ noVar noLev lv0 :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) W carry

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev lastT (c : Dev nD) : sProp 𝕄 := iprop(StableHlo.held (c : Thread nD τ) (Pipeline.ucRefs τ sig) (B3 m ρ c) ∗ ∃ r, prngReg c r)

/-! ## The two passes as segments -/

section Passes

variable (ob0 : ∀ (V : (c : Dev nD) → (b : Ref sig .tc) → Buf (Elt F) ((c : Thread nD τ).loc b)) (c : Dev nD),
    BodyObligation (dat0 (F := F) V c) (defs₀ (F := F)) Variants.none () Set.univ)
variable (ob1 : ∀ (V : (c : Dev nD) → (b : Ref sig .tc) → Buf (Elt F) ((c : Thread nD τ).loc b)) (c : Dev nD),
    BodyObligation (dat1 (F := F) V c) (defs₀ (F := F)) Variants.none () Set.univ)
variable (hin1 : ∀ (V : (c : Dev nD) → (b : Ref sig .tc) → Buf (Elt F) ((c : Thread nD τ).loc b)) (c : Dev nD),
    Pipeline.ΦA spec1 c ⊢ (dat1 (F := F) V c).Φ 0)
variable (hout1 : ∀ (V : (c : Dev nD) → (b : Ref sig .tc) → Buf (Elt F) ((c : Thread nD τ).loc b)) (c : Dev nD),
    (dat1 (F := F) V c).Φ (Fin.last cfg1.N) ⊢ Pipeline.ΦA spec1 c)

set_option backward.isDefEq.respectTransparency.types false in
/-- The first pass: entered from every unscoped buffer at `B0`, left at `B1`. -/
def passOne : Pipeline.RegionSeg (pcfgs (F := F)) adm (fam m ρ) () defs₀ noVar noLev lv0 0 where
  win := launch0.win.to₀
  block_pos := launch0.block_pos
  stage_whole := launch0.stage_whole
  K := PEmpty
  osem k := k.elim
  ho := Pipeline.OwnSemFacts.none _
  hbody c := (ob0 (ent0 m ρ) c).loose
  hwaits := Pipeline.hwaits_of_owed_zero _ _ _ _ noLev lv0 0 fun _ _ => rfl
  pre c := iprop(StableHlo.held (c : Thread nD τ) (Pipeline.ucRefs τ sig) (B0 m ρ c) ∗ carry c)
  post c := iprop(StableHlo.held (c : Thread nD τ) (Pipeline.ucRefs τ sig) (B1 m ρ c) ∗ carry c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) adm (fam m ρ) launch0.win launch0.arr_whole c
      ((fam m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fam m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fam m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fam m ρ) ((fam m ρ 0 c).share_full fun _ => rfl)
      (ent0 m ρ c) (mid0 m ρ c) ((fam m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pass: entered from every unscoped buffer at `B2`, left at `B3`. Its invariant starts as the scoped
    rest and the generator register (`hin1`) and gives them back after the last point (`hout1`). -/
def passTwo : Pipeline.RegionSeg (pcfgs (F := F)) adm (fam m ρ) () defs₀ noVar noLev lv0 1 where
  win := launch1.win.to₀
  block_pos := launch1.block_pos
  stage_whole := launch1.stage_whole
  K := PEmpty
  osem k := k.elim
  ho := Pipeline.OwnSemFacts.none _
  hbody c := (ob1 (ent1 m ρ) c).loose
  hwaits := Pipeline.hwaits_of_owed_zero _ _ _ _ noLev lv0 1 fun _ _ => rfl
  pre c := iprop(StableHlo.held (c : Thread nD τ) (Pipeline.ucRefs τ sig) (B2 m ρ c) ∗ carry c)
  post c := iprop(lastT m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) adm (fam m ρ) launch1.win launch1.arr_whole c
      ((fam m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 := hin1 (ent1 m ρ) c
    unfold Pipeline.ΦA at h1
    rw [show (fam m ρ 1 c).Φ 0 = (dat1 (ent1 m ρ) c).Φ 0 from rfl]
    iintro ⟨Hp, -, Hr⟩
    iapply h1
    isplitl [Hr]; · iexact Hr
    iexact Hp
  hout c := by
    rw [Pipeline.ownSems0_none]
    have h1 := hout1 (ent1 m ρ) c
    unfold Pipeline.ΦA at h1
    rw [show (fam m ρ 1 c).Φ (Fin.last _) = (dat1 (ent1 m ρ) c).Φ (Fin.last cfg1.N) from rfl]
    iintro H
    ihave H' := h1 $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (fam m ρ) ((fam m ρ 1 c).share_full fun _ => rfl)
      (ent1 m ρ c) (fin1 m ρ c) ((fam m ρ 1 c).arrAt · cfg1.N) (left1 m ρ c) (kept1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three items in order. -/
abbrev parts : List (Pipeline.Seg (pcfgs (F := F)) adm (fam m ρ) () defs₀ noVar noLev lv0) :=
  [ .region (passOne m ρ ob0),
    .host (hostPart (B1 m ρ)),
    .region (passTwo m ρ ob1 hin1 hout1) ]

include ob0 ob1 hin1 hout1 in
theorem main_is_parts (c : Dev nD) : main (F := F) c = Pipeline.Seg.run (parts m ρ ob0 ob1 hin1 hout1) :=
  (main_chain c).trans (by chain_rfl)

include ob0 ob1 hin1 hout1 in
set_option backward.isDefEq.respectTransparency.types false in
/-- THE RUN. From any memory with zero counters every weakly fair execution of @main terminates, nothing faulting,
    and in the final memory every unscoped buffer of every core holds `B3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (fam m ρ) () cellOf_inj emb₁ defs₀ noVar noLev lv0 m ρ main (parts m ρ ob0 ob1 hin1 hout1)
    (fun c Q => by rw [main_is_parts m ρ ob0 ob1 hin1 hout1 c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ carry c)) (Tₙ := lastT m ρ)
    (hch := ⟨fun _ => .rfl, fun _ => .rfl, fun _ => .rfl, fun _ => .rfl⟩)
    (hinit := by
      refine Pipeline.initEach noLev lv0 fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

end Passes

end Cert.KernelIdeal.Hand

end
-- ==== Proof.Between.lean ====
/-
  The buffers between the items of the program, read back to the launch memory.

  The transposition writes only its own result, so every other buffer the second pass is entered with is what the
  first pass left; the first pass changes only its three result arrays, so the two arrays it reads and the weight matrix
  are still as launched; the transposed weights at (k, d) are the weights at (d, k). After the second pass the three
  argument arrays are again as launched: it reads two of them through input windows and never touches the third.
-/
import proofs.«135583_g910533067196_cont_9to1c4b_380_9_alg».proof.Proof.Run
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg) (c : Dev nD)

/-- What the second pass is entered with, at a buffer the transposition does not write: what the first pass left. -/
theorem ent1_of (b : Ref sig .tc) (h : b ∉ hostOps1_W) : ent1 m ρ c b = mid0 m ρ c b :=
  StableHlo.after_of_writes_sub hostOps1 _ hostOps1_writes h

/-- The first pass's arrays after it, window by window. -/
theorem mid0_x : mid0 m ρ c main_arg0 = (dat0 (ent0 m ρ) c).arrAt 0 cfg0.N := B1_arr m ρ c 0
theorem mid0_B : mid0 m ρ c main_arg1 = (dat0 (ent0 m ρ) c).arrAt 1 cfg0.N := B1_arr m ρ c 1
theorem mid0_msg : mid0 m ρ c main_v0_0 = (dat0 (ent0 m ρ) c).arrAt 2 cfg0.N := B1_arr m ρ c 2
theorem mid0_col : mid0 m ρ c main_v0_1 = (dat0 (ent0 m ρ) c).arrAt 3 cfg0.N := B1_arr m ρ c 3
theorem mid0_w : mid0 m ρ c main_v0_2 = (dat0 (ent0 m ρ) c).arrAt 4 cfg0.N := B1_arr m ρ c 4
/-- The weight matrix is no array of the first pass: it is still as launched. -/
theorem mid0_W : mid0 m ρ c main_arg2 = m ((c : Thread nD τ).loc main_arg2) :=
  (B1_of_ne m ρ c main_arg2 (by decide)).trans rfl
/-- An input window's array ends as entered. -/
theorem mid0_x' : mid0 m ρ c main_arg0 = m ((c : Thread nD τ).loc main_arg0) :=
  (mid0_x m ρ c).trans (((dat0 (ent0 m ρ) c).arrAt_in 0 rfl _).trans ((A_eq0 (ent0 m ρ) c 0).trans rfl))
theorem mid0_B' : mid0 m ρ c main_arg1 = m ((c : Thread nD τ).loc main_arg1) :=
  (mid0_B m ρ c).trans (((dat0 (ent0 m ρ) c).arrAt_in 1 rfl _).trans ((A_eq0 (ent0 m ρ) c 1).trans rfl))

theorem ent1_x : ent1 m ρ c main_arg0 = m ((c : Thread nD τ).loc main_arg0) :=
  (ent1_of m ρ c main_arg0 (by decide)).trans (mid0_x' m ρ c)
theorem ent1_B : ent1 m ρ c main_arg1 = m ((c : Thread nD τ).loc main_arg1) :=
  (ent1_of m ρ c main_arg1 (by decide)).trans (mid0_B' m ρ c)
theorem ent1_msg : ent1 m ρ c main_v0_0 = (dat0 (ent0 m ρ) c).arrAt 2 cfg0.N :=
  (ent1_of m ρ c main_v0_0 (by decide)).trans (mid0_msg m ρ c)
theorem ent1_col : ent1 m ρ c main_v0_1 = (dat0 (ent0 m ρ) c).arrAt 3 cfg0.N :=
  (ent1_of m ρ c main_v0_1 (by decide)).trans (mid0_col m ρ c)
theorem ent1_w : ent1 m ρ c main_v0_2 = (dat0 (ent0 m ρ) c).arrAt 4 cfg0.N :=
  (ent1_of m ρ c main_v0_2 (by decide)).trans (mid0_w m ρ c)

/-- The transposed weights as the second pass finds them: the transposition of the launch contents. -/
theorem ent1_WT : ent1 m ρ c main_v1
    = transpose S128x128 [1, 0] (m ((c : Thread nD τ).loc main_arg2)) transposes_S128x128_S128x128_1_0 := by
  have e : ent1 m ρ c main_v1 = transpose S128x128 [1, 0] (mid0 m ρ c main_arg2) transposes_S128x128_S128x128_1_0 := by
    show StableHlo.after hostOps1 (B1 m ρ c) (Proc.devRef .tc main_v1) = _
    after_results
  rw [e, mid0_W]

/-- Read at (k, d) it is the weight at (d, k). -/
theorem ent1_WT_apply (k d : Fin 128) :
    ent1 m ρ c main_v1 (ix2 k d) = m ((c : Thread nD τ).loc main_arg2) (ix2 d k) := by
  rw [ent1_WT]
  exact transpose_apply [1, 0] _ transposes_S128x128_S128x128_1_0 (ix2 k d) (ix2 d k) (fun b => match b with
    | ⟨0, _⟩ => rfl
    | ⟨1, _⟩ => rfl)

/-! ## After the second pass -/

theorem fin_out : B3 m ρ c (Proc.devRef .tc main_v2) = (dat1 (ent1 m ρ) c).arrAt 6 cfg1.N := B3_arr m ρ c 6
theorem fin_x : B3 m ρ c (Proc.devRef .tc main_arg0) = m ((c : Thread nD τ).loc main_arg0) :=
  (B3_arr m ρ c 1).trans (((dat1 (ent1 m ρ) c).arrAt_in 1 rfl _).trans ((A_eq1 (ent1 m ρ) c 1).trans (ent1_x m ρ c)))
theorem fin_B : B3 m ρ c (Proc.devRef .tc main_arg1) = m ((c : Thread nD τ).loc main_arg1) :=
  (B3_arr m ρ c 0).trans (((dat1 (ent1 m ρ) c).arrAt_in 0 rfl _).trans ((A_eq1 (ent1 m ρ) c 0).trans (ent1_B m ρ c)))
theorem fin_W : B3 m ρ c (Proc.devRef .tc main_arg2) = m ((c : Thread nD τ).loc main_arg2) :=
  (B3_of_ne m ρ c main_arg2 (by decide)).trans ((ent1_of m ρ c main_arg2 (by decide)).trans (mid0_W m ρ c))

end Cert.KernelIdeal.Hand

end
-- ==== Proof.K0Body.lean ====
/-
  The first pass over the incidence matrix: what one run of its body does to the staging buffers.

  The body loads the point's incidence block `B` (1000 × 4096) and feature block `x` (1000 × 128) whole, and forms
  the block's three contributions: the feature-major message table `xᵀ·B`, the column sums of `B`, and the column sums
  of `B` weighted by its row sums. Exactly one of its two branches is taken at every grid point: at the first point
  it stores the three contributions, at every later point it loads each result's running sum and stores the sum of
  that and the contribution. Every load and store is of a whole buffer, so after the body each result's buffer holds
  exactly the stored payload. Hence, by the two cases, the buffers are left at the running triple `acc0` of the
  proof data: at the first point by its base clause, at a later point by its step clause over what the point before
  left — the results' buffers are written back only after the last point and no window is ever idle, so a later
  point finds there what the point before left.
-/
import proofs.«135583_g910533067196_cont_9to1c4b_380_9_alg».proof.Proof.K0Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions and the idle table, decided over the ten grid points -/

/-- The first branch (store the block's contribution) is taken at the first point only. -/
theorem hcond0_1 : ∀ t : Fin cfg0.N, k0_cond1 (grid0.coords t) = 1#1 ↔ t.val = 0 :=
  (by decide +kernel : ∀ t : Fin grid0.N, k0_cond1 (grid0.coords t) = 1#1 ↔ t.val = 0)
/-- The second branch (add the block's contribution to the running sums) is taken at every later point. -/
theorem hcond0_2 : ∀ t : Fin cfg0.N, k0_cond2 (grid0.coords t) = 1#1 ↔ t.val ≠ 0 :=
  (by decide +kernel : ∀ t : Fin grid0.N, k0_cond2 (grid0.coords t) = 1#1 ↔ t.val ≠ 0)

/-- One of the two branches is taken at every coordinate, so no window is ever idle. -/
theorem liveAll0_0 : ∀ i : grid0.Coords, cfg0.idle 0 i = false := fun _ => rfl
theorem liveAll0_1 : ∀ i : grid0.Coords, cfg0.idle 1 i = false := fun _ => rfl
theorem liveAll0_2 : ∀ i : grid0.Coords, cfg0.idle 2 i = false := by decide +kernel
theorem liveAll0_3 : ∀ i : grid0.Coords, cfg0.idle 3 i = false := by decide +kernel
theorem liveAll0_4 : ∀ i : grid0.Coords, cfg0.idle 4 i = false := by decide +kernel

section
variable (V : (c : Dev nD) → (b : Ref sig .tc) → Buf (Elt F) ((c : Thread nD τ).loc b))

/-! ## What the body finds in each staging buffer -/

/-- The feature window's buffer holds its block at every point, fetched there or not. -/
theorem before0_0 (c : Dev nD) (t : Fin cfg0.N) (d) : (dat0 V c).before 0 t d = iblk0 V c 0 t :=
  ((dat0 V c).before_in_eq_fetched 0 rfl liveAll0_0 (fun _ _ _ => rfl)
    (fun t => by rw [after0_0]; unfold Dat.blockOf iblk0; rw [A_eq0]; try rfl) t d).trans
    (by unfold Dat.fetched Dat.blockOf iblk0; rw [A_eq0]; try rfl)

/-- The incidence window's buffer holds its block at every point, fetched there or not. -/
theorem before0_1 (c : Dev nD) (t : Fin cfg0.N) (d) : (dat0 V c).before 1 t d = iblk0 V c 1 t :=
  ((dat0 V c).before_in_eq_fetched 1 rfl liveAll0_1 (fun _ _ _ => rfl)
    (fun t => by rw [after0_1]; unfold Dat.blockOf iblk0; rw [A_eq0]; try rfl) t d).trans
    (by unfold Dat.fetched Dat.blockOf iblk0; rw [A_eq0]; try rfl)

/-- After the first point the message table's buffer holds the running sum the point before left: the buffer is
    written back after the last point only, and the window is live and uncut. -/
theorem before0_2 (c : Dev nD) (t : Fin cfg0.N) (h0 : t.val ≠ 0) (d) :
    (dat0 V c).before 2 t d = (acc0 V c (t.val - 1) (Nat.lt_of_le_of_lt (Nat.sub_le _ _) t.isLt)).1 := by
  have hN : t.val < 10 := lt_of_lt_of_eq t.isLt (show cfg0.N = 10 from N_0)
  rw [Dat.before_out_kept _ 2 rfl t h0 (Bool.eq_false_iff.mpr fun h => by have := (flush0_2 _).mp h; dsimp only at this; omega)
    liveAll0_2 (fun _ _ => rfl)]
  rw [after0_2]

/-- The same for the column sums, -/
theorem before0_3 (c : Dev nD) (t : Fin cfg0.N) (h0 : t.val ≠ 0) (d) :
    (dat0 V c).before 3 t d = (acc0 V c (t.val - 1) (Nat.lt_of_le_of_lt (Nat.sub_le _ _) t.isLt)).2.1 := by
  have hN : t.val < 10 := lt_of_lt_of_eq t.isLt (show cfg0.N = 10 from N_0)
  rw [Dat.before_out_kept _ 3 rfl t h0 (Bool.eq_false_iff.mpr fun h => by have := (flush0_3 _).mp h; dsimp only at this; omega)
    liveAll0_3 (fun _ _ => rfl)]
  rw [after0_3]

/-- and for the degree-weighted column sums. -/
theorem before0_4 (c : Dev nD) (t : Fin cfg0.N) (h0 : t.val ≠ 0) (d) :
    (dat0 V c).before 4 t d = (acc0 V c (t.val - 1) (Nat.lt_of_le_of_lt (Nat.sub_le _ _) t.isLt)).2.2 := by
  have hN : t.val < 10 := lt_of_lt_of_eq t.isLt (show cfg0.N = 10 from N_0)
  rw [Dat.before_out_kept _ 4 rfl t h0 (Bool.eq_false_iff.mpr fun h => by have := (flush0_4 _).mp h; dsimp only at this; omega)
    liveAll0_4 (fun _ _ => rfl)]
  rw [after0_4]

/-! ## Whole-buffer accesses

Every load and store of the body is through the rectangle of its buffer's own sizes at offset zero. -/

theorem hz : (![0, 0] : Fin 2 → Nat) = fun _ => 0 := funext fun a => by fin_cases a <;> rfl

/-- A load through the whole-buffer rectangle reads the buffer's contents. -/
theorem load_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- One store through the whole-buffer rectangle leaves its payload, whatever the buffer held. -/
theorem store_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [⟨Rect.unit off S.size inb, w⟩]) = w :=
  (View.read_writes_eq_canon v f _ (fun y => ⟨_, List.mem_singleton_self _, View.mem_set_unit_zero h inb y⟩)).trans
    (View.canon_unit_zero h inb w)

/-! ## The body's triple, case by case -/

set_option maxHeartbeats 1000000 in
/-- AT THE FIRST POINT the body, on whole staging buffers — the inputs' at contents `x0` (features) and `x1`
    (incidence), the three results' at anything — runs to the continuation holding the inputs' as they were and each
    result's at its block's contribution. -/
theorem sound_kernel0_A (c : Dev nD) (E : Set ℕ) (i : grid0.Coords)
    (arg1 : Memref sig .tc .vmem S1000x128 .f32) (harg1 : arg1.IsWhole) (arg2 : Memref sig .tc .vmem S1000x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (hc1 : k0_cond1 i = 1#1) (hc2 : ¬k0_cond2 i = 1#1)
    (x0 : Vec F S1000x128 .f32) (x1 : Vec F S1000x4096 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (k0_pay1 x1 x0) ∗ owns (c : Thread nD τ) arg4 fullShare (k0_pay2 x1)
            ∗ owns (c : Thread nD τ) arg5 fullShare (k0_pay3 x1)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec (disch := first | exact hc1 | exact hc2)
  sl_step
  iapply Hk
  have e0 := load_whole (F := F) arg1.view f0 hz inb_S1000x128_S1000x128_0_0
  have e1 := load_whole (F := F) arg2.view f1 hz inb_S1000x4096_S1000x4096_0_0
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store_whole _ _ hz _ _).trans (by rw [e0, e1])
  isplitl [H3]
  · iexists _; isplitr
    swap; · iexact H3
    ipureintro
    exact (store_whole _ _ hz _ _).trans (by rw [e1])
  iexists _; isplitr
  swap; · iexact H4
  ipureintro
  exact (store_whole _ _ hz _ _).trans (by rw [e1])

set_option maxHeartbeats 1000000 in
/-- AT EVERY LATER POINT the body, on whole staging buffers — the inputs' at contents `x0` (features) and `x1`
    (incidence), the three results' at their running sums `xo2`, `xo3`, `xo4` — runs to the continuation holding the
    inputs' as they were and each result's at its running sum plus the block's contribution. -/
theorem sound_kernel0_B (c : Dev nD) (E : Set ℕ) (i : grid0.Coords)
    (arg1 : Memref sig .tc .vmem S1000x128 .f32) (harg1 : arg1.IsWhole) (arg2 : Memref sig .tc .vmem S1000x4096 .f32) (harg2 : arg2.IsWhole)
    (arg3 : Memref sig .tc .vmem S128x4096 .f32) (harg3 : arg3.IsWhole) (arg4 : Memref sig .tc .vmem S1x4096 .f32) (harg4 : arg4.IsWhole)
    (arg5 : Memref sig .tc .vmem S1x4096 .f32) (harg5 : arg5.IsWhole)
    (hc1 : ¬k0_cond1 i = 1#1) (hc2 : k0_cond2 i = 1#1)
    (x0 : Vec F S1000x128 .f32) (x1 : Vec F S1000x4096 .f32)
    (xo2 : Vec F S128x4096 .f32) (xo3 : Vec F S1x4096 .f32) (xo4 : Vec F S1x4096 .f32) (K : PUnit → sProp 𝕄) :
    iprop(owns (c : Thread nD τ) arg1 fullShare x0 ∗ owns (c : Thread nD τ) arg2 fullShare x1
        ∗ owns (c : Thread nD τ) arg3 fullShare xo2 ∗ owns (c : Thread nD τ) arg4 fullShare xo3 ∗ owns (c : Thread nD τ) arg5 fullShare xo4
        ∗ (iprop(owns (c : Thread nD τ) arg1 fullShare x0 ∗ owns (c : Thread nD τ) arg2 fullShare x1
            ∗ owns (c : Thread nD τ) arg3 fullShare (k0_pay4 x1 x0 xo2) ∗ owns (c : Thread nD τ) arg4 fullShare (k0_pay5 x1 xo3)
            ∗ owns (c : Thread nD τ) arg5 fullShare (k0_pay6 x1 xo4)) -∗ K ⟨⟩))
      ⊢ wp frame (wpE (defs₀ (F := F)) Variants.none c none) E (cc0__pass1 i arg1 harg1 arg2 harg2 arg3 harg3 arg4 harg4 arg5 harg5) K := by
  simp only [cc0__pass1_eq_skeleton]; unfold cc0__pass1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  have e0 := load_whole (F := F) arg1.view f0 hz inb_S1000x128_S1000x128_0_0
  have e1 := load_whole (F := F) arg2.view f1 hz inb_S1000x4096_S1000x4096_0_0
  have e2 := load_whole (F := F) arg3.view f2 hz inb_S128x4096_S128x4096_0_0
  have e3 := load_whole (F := F) arg4.view f3 hz inb_S1x4096_S1x4096_0_0
  have e4 := load_whole (F := F) arg5.view f4 hz inb_S1x4096_S1x4096_0_0
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (store_whole _ _ hz _ _).trans (by rw [e0, e1, e2])
  isplitl [H3]
  · iexists _; isplitr
    swap; · iexact H3
    ipureintro
    exact (store_whole _ _ hz _ _).trans (by rw [e1, e3])
  iexists _; isplitr
  swap; · iexact H4
  ipureintro
  exact (store_whole _ _ hz _ _).trans (by rw [e1, e4])

/-! ## The body obligation, at a generic point -/

/-- What the body is called with at point `t`: the invariant, what the core owes, and each window's current staging
    buffer at what it then holds, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 1600000 in
/-- The body at any point. The inputs' buffers hold their blocks; no window is idle, so each buffer is left at what the
    proof data names. At the first point the first branch alone is taken and the results' buffers, holding anything,
    are left at the block's contributions; at a later point the second branch alone is taken and the results' buffers,
    holding the running sums the point before left, are left at those plus the block's contributions. The invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl]
  rw [show (dat0 V c).leavesExact 0 t = owns (c : Thread nD τ) (st0_0 t) fullShare (iblk0 V c 0 t) from by
        unfold Dat.leavesExact; rw [liveAll0_0 _, after0_0],
    show (dat0 V c).leavesExact 1 t = owns (c : Thread nD τ) (st0_1 t) fullShare (iblk0 V c 1 t) from by
        unfold Dat.leavesExact; rw [liveAll0_1 _, after0_1],
    show (dat0 V c).leavesExact 2 t = owns (c : Thread nD τ) (st0_2 t) fullShare (acc0 V c t.val t.isLt).1 from by
        unfold Dat.leavesExact; rw [liveAll0_2 _, after0_2],
    show (dat0 V c).leavesExact 3 t = owns (c : Thread nD τ) (st0_3 t) fullShare (acc0 V c t.val t.isLt).2.1 from by
        unfold Dat.leavesExact; rw [liveAll0_3 _, after0_3],
    show (dat0 V c).leavesExact 4 t = owns (c : Thread nD τ) (st0_4 t) fullShare (acc0 V c t.val t.isLt).2.2 from by
        unfold Dat.leavesExact; rw [liveAll0_4 _, after0_4]]
  by_cases h0 : t.val = 0
  · rw [acc0_zero V c t h0]
    dsimp only
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_1 t).mpr h0) (fun h => (hcond0_2 t).mp h h0)
      (iblk0 V c 0 t) (iblk0 V c 1 t) _)
    isplitl [H0]; · iexact H0
    isplitl [H1]; · iexact H1
    isplitl [H2]; · iexists _; iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_2 V c t h0, before0_3 V c t h0, before0_4 V c t h0]
    rw [acc0_pos V c t h0]
    dsimp only
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_1 t).mp h)) ((hcond0_2 t).mpr h0)
      (iblk0 V c 0 t) (iblk0 V c 1 t) _ _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.K1Body.lean ====
/-
  The second pass's body, point by point: the obligation the pipeline library asks of a kernel body.

  The body runs on whole staging buffers. At the first point it fills the scratch with the message table scaled per
  hyperedge — from the weighted sums, the column sums and the message table, windows 4, 3 and 2 — and reads it back; at
  every later point it finds the scratch as the first point left it. At every point it computes the result block from
  the incidence block, the scratch, the feature block and the transposed weights, and stores it whole. So after the body
  at any point each input's buffer holds its block still, the result's buffer holds the payload over those blocks and
  the scratch, and the scratch holds what `acc1` says.

  Every load and store here is of a whole buffer, through the rectangle of the buffer's own sizes at zero offsets: a load
  reads the contents, a store leaves its payload, and a load after a store reads that payload.

  Between points the invariant carries, beside the scratch, the first pass's seven staging buffers and the generator
  register, which this body never touches.
-/
import proofs.«135583_g910533067196_cont_9to1c4b_380_9_alg».proof.Proof.K1Defs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-buffer loads and stores

Every access of this body is through the rectangle of the buffer's own sizes at zero offsets: a load through it
reads the contents, and one store through it leaves its payload. -/

/-- The zero offsets of a two-axis buffer, as a literal vector. -/
theorem off2_zero : (![0, 0] : Fin 2 → Nat) = fun _ => 0 := funext fun a => by fin_cases a <;> rfl

/-- A load of the whole buffer reads what the buffer reads as. -/
theorem readAt_whole {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  View.ld_unit_zero h inb (v.read Val f)

/-- After one store of the whole buffer, the buffer reads as the payload, whatever it held. -/
theorem read_writes_whole {sg : RefSig} {κ : Kind} {sp : Space} {S : Shape} {e : EltTy} {Val : EltTy → Type}
    [∀ e, Nonempty (Val e)] (v : View sg κ sp S e) (f : v.ty.Contents Val) {off : Fin S.rank → Nat}
    (h : off = fun _ => 0) (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-! ## The branch condition -/

/-- The condition of the body's one conditional, from the grid coordinates: the first coordinate is zero. -/
abbrev cond1 (i : grid1.Coords) : Prop :=
  (Scalar.cmpi .ne (Scalar.extui (Scalar.cmpi .eq (BitVec.ofNat 32 (i 0).val) 0#32)) 0#32) = 1#1

/-- It holds at the first point only — decided over the ten points. -/
theorem hcond1 : ∀ t : Fin cfg1.N, cond1 (grid1.coords t) ↔ t.val = 0 :=
  (by decide +kernel : ∀ t : Fin grid1.N, cond1 (grid1.coords t) ↔ t.val = 0)

/-! ## The body's triple, case by case

The body on whole staging memrefs: the six inputs' at their read contents, the result's at anything. Windows 0 … 6 are
the arguments 1 … 7 and the scratch is argument 8. -/

set_option maxHeartbeats 4000000 in
/-- At the first point: the scratch, found at anything, is filled with the scaled message table (from the weighted sums,
    the column sums and the message table: windows 4, 3, 2) and read back; the result block is computed from it. -/
theorem sound_kernel1_first (c : Dev nD) (E : Set ℕ) (i : grid1.Coords) (arg1 : Memref sig .tc .vmem S1000x4096 .f32) (harg1 : arg1.IsWhole) (arg2 : Memref sig .tc .vmem S1000x128 .f32) (harg2 : arg2.IsWhole) (arg3 : Memref sig .tc .vmem S128x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S128x128 .f32) (harg6 : arg6.IsWhole) (arg7 : Memref sig .tc .vmem S1000x128 .f32) (harg7 : arg7.IsWhole) (arg8 : Memref sig .tc .vmem S128x4096 .bf16) (harg8 : arg8.IsWhole) (hc : cond1 i)
    (x0 : Vec F S1000x4096 .f32) (x1 : Vec F S1000x128 .f32) (x2 : Vec F S128x4096 .f32) (x3 : Vec F S1x4096 .f32) (x4 : Vec F S1x4096 .f32) (x5 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 (k1_pay1 x4 x3 x2) x1 x5)
            ∗ owns (c : Thread nD τ) arg8 fullShare (k1_pay1 x4 x3 x2)) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole _ _ off2_zero, View.readCov_unit_zero _ off2_zero,
      readAt_whole _ _ off2_zero, readAt_whole _ _ off2_zero, readAt_whole _ _ off2_zero, readAt_whole _ _ off2_zero, readAt_whole _ _ off2_zero, readAt_whole _ _ off2_zero]
  iexists _; isplitr
  swap; · iexact H7
  ipureintro
  rw [read_writes_whole _ _ off2_zero, readAt_whole _ _ off2_zero, readAt_whole _ _ off2_zero, readAt_whole _ _ off2_zero]

set_option maxHeartbeats 4000000 in
/-- At a later point: the scratch is found at what the point before left, `xs`, and left so; the result block is
    computed from it. -/
theorem sound_kernel1_later (c : Dev nD) (E : Set ℕ) (i : grid1.Coords) (arg1 : Memref sig .tc .vmem S1000x4096 .f32) (harg1 : arg1.IsWhole) (arg2 : Memref sig .tc .vmem S1000x128 .f32) (harg2 : arg2.IsWhole) (arg3 : Memref sig .tc .vmem S128x4096 .f32) (harg3 : arg3.IsWhole) (arg4 : Memref sig .tc .vmem S1x4096 .f32) (harg4 : arg4.IsWhole) (arg5 : Memref sig .tc .vmem S1x4096 .f32) (harg5 : arg5.IsWhole) (arg6 : Memref sig .tc .vmem S128x128 .f32) (harg6 : arg6.IsWhole) (arg7 : Memref sig .tc .vmem S1000x128 .f32) (harg7 : arg7.IsWhole) (arg8 : Memref sig .tc .vmem S128x4096 .bf16) (harg8 : arg8.IsWhole) (hc : ¬cond1 i)
    (x0 : Vec F S1000x4096 .f32) (x1 : Vec F S1000x128 .f32) (x2 : Vec F S128x4096 .f32) (x3 : Vec F S1x4096 .f32) (x4 : Vec F S1x4096 .f32) (x5 : Vec F S128x128 .f32) (xs : Vec F S128x4096 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 xs x1 x5)
            ∗ owns (c : Thread nD τ) arg8 fullShare xs) -∗ K ⟨⟩))
      ⊢ wp frame (wpE (defs₀ (F := F)) Variants.none c none) E (cc1__pass2 i arg1 harg1 arg2 harg2 arg3 harg3 arg4 harg4 arg5 harg5 arg6 harg6 arg7 harg7 arg8 harg8) K := by
  simp only [cc1__pass2_eq_skeleton]; unfold cc1__pass2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf0; subst hf1; subst hf2; subst hf3; subst hf4; subst hf5; subst hf7
  sl_exec (disch := exact hc)
  sl_step
  iapply Hk
  sl_unfold_run_names
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_writes_whole _ _ off2_zero, readAt_whole _ _ off2_zero, readAt_whole _ _ off2_zero, readAt_whole _ _ off2_zero, readAt_whole _ _ off2_zero]
  iexists f7; isplitr; · ipureintro; rfl
  iexact H7

section
-- the TensorCore's buffer contents when the region is entered
variable (V : (c : Dev nD) → (b : Ref sig .tc) → Buf (Elt F) ((c : Thread nD τ).loc b))

/-! ## The region's invariant, opened -/

/-- What the launch hands the region: the first pass's seven staging buffers and the scratch, each at some contents, and
    the generator register at some state — the scratch as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ d, owns (c : Thread nD τ) scM1 fullShare d)) ∗ (∃ r, prngReg c r)) := by
  unfold Pipeline.ΦA; rw [scopedRest1_eq]; simp only [scM1, owns_whole]; try rfl

/-! ## What the body finds in each input's buffer

Every input window's current staging buffer holds its block at every point, fetched there or not: a window fetched at
the first point only has a constant block index, so the block it was left with is still the point's. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point. The inputs' buffers hold their blocks. At the first point the invariant is the launch's: the
    scratch is handed over at anything and taken back filled; at a later point the invariant names what the point before
    left in the scratch, which is handed over and taken back unchanged. The first pass's staging buffers, the
    generator register and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ,
    after1_0, after1_1, after1_2, after1_3, after1_4, after1_5, after1_6]
  by_cases hz : t.val = 0
  · rw [acc1_zero V c t hz]; dsimp only
    rw [PhiS1_castSucc V c t, PhiS1_zero V c _ _ hz, PhiA1_eq]
    iintro ⟨⟨⟨B0, B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_first c Set.univ (grid1.coords t) _ _ _ _ _ _ _ _ _ _ _ _ _ _ _ _ ((hcond1 t).mpr hz)
      (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [B0 B1 B2 B3 B4 B5 B6 HS Hg]
    · isplitl [B0 B1 B2 B3 B4 B5 B6 HS]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [acc1_pos V c t hz]; dsimp only
    rw [PhiS1_castSucc V c t, PhiS1_pos V c _ _ hz]
    iintro ⟨⟨⟨B0, B1, B2, B3, B4, B5, B6, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_later c Set.univ (grid1.coords t) _ _ _ _ _ _ _ _ _ _ _ _ _ _ _ _ (fun h => hz ((hcond1 t).mp h))
      (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [B0 B1 B2 B3 B4 B5 B6 HS Hg]
    · isplitl [B0 B1 B2 B3 B4 B5 B6 HS]
      swap; · iexact Hg
      isplitl [B0]; · iexact B0
      isplitl [B1]; · iexact B1
      isplitl [B2]; · iexact B2
      isplitl [B3]; · iexact B3
      isplitl [B4]; · iexact B4
      isplitl [B5]; · iexact B5
      isplitl [B6]; · iexact B6
      iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into and out of the region -/

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives the launch's back: what the scratch holds is forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨B0, B1, B2, B3, B4, B5, B6, HS⟩, Hg⟩
  isplitl [B0 B1 B2 B3 B4 B5 B6 HS]
  swap; · iexact Hg
  isplitl [B0]; · iexact B0
  isplitl [B1]; · iexact B1
  isplitl [B2]; · iexact B2
  isplitl [B3]; · iexact B3
  isplitl [B4]; · iexact B4
  isplitl [B5]; · iexact B5
  isplitl [B6]; · iexact B6
  iexists _; iexact HS

/-- The same after the last point. -/
theorem hout1 (c : Dev nD) : (dat1 (F := F) V c).Φ (Fin.last cfg1.N) ⊢ Pipeline.ΦA spec1 c :=
  Phi_out1 V c _ (by rw [Fin.val_last]; have : cfg1.N = 10 := N_1; omega)

end

end Cert.KernelIdeal.Hand

end
-- ==== Proof.Frame.lean ====
/-
  The frame of the two-pass program, at any float instance: every weakly fair execution from any memory with zero
  counters terminates, nothing faulting, and the three argument arrays end as launched — read off the whole run, whose
  last thread state names every unscoped buffer.
-/
import proofs.«135583_g910533067196_cont_9to1c4b_380_9_alg».proof.Proof.Between
import proofs.«135583_g910533067196_cont_9to1c4b_380_9_alg».proof.Proof.K0Body
import proofs.«135583_g910533067196_cont_9to1c4b_380_9_alg».proof.Proof.K1Body

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The whole run with both passes' body obligations supplied. -/
theorem run_both : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  run_all m ρ body_obligation0 body_obligation1 hin1 hout1

/-- The frame: the argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (fin_x m ρ c),
     (h c _ (mem_uc main_arg1 (by decide))).trans (fin_B m ρ c),
     (h c _ (mem_uc main_arg2 (by decide))).trans (fin_W m ρ c)⟩) (run_both m ρ)

end Cert.KernelIdeal.Hand

end
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibPlainDot.lean ====
/-
  A plain matrix product read at an entry.

  For an [M, K] by [K, N] product with no batch axis, contracting the left operand's columns against the right operand's
  rows, the operand indices at the result entry (p, o) and the contraction coordinate q are (p, q) and (q, o). So at the
  ideal values the product accumulated onto the zero splat is, at (p, o), the sum over q of lhs (p, q) · rhs (q, o).
-/
import Idealize.ShloMosaic.PureOps.Ideal.Laws
import Idealize.ShloMosaic.Lib.ValueIdx

noncomputable section

namespace Cert.LibPlainDot

open Idealize.ShloMosaic Idealize.ShloMosaic.ValueIdx

/-- The left operand's index at result entry (p, o) and contraction coordinate q is (p, q). -/
theorem plain_lhsIdx {M K N : ℕ} (p : Fin M) (o : Fin N) (q : Fin K) :
    (DotDims.plain M K N).lhsIdx (ix2 p o) ((contrEquiv1 (DotDims.plain M K N) K rfl rfl).symm q) = ix2 p q :=
  funext fun a => Fin.ext (by
    match a with
    | ⟨0, _⟩ => rfl
    | ⟨1, _⟩ => exact contrEquiv1_symm_val (DotDims.plain M K N) K rfl rfl q)

/-- The right operand's index at result entry (p, o) and contraction coordinate q is (q, o). -/
theorem plain_rhsIdx {M K N : ℕ} (p : Fin M) (o : Fin N) (q : Fin K) :
    (DotDims.plain M K N).rhsIdx (ix2 p o) ((contrEquiv1 (DotDims.plain M K N) K rfl rfl).symm q) = ix2 q o :=
  funext fun a => Fin.ext (by
    match a with
    | ⟨0, _⟩ => exact contrEquiv1_symm_val (DotDims.plain M K N) K rfl rfl q
    | ⟨1, _⟩ => rfl)

/-- A plain product onto the zero splat, read at (p, o): the sum over the contraction coordinate. -/
theorem plain_matmul_zero_apply {M K N : ℕ} {φ₁ φ₂ : FTy} (prec : Option ContractPrecision)
    (lhs : FVec Ideal ⟨2, ![M, K]⟩ φ₁) (rhs : FVec Ideal ⟨2, ![K, N]⟩ φ₂) (p : Fin M) (o : Fin N) :
    FloatOps.matmul (DotDims.plain M K N) prec lhs rhs (constant ⟨2, ![M, N]⟩ .f32 0x00000000#32) (ix2 p o)
      = ∑ q : Fin K, lhs (ix2 p q) * rhs (ix2 q o) := by
  rw [Ideal.matmul_constant_zero_apply, ← Equiv.sum_comp (contrEquiv1 (DotDims.plain M K N) K rfl rfl).symm]
  refine Finset.sum_congr rfl fun q _ => ?_
  rw [plain_lhsIdx, plain_rhsIdx]

end Cert.LibPlainDot

end
-- ==== Proof.K0Pay.lean ====
/-
  The first pass's stored values read at an index, at the ideal values.

  From a block `v0` of 1000 rows of the incidence matrix and the matching block `v1` of node features the pass forms
    the block's messages        (d, e) ↦ Σ_r v1(r, d) · v0(r, e),
    the block's column sums     e ↦ Σ_r v0(r, e),
    the weighted column sums    e ↦ Σ_r v0(r, e) · Σ_e' v0(r, e'),
  and on every later block adds them onto what the three accumulators hold. Each is the composite of layout operations
  (a transpose, a vector re-laid as a row or a column, a column spread over the rows), reductions along one axis and one
  matrix product; read at an index, every layout operation is a re-indexing and every reduction a finite sum.
-/
import proofs.«135583_g910533067196_cont_9to1c4b_380_9_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«135583_g910533067196_cont_9to1c4b_380_9_alg».proof.Proof.LibLaneSum
import proofs.«135583_g910533067196_cont_9to1c4b_380_9_alg».proof.Proof.LibColumn
import proofs.«135583_g910533067196_cont_9to1c4b_380_9_alg».proof.Proof.LibPlainDot

noncomputable section

namespace Cert.KernelIdeal.HandV

open Cert.KernelIdeal Cert.KernelIdeal.Gen Idealize.ShloMosaic Idealize.ShloMosaic.ValueIdx

/-! ## A sum down the columns, and a vector re-laid as a row -/

/-- The source index over result entry `p` with `k` on the dropped first axis is `(k, p)`. -/
theorem lift_col {a b : ℕ} (h : (⟨2, ![a, b]⟩ : Shape).Reduces [0] ⟨1, ![b]⟩) (p : Fin b) (k : Fin a) :
    h.lift (ix1 p) k = ix2 k p :=
  funext fun c => Fin.ext (by match c with | ⟨0, _⟩ => rfl | ⟨1, _⟩ => rfl)

/-- An additive reduction of an `[a, b]` matrix along its first axis from the zero word, read at column `p`: the sum
    over the `a` rows of the matrix's column `p`. -/
theorem col_sum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = FKind.add.neutral .f32 hφ) (p : Fin b) :
    multiReduction .add [0] ⟨1, ![b]⟩ src 0x00000000#32 h hφ hacc (ix1 p) = ∑ k : Fin a, src (ix2 k p) :=
  (Ideal.multiReduction_add_single src 0x00000000#32 h hφ hacc (ix1 p)).trans
    (Finset.sum_congr rfl fun k _ => congrArg src (lift_col h p k))

/-- A vector `[b]` re-laid as a row `[1, b]` reads, at `(0, j)`, the vector at `j`: the row-major position is the
    same. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

/-! ## The later blocks add onto the accumulators -/

/-- The messages accumulator plus the block's messages. -/
theorem pay4_apply (v0 : Vec Ideal S1000x4096 .f32) (v1 : Vec Ideal S1000x128 .f32) (a : Vec Ideal S128x4096 .f32)
    (d : Fin 128) (e : Fin 4096) :
    k0_pay4 (F := Ideal) v0 v1 a (ix2 d e) = a (ix2 d e) + k0_pay1 (F := Ideal) v0 v1 (ix2 d e) := by
  unfold k0_pay4
  rw [addf_apply, shapeCast_self]

/-- The column-sum accumulator plus the block's column sums. -/
theorem pay5_apply (v0 : Vec Ideal S1000x4096 .f32) (a : Vec Ideal S1x4096 .f32) (e : Fin 4096) :
    k0_pay5 (F := Ideal) v0 a (ix2 (0 : Fin 1) e) = a (ix2 (0 : Fin 1) e) + k0_pay2 (F := Ideal) v0 (ix2 (0 : Fin 1) e) := by
  unfold k0_pay5
  rw [addf_apply, shapeCast_self]

/-- The weighted accumulator plus the block's weighted column sums. -/
theorem pay6_apply (v0 : Vec Ideal S1000x4096 .f32) (a : Vec Ideal S1x4096 .f32) (e : Fin 4096) :
    k0_pay6 (F := Ideal) v0 a (ix2 (0 : Fin 1) e) = a (ix2 (0 : Fin 1) e) + k0_pay3 (F := Ideal) v0 (ix2 (0 : Fin 1) e) := by
  unfold k0_pay6
  rw [addf_apply, shapeCast_self]

/-! ## The block's column sums -/

theorem pay2_apply (v0 : Vec Ideal S1000x4096 .f32) (e : Fin 4096) :
    k0_pay2 (F := Ideal) v0 (ix2 (0 : Fin 1) e) = ∑ r : Fin 1000, v0 (ix2 r e) := by
  unfold k0_pay2
  refine (shapeCast_b_1b_apply _ _ (0 : Fin 1) e).trans ?_
  exact col_sum_apply v0 _ _ _ e

/-! ## The block's messages -/

/-- A matrix `[a, b]` transposed reads, at `(i, j)`, the matrix at `(j, i)`. -/
theorem transpose_ab_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply [1, 0] x h (ix2 i j) (ix2 j i) (fun c => match c with
    | ⟨0, _⟩ => rfl
    | ⟨1, _⟩ => rfl)

/-- The product of the transposed feature block with the incidence block, onto zero: feature `d` against hyperedge
    `e`, summed over the block's rows (the roundings on the way in are the identity at the ideal values). -/
theorem pay1_apply (v0 : Vec Ideal S1000x4096 .f32) (v1 : Vec Ideal S1000x128 .f32) (d : Fin 128) (e : Fin 4096) :
    k0_pay1 (F := Ideal) v0 v1 (ix2 d e) = ∑ r : Fin 1000, v1 (ix2 r d) * v0 (ix2 r e) := by
  unfold k0_pay1
  refine (Cert.LibPlainDot.plain_matmul_zero_apply none _ _ d e).trans ?_
  refine Finset.sum_congr rfl fun r _ => ?_
  exact congrArg (· * v0 (ix2 r e)) (transpose_ab_apply v1 _ d r)

/-! ## The block's weighted column sums -/

/-- Each entry times its row's sum within the block, summed down the column. -/
theorem pay3_apply (v0 : Vec Ideal S1000x4096 .f32) (e : Fin 4096) :
    k0_pay3 (F := Ideal) v0 (ix2 (0 : Fin 1) e)
      = ∑ r : Fin 1000, v0 (ix2 r e) * ∑ e' : Fin 4096, v0 (ix2 r e') := by
  unfold k0_pay3
  refine (shapeCast_b_1b_apply _ _ (0 : Fin 1) e).trans ?_
  refine (col_sum_apply _ _ _ _ e).trans ?_
  refine Finset.sum_congr rfl fun r _ => ?_
  refine congrArg (v0 (ix2 r e) * ·) ?_
  refine (Cert.LibColumn.broadcastTo_a1_ab_apply _ _ r e).trans ?_
  refine (Cert.LibColumn.shapeCast_a_a1_apply _ _ r (0 : Fin 1)).trans ?_
  exact Cert.LibLaneSum.lane_sum_apply v0 _ _ _ r

end Cert.KernelIdeal.HandV

end
-- ==== Proof.Spec.lean ====
/-
  The layer's result as one function of the three argument arrays, index by index, on the extended reals.

  With `B` the incidence matrix (nodes × hyperedges), `x` the node features and `W` the weight matrix:
    nodeDeg n   = Σ_e B(n,e)                                   (row sums)
    colSum e    = Σ_n B(n,e)                                   (column sums)
    wSum e      = Σ_n B(n,e) · nodeDeg n                       (columns weighted by the row sums)
    edgeDeg e   = wSum e / colSum e
    msg d e     = Σ_n x(n,d) · B(n,e)                          (node → hyperedge messages, feature-major)
    agg n d     = Σ_e B(n,e) · (msg d e · rsqrt (edgeDeg e))   (hyperedge → node, scaled per hyperedge)
    comb n d    = c₀₉ · (agg n d · rsqrt (nodeDeg n)) + c₀₁ · x(n,d)
    out n d     = c₀₅ · comb n d + c₀₅ · Σ_k comb n k · W(d,k)
  where c₀₉, c₀₁, c₀₅ are the binary values of the three float constants, never evaluated.
  Sums and products only: regrouping a sum and reassociating or commuting a product do not change these values on the
  extended reals, so any schedule of the same sums denotes the same function.
-/
import Idealize.ShloMosaic.PureOps.Ideal
import Idealize.ShloMosaic.Lib.ValueIdx

noncomputable section

namespace Cert.Layer

open Idealize.ShloMosaic Idealize.ShloMosaic.ValueIdx

/-- node features: 10000 nodes, 128 features -/
abbrev SX : Shape := ⟨2, ![10000, 128]⟩
/-- incidence: 10000 nodes, 4096 hyperedges -/
abbrev SB : Shape := ⟨2, ![10000, 4096]⟩
/-- weights: 128 × 128 -/
abbrev SW : Shape := ⟨2, ![128, 128]⟩

variable (x : SX.Idx → EReal) (B : SB.Idx → EReal) (W : SW.Idx → EReal)

/-- The degree of node `n`: the sum of row `n` of the incidence matrix. -/
def nodeDeg (n : Fin 10000) : EReal := ∑ e : Fin 4096, B (ix2 n e)

/-- The sum of column `e` of the incidence matrix. -/
def colSum (e : Fin 4096) : EReal := ∑ n : Fin 10000, B (ix2 n e)

/-- Column `e` summed with each entry weighted by its row's degree. -/
def wSum (e : Fin 4096) : EReal := ∑ n : Fin 10000, B (ix2 n e) * nodeDeg B n

/-- The degree of hyperedge `e`: the weighted column sum over the plain one. -/
def edgeDeg (e : Fin 4096) : EReal := Ideal.div (wSum B e) (colSum B e)

/-- The message of feature `d` arriving at hyperedge `e`. -/
def msg (d : Fin 128) (e : Fin 4096) : EReal := ∑ n : Fin 10000, x (ix2 n d) * B (ix2 n e)

/-- What node `n` gathers back from its hyperedges, each message scaled by its hyperedge's inverse root degree. -/
def agg (n : Fin 10000) (d : Fin 128) : EReal :=
  ∑ e : Fin 4096, B (ix2 n e) * (msg x B d e * Ideal.rsqrt (edgeDeg B e))

/-- The binary value of the float constant nearest 0.9. -/
def c09 : EReal := Ideal.ofBits .f32 0x3F666666#32
/-- The binary value of the float constant nearest 0.1. -/
def c01 : EReal := Ideal.ofBits .f32 0x3DCCCCCD#32
/-- One half. -/
def c05 : EReal := Ideal.ofBits .f32 0x3F000000#32

/-- The gathered message normalised by the node's inverse root degree, mixed with the node's own feature. -/
def comb (n : Fin 10000) (d : Fin 128) : EReal :=
  c09 * (agg x B n d * Ideal.rsqrt (nodeDeg B n)) + c01 * x (ix2 n d)

/-- Half the mixed feature plus half its image under the transposed weights. -/
def out (n : Fin 10000) (d : Fin 128) : EReal :=
  c05 * comb x B n d + c05 * ∑ k : Fin 128, comb x B n k * W (ix2 d k)

/-- The layer's result array. -/
def G : SX.Idx → EReal := fun i => out x B W (i 0) (i 1)

theorem G_apply (n : Fin 10000) (d : Fin 128) : G x B W (ix2 n d) = out x B W n d := rfl

end Cert.Layer

end
-- ==== Proof.K0Value.lean ====
/-
  What the first pass leaves in its arrays, as functions of the arrays it was entered with.

  The pass walks the ten row blocks of the node features and of the incidence matrix and keeps three running sums in
  blocks that every point maps to; they are written back once, after the last point, and that one block is the whole
  array. Point by point the running sums are the sums of the blocks' contributions so far (induction on the point);
  after the last point the sum over the ten blocks and the thousand rows of each is the sum over the ten thousand rows
  of the array, which is the layer's message table, its column sums and its degree-weighted column sums (Spec.lean).
  The two inputs are never written.
-/
import proofs.«135583_g910533067196_cont_9to1c4b_380_9_alg».proof.Proof.K0Defs
import proofs.«135583_g910533067196_cont_9to1c4b_380_9_alg».proof.Proof.K0Pay
import proofs.«135583_g910533067196_cont_9to1c4b_380_9_alg».proof.Proof.Spec
import Idealize.ShloMosaic.Lib.Pipeline.Value

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-! ## The inputs are never written -/

/-- The node features leave the pass as they entered it. -/
theorem final0_x : (dat0 (F := Ideal) V c).arrAt 0 cfg0.N = V c main_arg0 :=
  (dat0 (F := Ideal) V c).arrAt_in 0 rfl _

/-- The incidence matrix likewise. -/
theorem final0_B : (dat0 (F := Ideal) V c).arrAt 1 cfg0.N = V c main_arg1 :=
  (dat0 (F := Ideal) V c).arrAt_in 1 rfl _

/-! ## The row blocks read where they sit in the arrays -/

/-- The printed index maps, decided once over the grid: point `t` sees row block `t` of either input, from column 0. -/
theorem idx_in0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of row block `s` is row `1000 s + r` of the array. -/
abbrev row (s : Fin 10) (r : Fin 1000) : Fin 10000 := ⟨1000 * s.val + r.val, by omega⟩

/-- The node features as the pass finds them. -/
abbrev xarr : Vec Ideal S10000x128 .f32 := V c main_arg0

/-- The incidence matrix as the pass finds it. -/
abbrev barr : Vec Ideal S10000x4096 .f32 := V c main_arg1

/-- The feature block the body finds at point `t`. -/
abbrev xblk (t : Fin cfg0.N) : Vec Ideal S1000x128 .f32 := iblk0 (F := Ideal) V c 0 t

/-- The incidence block the body finds at point `t`. -/
abbrev bblk (t : Fin cfg0.N) : Vec Ideal S1000x4096 .f32 := iblk0 (F := Ideal) V c 1 t

/-- The feature block at point `t`, at (row `r`, feature `d`), is the array at (row `1000 t + r`, `d`). -/
theorem iblk0_x (t : Fin cfg0.N) (ht : t.val < 10) (r : Fin 1000) (d : Fin 128) :
    xblk V c t (ix2 r d) = xarr V c (ix2 (row ⟨t.val, ht⟩ r) d) := by
  obtain ⟨e0, e1, -, -⟩ := idx_in0 t
  unfold xblk iblk0
  rw [View.read_apply]
  show V c main_arg0 _ = V c main_arg0 _
  refine congrArg (V c main_arg0) (funext fun a => Fin.ext ?_)
  match a with
  | ⟨0, _⟩ => show win0_0.index t 0 * 1000 + 1 * r.val = 1000 * t.val + r.val; rw [e0]; omega
  | ⟨1, _⟩ => show win0_0.index t 1 * 128 + 1 * d.val = d.val; rw [e1]; omega

/-- The incidence block at point `t`, at (row `r`, hyperedge `e`), is the array at (row `1000 t + r`, `e`). -/
theorem iblk0_B (t : Fin cfg0.N) (ht : t.val < 10) (r : Fin 1000) (e : Fin 4096) :
    bblk V c t (ix2 r e) = barr V c (ix2 (row ⟨t.val, ht⟩ r) e) := by
  obtain ⟨-, -, e0, e1⟩ := idx_in0 t
  unfold bblk iblk0
  rw [View.read_apply]
  show V c main_arg1 _ = V c main_arg1 _
  refine congrArg (V c main_arg1) (funext fun a => Fin.ext ?_)
  match a with
  | ⟨0, _⟩ => show win0_1.index t 0 * 1000 + 1 * r.val = 1000 * t.val + r.val; rw [e0]; omega
  | ⟨1, _⟩ => show win0_1.index t 1 * 4096 + 1 * e.val = e.val; rw [e1]; omega

/-! ## Ten blocks of a thousand rows are the ten thousand rows -/

/-- A sum over the blocks of the sums over each block's rows is the sum over all rows. -/
theorem sum_rows {M : Type} [AddCommMonoid M] (f : Fin 10000 → M) :
    ∑ s : Fin 10, ∑ r : Fin 1000, f (row s r) = ∑ n : Fin 10000, f n := by
  rw [← Fintype.sum_prod_type' (f := fun s r => f (row s r))]
  exact Fintype.sum_equiv (finProdFinEquiv : Fin 10 × Fin 1000 ≃ Fin 10000) _ _
    (fun p => congrArg f (Fin.ext ((Nat.add_comm _ _).trans (finProdFinEquiv_apply_val p).symm)))

/-! ## One block's contributions -/

/-- Block `t`'s messages: feature `d` against hyperedge `e`, over the block's rows. -/
def msgBlk (t : Fin cfg0.N) (d : Fin 128) (e : Fin 4096) : EReal :=
  ∑ r : Fin 1000, xblk V c t (ix2 r d) * bblk V c t (ix2 r e)

/-- Block `t`'s column sums. -/
def colBlk (t : Fin cfg0.N) (e : Fin 4096) : EReal :=
  ∑ r : Fin 1000, bblk V c t (ix2 r e)

/-- Block `t`'s column sums with each entry weighted by its row's sum. -/
def wBlk (t : Fin cfg0.N) (e : Fin 4096) : EReal :=
  ∑ r : Fin 1000, bblk V c t (ix2 r e) * ∑ e' : Fin 4096, bblk V c t (ix2 r e')

/-! ## The running sums after point `n` are the sums of the contributions of blocks `0 … n` -/

theorem acc0_msg : ∀ (n : ℕ) (hn : n < cfg0.N) (d : Fin 128) (e : Fin 4096),
    (acc0 (F := Ideal) V c n hn).1 (ix2 d e)
      = ∑ s : Fin (n + 1), msgBlk V c ⟨s.val, Nat.lt_of_lt_of_le s.isLt hn⟩ d e
  | 0, hn, d, e => by
    rw [Fin.sum_univ_one]
    exact pay1_apply _ _ d e
  | n + 1, hn, d, e => by
    rw [Fin.sum_univ_castSucc]
    refine (pay4_apply _ _ _ d e).trans ?_
    exact congrArg₂ (· + ·) (acc0_msg n (Nat.lt_of_succ_lt hn) d e) (pay1_apply _ _ d e)

theorem acc0_col : ∀ (n : ℕ) (hn : n < cfg0.N) (e : Fin 4096),
    (acc0 (F := Ideal) V c n hn).2.1 (ix2 (0 : Fin 1) e)
      = ∑ s : Fin (n + 1), colBlk V c ⟨s.val, Nat.lt_of_lt_of_le s.isLt hn⟩ e
  | 0, hn, e => by
    rw [Fin.sum_univ_one]
    exact pay2_apply _ e
  | n + 1, hn, e => by
    rw [Fin.sum_univ_castSucc]
    refine (pay5_apply _ _ e).trans ?_
    exact congrArg₂ (· + ·) (acc0_col n (Nat.lt_of_succ_lt hn) e) (pay2_apply _ e)

theorem acc0_w : ∀ (n : ℕ) (hn : n < cfg0.N) (e : Fin 4096),
    (acc0 (F := Ideal) V c n hn).2.2 (ix2 (0 : Fin 1) e)
      = ∑ s : Fin (n + 1), wBlk V c ⟨s.val, Nat.lt_of_lt_of_le s.isLt hn⟩ e
  | 0, hn, e => by
    rw [Fin.sum_univ_one]
    exact pay3_apply _ e
  | n + 1, hn, e => by
    rw [Fin.sum_univ_castSucc]
    refine (pay6_apply _ _ e).trans ?_
    exact congrArg₂ (· + ·) (acc0_w n (Nat.lt_of_succ_lt hn) e) (pay3_apply _ e)

/-! ## After the last point the running sums are the layer's sums over all rows -/

theorem acc9_msg (t : Fin cfg0.N) (h9 : t.val = 9) :
    (acc0 (F := Ideal) V c t.val t.isLt).1
      = fun i => Cert.Layer.msg (V c main_arg0) (V c main_arg1) (i 0) (i 1) := by
  obtain ⟨n, hn⟩ := t
  obtain rfl : n = 9 := h9
  funext i
  obtain ⟨d, e, rfl⟩ : ∃ (d : Fin 128) (e : Fin 4096), i = ix2 d e := ⟨i 0, i 1, eq_ix2 i⟩
  refine (acc0_msg V c 9 hn d e).trans ?_
  refine Eq.trans (Finset.sum_congr rfl fun s _ => ?_)
    (sum_rows fun n => xarr V c (ix2 n d) * barr V c (ix2 n e))
  exact Finset.sum_congr rfl fun r _ => congrArg₂ (· * ·) (iblk0_x V c _ s.isLt r d) (iblk0_B V c _ s.isLt r e)

theorem acc9_col (t : Fin cfg0.N) (h9 : t.val = 9) :
    (acc0 (F := Ideal) V c t.val t.isLt).2.1 = fun i => Cert.Layer.colSum (V c main_arg1) (i 1) := by
  obtain ⟨n, hn⟩ := t
  obtain rfl : n = 9 := h9
  funext i
  obtain ⟨u, e, rfl⟩ : ∃ (u : Fin 1) (e : Fin 4096), i = ix2 u e := ⟨i 0, i 1, eq_ix2 i⟩
  obtain rfl : u = 0 := Subsingleton.elim _ _
  refine (acc0_col V c 9 hn e).trans ?_
  refine Eq.trans (Finset.sum_congr rfl fun s _ => ?_)
    (sum_rows fun n => barr V c (ix2 n e))
  exact Finset.sum_congr rfl fun r _ => iblk0_B V c _ s.isLt r e

/-- A row's sum within its block is the row's sum in the array: the node's degree. -/
theorem acc9_w (t : Fin cfg0.N) (h9 : t.val = 9) :
    (acc0 (F := Ideal) V c t.val t.isLt).2.2 = fun i => Cert.Layer.wSum (V c main_arg1) (i 1) := by
  obtain ⟨n, hn⟩ := t
  obtain rfl : n = 9 := h9
  funext i
  obtain ⟨u, e, rfl⟩ : ∃ (u : Fin 1) (e : Fin 4096), i = ix2 u e := ⟨i 0, i 1, eq_ix2 i⟩
  obtain rfl : u = 0 := Subsingleton.elim _ _
  refine (acc0_w V c 9 hn e).trans ?_
  refine Eq.trans (Finset.sum_congr rfl fun s _ => ?_)
    (sum_rows fun n => barr V c (ix2 n e) * Cert.Layer.nodeDeg (barr V c) n)
  exact Finset.sum_congr rfl fun r _ => congrArg₂ (· * ·) (iblk0_B V c _ s.isLt r e)
    (Finset.sum_congr rfl fun e' _ => iblk0_B V c _ s.isLt r e')

/-! ## The three result arrays -/

/-- The one write-back of the message table, after the last point, writes the layer's sums: block (0, 0) read through zero
    offsets is the whole array. -/
theorem flushed0_msg (t : Fin cfg0.N) (hf : (cfg0.win 2).flush t = true) :
    (dat0 (F := Ideal) V c).flushed 2 t
      = ((cfg0.win 2).blk t).view.read (Elt Ideal) (fun i => Cert.Layer.msg (V c main_arg0) (V c main_arg1) (i 0) (i 1)) := by
  have hN : cfg0.N = 10 := N_0
  have h9 : t.val = 9 := by have := (flush0_2 t).mp hf; have := t.isLt; omega
  show (cfg0.win 2).cut (grid0.coords t) ((dat0 (F := Ideal) V c).after 2 t) = _
  rw [after0_2, acc9_msg V c t h9]
  obtain rfl : t = t0_9 := Fin.ext h9
  have hz' : (fun a => win0_2.index t0_9 a * main_v0_0.ty.shape.size a) = fun _ => 0 :=
    funext fun a => by fin_cases a <;> decide
  exact (Memref.read_access_unit_zero (Elt Ideal) main_v0_0 hz' (fun a => by rw [congrFun hz' a]; simp) _).symm

/-- The message table after the pass. -/
theorem final0_msg : (dat0 (F := Ideal) V c).arrAt 2 cfg0.N = fun i => Cert.Layer.msg (V c main_arg0) (V c main_arg1) (i 0) (i 1) :=
  (dat0 (F := Ideal) V c).arrAt_eq_of_cover 2 _ (flushed0_msg V c) fun i =>
    ⟨t0_9, (flush0_2 t0_9).mpr rfl, by
      show i ∈ ((View.whole main_v0_0).slice (win0_2.rect t0_9)).set
      rw [View.set_slice_whole, Rect.mem_set_unit]
      intro a
      have h0 : (i 0 : Nat) < 128 := (i 0).isLt
      have h1 : (i 1 : Nat) < 4096 := (i 1).isLt
      match a with
      | ⟨0, _⟩ =>
        show win0_2.index t0_9 0 * win0_2.size 0 ≤ (i 0 : Nat)
          ∧ (i 0 : Nat) < win0_2.index t0_9 0 * win0_2.size 0 + win0_2.xsize (grid0.coords t0_9) 0
        rw [show win0_2.index t0_9 0 * win0_2.size 0 = 0 from by decide +kernel,
          show win0_2.xsize (grid0.coords t0_9) 0 = 128 from by decide +kernel]
        omega
      | ⟨1, _⟩ =>
        show win0_2.index t0_9 1 * win0_2.size 1 ≤ (i 1 : Nat)
          ∧ (i 1 : Nat) < win0_2.index t0_9 1 * win0_2.size 1 + win0_2.xsize (grid0.coords t0_9) 1
        rw [show win0_2.index t0_9 1 * win0_2.size 1 = 0 from by decide +kernel,
          show win0_2.xsize (grid0.coords t0_9) 1 = 4096 from by decide +kernel]
        omega⟩

/-- The one write-back of the column sums, after the last point, writes the layer's sums: block (0, 0) read through zero
    offsets is the whole array. -/
theorem flushed0_col (t : Fin cfg0.N) (hf : (cfg0.win 3).flush t = true) :
    (dat0 (F := Ideal) V c).flushed 3 t
      = ((cfg0.win 3).blk t).view.read (Elt Ideal) (fun i => Cert.Layer.colSum (V c main_arg1) (i 1)) := by
  have hN : cfg0.N = 10 := N_0
  have h9 : t.val = 9 := by have := (flush0_3 t).mp hf; have := t.isLt; omega
  show (cfg0.win 3).cut (grid0.coords t) ((dat0 (F := Ideal) V c).after 3 t) = _
  rw [after0_3, acc9_col V c t h9]
  obtain rfl : t = t0_9 := Fin.ext h9
  have hz' : (fun a => win0_3.index t0_9 a * main_v0_1.ty.shape.size a) = fun _ => 0 :=
    funext fun a => by fin_cases a <;> decide
  exact (Memref.read_access_unit_zero (Elt Ideal) main_v0_1 hz' (fun a => by rw [congrFun hz' a]; simp) _).symm

/-- The column sums after the pass. -/
theorem final0_col : (dat0 (F := Ideal) V c).arrAt 3 cfg0.N = fun i => Cert.Layer.colSum (V c main_arg1) (i 1) :=
  (dat0 (F := Ideal) V c).arrAt_eq_of_cover 3 _ (flushed0_col V c) fun i =>
    ⟨t0_9, (flush0_3 t0_9).mpr rfl, by
      show i ∈ ((View.whole main_v0_1).slice (win0_3.rect t0_9)).set
      rw [View.set_slice_whole, Rect.mem_set_unit]
      intro a
      have h0 : (i 0 : Nat) < 1 := (i 0).isLt
      have h1 : (i 1 : Nat) < 4096 := (i 1).isLt
      match a with
      | ⟨0, _⟩ =>
        show win0_3.index t0_9 0 * win0_3.size 0 ≤ (i 0 : Nat)
          ∧ (i 0 : Nat) < win0_3.index t0_9 0 * win0_3.size 0 + win0_3.xsize (grid0.coords t0_9) 0
        rw [show win0_3.index t0_9 0 * win0_3.size 0 = 0 from by decide +kernel,
          show win0_3.xsize (grid0.coords t0_9) 0 = 1 from by decide +kernel]
        omega
      | ⟨1, _⟩ =>
        show win0_3.index t0_9 1 * win0_3.size 1 ≤ (i 1 : Nat)
          ∧ (i 1 : Nat) < win0_3.index t0_9 1 * win0_3.size 1 + win0_3.xsize (grid0.coords t0_9) 1
        rw [show win0_3.index t0_9 1 * win0_3.size 1 = 0 from by decide +kernel,
          show win0_3.xsize (grid0.coords t0_9) 1 = 4096 from by decide +kernel]
        omega⟩

/-- The one write-back of the degree-weighted column sums, after the last point, writes the layer's sums: block (0, 0) read through zero
    offsets is the whole array. -/
theorem flushed0_w (t : Fin cfg0.N) (hf : (cfg0.win 4).flush t = true) :
    (dat0 (F := Ideal) V c).flushed 4 t
      = ((cfg0.win 4).blk t).view.read (Elt Ideal) (fun i => Cert.Layer.wSum (V c main_arg1) (i 1)) := by
  have hN : cfg0.N = 10 := N_0
  have h9 : t.val = 9 := by have := (flush0_4 t).mp hf; have := t.isLt; omega
  show (cfg0.win 4).cut (grid0.coords t) ((dat0 (F := Ideal) V c).after 4 t) = _
  rw [after0_4, acc9_w V c t h9]
  obtain rfl : t = t0_9 := Fin.ext h9
  have hz' : (fun a => win0_4.index t0_9 a * main_v0_2.ty.shape.size a) = fun _ => 0 :=
    funext fun a => by fin_cases a <;> decide
  exact (Memref.read_access_unit_zero (Elt Ideal) main_v0_2 hz' (fun a => by rw [congrFun hz' a]; simp) _).symm

/-- The degree-weighted column sums after the pass. -/
theorem final0_w : (dat0 (F := Ideal) V c).arrAt 4 cfg0.N = fun i => Cert.Layer.wSum (V c main_arg1) (i 1) :=
  (dat0 (F := Ideal) V c).arrAt_eq_of_cover 4 _ (flushed0_w V c) fun i =>
    ⟨t0_9, (flush0_4 t0_9).mpr rfl, by
      show i ∈ ((View.whole main_v0_2).slice (win0_4.rect t0_9)).set
      rw [View.set_slice_whole, Rect.mem_set_unit]
      intro a
      have h0 : (i 0 : Nat) < 1 := (i 0).isLt
      have h1 : (i 1 : Nat) < 4096 := (i 1).isLt
      match a with
      | ⟨0, _⟩ =>
        show win0_4.index t0_9 0 * win0_4.size 0 ≤ (i 0 : Nat)
          ∧ (i 0 : Nat) < win0_4.index t0_9 0 * win0_4.size 0 + win0_4.xsize (grid0.coords t0_9) 0
        rw [show win0_4.index t0_9 0 * win0_4.size 0 = 0 from by decide +kernel,
          show win0_4.xsize (grid0.coords t0_9) 0 = 1 from by decide +kernel]
        omega
      | ⟨1, _⟩ =>
        show win0_4.index t0_9 1 * win0_4.size 1 ≤ (i 1 : Nat)
          ∧ (i 1 : Nat) < win0_4.index t0_9 1 * win0_4.size 1 + win0_4.xsize (grid0.coords t0_9) 1
        rw [show win0_4.index t0_9 1 * win0_4.size 1 = 0 from by decide +kernel,
          show win0_4.xsize (grid0.coords t0_9) 1 = 4096 from by decide +kernel]
        omega⟩

end Cert.KernelIdeal.HandV

end
-- ==== Proof.K1Pay.lean ====
/-
  The second pass's two payloads, read at an index on the extended reals.

  First payload (the table handed on to the node side): with `a`, `b` the two [1, 4096] rows and `T` the [128, 4096] table,
    scaled(d, e) = T(d, e) · rsqrt (a(0, e) / b(0, e)).
  Second payload (the result block): with `B` the [1000, 4096] incidence block, `T'` the scaled table, `x` the [1000, 128]
  feature block and `W` the [128, 128] weights,
    mix(r, d) = c₀₉ · ((Σ_e B(r,e) · T'(d,e)) · rsqrt (Σ_e B(r,e))) + c₀₁ · x(r, d)
    out(r, d) = c₀₅ · mix(r, d) + c₀₅ · Σ_k mix(r, k) · W(k, d).
  On the extended reals a change of float format and a re-lay to the same shape are the identity, a sum from the zero
  word is the plain sum, and a product into the zero accumulator is the sum of the operands' products over the
  contraction axis; each remaining layout operation reads its operand at the coordinates it keeps.
-/
import proofs.«135583_g910533067196_cont_9to1c4b_380_9_alg».proof.Proof.Gen.KernelIdeal.Skeleton
import proofs.«135583_g910533067196_cont_9to1c4b_380_9_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandV

open Cert.KernelIdeal Cert.KernelIdeal.Gen Idealize.ShloMosaic Idealize.ShloMosaic.ValueIdx

/-! ## The first payload -/

/-- The table scaled, hyperedge by hyperedge, by the inverse root of the quotient of the two rows. -/
theorem scale_apply (v29 v31 : Vec Ideal S1x4096 .f32) (v35 : Vec Ideal S128x4096 .f32) (d : Fin 128) (e : Fin 4096) :
    k1_pay1 (F := Ideal) v29 v31 v35 (ix2 d e)
      = v35 (ix2 d e) * Ideal.rsqrt (Ideal.div (v29 (ix2 (0 : Fin 1) e)) (v31 (ix2 (0 : Fin 1) e))) := by
  unfold k1_pay1
  simp only [shapeCast_self]
  rw [truncf_apply, mulf_apply, broadcastTo_1b_ab_apply]
  rfl

/-! ## The non-pointwise operations of the second payload, read at coordinates -/

/-- A sum along the hyperedge axis from the zero word reads, at node `r`, the sum of row `r`. -/
theorem k1_rowSum_apply (v : FVec Ideal S1000x4096 .f32) (hφ : FKind.Formats .f32)
    (hacc : (0x00000000#32 : BitVec 32) = FKind.add.neutral .f32 hφ) (r : Fin 1000) :
    multiReduction (F := Ideal) .add [1] S1000 v 0x00000000#32 reduces_S1000x4096_S1000 hφ hacc (ix1 r)
      = ∑ e : Fin 4096, v (ix2 r e) := by
  refine (Ideal.multiReduction_add_single v _ reduces_S1000x4096_S1000 hφ hacc (ix1 r)).trans ?_
  have key : ∀ e : Fin 4096, v (reduces_S1000x4096_S1000.lift (ix1 r) e) = v (ix2 r e) := fun e =>
    congrArg v (funext fun a => Fin.ext (by match a with | ⟨0, _⟩ => rfl | ⟨1, _⟩ => rfl))
  exact Finset.sum_congr rfl fun e _ => key e

/-- A vector over the nodes re-laid as a column reads, at `(r, 0)`, its entry at `r`. -/
theorem k1_column_apply (v : FVec Ideal S1000 .f32) (r : Fin 1000) :
    shapeCast S1000x1 v shapeCasts_S1000_S1000x1 (ix2 r (0 : Fin 1)) = v (ix1 r) := by
  refine shapeCast_apply v _ (ix2 r (0 : Fin 1)) (ix1 r) ?_
  rw [Shape.rowMajor_val_one, Shape.rowMajor_val_two]
  show r.val = r.val * 1 + 0
  omega

/-- A column over the nodes spread over the features reads, at `(r, d)`, the column at `(r, 0)`. -/
theorem k1_spread_apply (v : FVec Ideal S1000x1 .f32) (r : Fin 1000) (d : Fin 128) :
    broadcastTo S1000x128 v broadcasts_S1000x1_S1000x128 (ix2 r d) = v (ix2 r (0 : Fin 1)) := by
  refine broadcastTo_apply v _ (ix2 r d) (ix2 r (0 : Fin 1)) fun ax => ?_
  match ax with
  | ⟨0, _⟩ => show r.val = if (1000 : Nat) = 1 then 0 else r.val; rw [if_neg (by decide)]
  | ⟨1, _⟩ => show 0 = if (1 : Nat) = 1 then 0 else d.val; rw [if_pos rfl]

/-! ## The two products -/

/-- The first product contracts both operands' LAST axes: its left index at output `(r, d)` and contraction position `q` is
    `(r, q)` … -/
theorem k1_dotT_lhs0 (i : S1000x128.Idx) (q : dot_S1000x4096_S128x4096_S1000x128_1_1_0_0_n_n.contr.Idx) :
    (dot_S1000x4096_S128x4096_S1000x128_1_1_0_0_n_n.lhsIdx i q 0).val = (i 0).val := by
  unfold DotDims.lhsIdx
  rw [dif_neg (show ¬(0 : Fin S1000x4096.rank) ∈ dot_S1000x4096_S128x4096_S1000x128_1_1_0_0_n_n.lhsBatch by decide),
    dif_pos (show (0 : Fin S1000x4096.rank) ∈ dot_S1000x4096_S128x4096_S1000x128_1_1_0_0_n_n.lhsNonContracting by decide)]
  rfl
theorem k1_dotT_lhs1 (i : S1000x128.Idx) (q : dot_S1000x4096_S128x4096_S1000x128_1_1_0_0_n_n.contr.Idx) :
    (dot_S1000x4096_S128x4096_S1000x128_1_1_0_0_n_n.lhsIdx i q 1).val = (q ⟨0, by decide⟩).val :=
  dot_S1000x4096_S128x4096_S1000x128_1_1_0_0_n_n.lhsIdx_val_of_single rfl i q
/-- … and its right index is `(d, q)`. -/
theorem k1_dotT_rhs0 (i : S1000x128.Idx) (q : dot_S1000x4096_S128x4096_S1000x128_1_1_0_0_n_n.contr.Idx) :
    (dot_S1000x4096_S128x4096_S1000x128_1_1_0_0_n_n.rhsIdx i q 0).val = (i 1).val := by
  unfold DotDims.rhsIdx
  rw [dif_neg (show ¬(0 : Fin S128x4096.rank) ∈ dot_S1000x4096_S128x4096_S1000x128_1_1_0_0_n_n.rhsBatch by decide),
    dif_pos (show (0 : Fin S128x4096.rank) ∈ dot_S1000x4096_S128x4096_S1000x128_1_1_0_0_n_n.rhsNonContracting by decide)]
  rfl
theorem k1_dotT_rhs1 (i : S1000x128.Idx) (q : dot_S1000x4096_S128x4096_S1000x128_1_1_0_0_n_n.contr.Idx) :
    (dot_S1000x4096_S128x4096_S1000x128_1_1_0_0_n_n.rhsIdx i q 1).val = (q ⟨0, by decide⟩).val :=
  dot_S1000x4096_S128x4096_S1000x128_1_1_0_0_n_n.rhsIdx_val_of_single rfl i q

/-- The first product into the zero accumulator, read at `(r, d)`: the sum over the hyperedges of left `(r, e)` times right `(d, e)`. -/
theorem k1_dotT_apply {φ₁ φ₂ : FTy} (a : FVec Ideal S1000x4096 φ₁) (b : FVec Ideal S128x4096 φ₂) (r : Fin 1000) (d : Fin 128) :
    matmul dot_S1000x4096_S128x4096_S1000x128_1_1_0_0_n_n none a b (constant (F := Ideal) S1000x128 .f32 0x00000000#32) (ix2 r d)
      = ∑ e : Fin 4096, a (ix2 r e) * b (ix2 d e) := by
  simp only [matmul]
  rw [Ideal.matmul_constant_zero_apply,
    ← Equiv.sum_comp (contrEquiv1 dot_S1000x4096_S128x4096_S1000x128_1_1_0_0_n_n 4096 rfl rfl).symm]
  refine Finset.sum_congr rfl fun k _ => ?_
  have hk := contrEquiv1_symm_val dot_S1000x4096_S128x4096_S1000x128_1_1_0_0_n_n 4096 rfl rfl k
  have el : dot_S1000x4096_S128x4096_S1000x128_1_1_0_0_n_n.lhsIdx (ix2 r d)
      ((contrEquiv1 dot_S1000x4096_S128x4096_S1000x128_1_1_0_0_n_n 4096 rfl rfl).symm k) = ix2 r k :=
    funext fun ax => Fin.ext (by
      match ax with
      | ⟨0, _⟩ => exact k1_dotT_lhs0 _ _
      | ⟨1, _⟩ => exact (k1_dotT_lhs1 _ _).trans hk)
  have er : dot_S1000x4096_S128x4096_S1000x128_1_1_0_0_n_n.rhsIdx (ix2 r d)
      ((contrEquiv1 dot_S1000x4096_S128x4096_S1000x128_1_1_0_0_n_n 4096 rfl rfl).symm k) = ix2 d k :=
    funext fun ax => Fin.ext (by
      match ax with
      | ⟨0, _⟩ => exact k1_dotT_rhs0 _ _
      | ⟨1, _⟩ => exact (k1_dotT_rhs1 _ _).trans hk)
  rw [el, er]

/-- The second product is a plain one: its left index at output `(r, d)` and contraction position `q` is `(r, q)` … -/
theorem k1_dotP_lhs0 (i : S1000x128.Idx) (q : dot_S1000x128_S128x128_S1000x128_1_0_0_1_n_n.contr.Idx) :
    (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide),
    dif_pos (show (0 : Fin S1000x128.rank) ∈ dot_S1000x128_S128x128_S1000x128_1_0_0_1_n_n.lhsNonContracting by decide)]
  rfl
theorem k1_dotP_lhs1 (i : S1000x128.Idx) (q : dot_S1000x128_S128x128_S1000x128_1_0_0_1_n_n.contr.Idx) :
    (dot_S1000x128_S128x128_S1000x128_1_0_0_1_n_n.lhsIdx i q 1).val = (q ⟨0, by decide⟩).val :=
  dot_S1000x128_S128x128_S1000x128_1_0_0_1_n_n.lhsIdx_val_of_single rfl i q
/-- … and its right index is `(q, d)`. -/
theorem k1_dotP_rhs0 (i : S1000x128.Idx) (q : dot_S1000x128_S128x128_S1000x128_1_0_0_1_n_n.contr.Idx) :
    (dot_S1000x128_S128x128_S1000x128_1_0_0_1_n_n.rhsIdx i q 0).val = (q ⟨0, by decide⟩).val :=
  dot_S1000x128_S128x128_S1000x128_1_0_0_1_n_n.rhsIdx_val_of_single rfl i q
theorem k1_dotP_rhs1 (i : S1000x128.Idx) (q : dot_S1000x128_S128x128_S1000x128_1_0_0_1_n_n.contr.Idx) :
    (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide),
    dif_pos (show (1 : Fin S128x128.rank) ∈ dot_S1000x128_S128x128_S1000x128_1_0_0_1_n_n.rhsNonContracting by decide)]
  rfl

/-- The second product into the zero accumulator, read at `(r, d)`: the sum over the features of left `(r, k)` times right `(k, d)`. -/
theorem k1_dotP_apply {φ₁ φ₂ : FTy} (a : FVec Ideal S1000x128 φ₁) (b : FVec Ideal S128x128 φ₂) (r : Fin 1000) (d : Fin 128) :
    matmul dot_S1000x128_S128x128_S1000x128_1_0_0_1_n_n none a b (constant (F := Ideal) S1000x128 .f32 0x00000000#32) (ix2 r d)
      = ∑ k : Fin 128, a (ix2 r k) * b (ix2 k d) := by
  simp only [matmul]
  rw [Ideal.matmul_constant_zero_apply,
    ← Equiv.sum_comp (contrEquiv1 dot_S1000x128_S128x128_S1000x128_1_0_0_1_n_n 128 rfl rfl).symm]
  refine Finset.sum_congr rfl fun k _ => ?_
  have hk := contrEquiv1_symm_val dot_S1000x128_S128x128_S1000x128_1_0_0_1_n_n 128 rfl rfl k
  have el : dot_S1000x128_S128x128_S1000x128_1_0_0_1_n_n.lhsIdx (ix2 r d)
      ((contrEquiv1 dot_S1000x128_S128x128_S1000x128_1_0_0_1_n_n 128 rfl rfl).symm k) = ix2 r k :=
    funext fun ax => Fin.ext (by
      match ax with
      | ⟨0, _⟩ => exact k1_dotP_lhs0 _ _
      | ⟨1, _⟩ => exact (k1_dotP_lhs1 _ _).trans hk)
  have er : dot_S1000x128_S128x128_S1000x128_1_0_0_1_n_n.rhsIdx (ix2 r d)
      ((contrEquiv1 dot_S1000x128_S128x128_S1000x128_1_0_0_1_n_n 128 rfl rfl).symm k) = ix2 k d :=
    funext fun ax => Fin.ext (by
      match ax with
      | ⟨0, _⟩ => exact (k1_dotP_rhs0 _ _).trans hk
      | ⟨1, _⟩ => exact k1_dotP_rhs1 _ _)
  rw [el, er]

/-! ## The second payload -/

/-- The gathered message of node `r` and feature `d`, normalised by the node's inverse root degree, mixed with the node's
    own feature: the table row contracted with the incidence row, times the inverse root of the row sum. -/
def mix (v3 : Vec Ideal S1000x4096 .f32) (v7 : Vec Ideal S128x4096 .bf16) (v14 : Vec Ideal S1000x128 .f32)
    (r : Fin 1000) (d : Fin 128) : EReal :=
  Cert.Layer.c09 * ((∑ e : Fin 4096, v3 (ix2 r e) * v7 (ix2 d e)) * Ideal.rsqrt (∑ e : Fin 4096, v3 (ix2 r e)))
    + Cert.Layer.c01 * v14 (ix2 r d)

/-- The mixed value as the payload builds it from a vector `m` of row sums, before the last product. -/
def k1_mixedOf (m : FVec Ideal S1000 .f32) (v3 : Vec Ideal S1000x4096 .f32) (v7 : Vec Ideal S128x4096 .bf16)
    (v14 : Vec Ideal S1000x128 .f32) : FVec Ideal S1000x128 .f32 :=
  addf
    (mulf (broadcast S1000x128 (Scalar.ofBits (F := Ideal) .f32 0x3F666666#32))
      (mulf
        (matmul (φ₁ := .bf16) (φ₂ := .bf16) dot_S1000x4096_S128x4096_S1000x128_1_1_0_0_n_n none
          (truncf .bf16 v3 bitsLt_bf16_f32) v7 (constant (F := Ideal) S1000x128 .f32 0x00000000#32))
        (broadcastTo S1000x128 (rsqrt (shapeCast S1000x1 m shapeCasts_S1000_S1000x1)) broadcasts_S1000x1_S1000x128)))
    (mulf (broadcast S1000x128 (Scalar.ofBits (F := Ideal) .f32 0x3DCCCCCD#32)) v14)

/-- With the row sums in, the mixed value at `(r, d)` is `mix`. -/
theorem k1_mixedOf_apply (m : FVec Ideal S1000 .f32) (v3 : Vec Ideal S1000x4096 .f32) (v7 : Vec Ideal S128x4096 .bf16)
    (v14 : Vec Ideal S1000x128 .f32) (hm : ∀ r : Fin 1000, m (ix1 r) = ∑ e : Fin 4096, v3 (ix2 r e))
    (r : Fin 1000) (d : Fin 128) : k1_mixedOf m v3 v7 v14 (ix2 r d) = mix v3 v7 v14 r d := by
  unfold k1_mixedOf mix Cert.Layer.c09 Cert.Layer.c01
  simp only [addf_apply, mulf_apply, broadcast_apply]
  rw [k1_dotT_apply, k1_spread_apply]
  show _ * (_ * Ideal.rsqrt (shapeCast S1000x1 m shapeCasts_S1000_S1000x1 (ix2 r (0 : Fin 1)))) + _ = _
  rw [k1_column_apply, hm]
  rfl

/-- The mixed value of the payload: the row sums are the lane sums of the incidence block. -/
def k1_mixed (v3 : Vec Ideal S1000x4096 .f32) (v7 : Vec Ideal S128x4096 .bf16) (v14 : Vec Ideal S1000x128 .f32) :
    FVec Ideal S1000x128 .f32 :=
  k1_mixedOf (multiReduction (F := Ideal) .add [1] S1000 v3 0x00000000#32 reduces_S1000x4096_S1000 (.inl rfl) rfl) v3 v7 v14

theorem k1_mixed_apply (v3 : Vec Ideal S1000x4096 .f32) (v7 : Vec Ideal S128x4096 .bf16) (v14 : Vec Ideal S1000x128 .f32)
    (r : Fin 1000) (d : Fin 128) : k1_mixed v3 v7 v14 (ix2 r d) = mix v3 v7 v14 r d :=
  k1_mixedOf_apply _ v3 v7 v14 (fun r => k1_rowSum_apply v3 _ _ r) r d

/-- The payload is the half of the mixed value plus the half of its product with the weights. -/
theorem k1_pay2_eq (v3 : Vec Ideal S1000x4096 .f32) (v7 : Vec Ideal S128x4096 .bf16) (v14 : Vec Ideal S1000x128 .f32)
    (v21 : Vec Ideal S128x128 .f32) :
    k1_pay2 (F := Ideal) v3 v7 v14 v21
      = addf (mulf (broadcast S1000x128 (Scalar.ofBits (F := Ideal) .f32 0x3F000000#32)) (k1_mixed v3 v7 v14))
          (mulf (broadcast S1000x128 (Scalar.ofBits (F := Ideal) .f32 0x3F000000#32))
            (matmul (φ₁ := .bf16) (φ₂ := .bf16) dot_S1000x128_S128x128_S1000x128_1_0_0_1_n_n none
              (truncf .bf16 (k1_mixed v3 v7 v14) bitsLt_bf16_f32)
              (truncf .bf16 (shapeCast S128x128 v21 shapeCasts_S128x128_S128x128) bitsLt_bf16_f32)
              (constant (F := Ideal) S1000x128 .f32 0x00000000#32))) := rfl

/-- The second payload at `(r, d)`: half the mixed value plus half its image under the weights. -/
theorem out_apply (v3 : Vec Ideal S1000x4096 .f32) (v7 : Vec Ideal S128x4096 .bf16) (v14 : Vec Ideal S1000x128 .f32)
    (v21 : Vec Ideal S128x128 .f32) (r : Fin 1000) (d : Fin 128) :
    k1_pay2 (F := Ideal) v3 v7 v14 v21 (ix2 r d)
      = Cert.Layer.c05 * mix v3 v7 v14 r d + Cert.Layer.c05 * ∑ k : Fin 128, mix v3 v7 v14 r k * v21 (ix2 k d) := by
  rw [k1_pay2_eq]
  unfold Cert.Layer.c05
  simp only [addf_apply, mulf_apply, broadcast_apply]
  rw [k1_dotP_apply, k1_mixed_apply, shapeCast_self]
  simp only [truncf_apply, k1_mixed_apply]
  rfl

end Cert.KernelIdeal.HandV

end
-- ==== Proof.K1Value.lean ====
/-
  The second pass's result array after its last point, as one function of the arrays the pass is entered with.

  The pass runs over ten points; point `t` sees rows 1000·t … 1000·t + 999 of the incidence matrix and of the node
  features, and the whole of the message table, of the two rows of column sums and of the transposed weights. It writes
  one block of 1000 rows of the result back at every point.

  A block's coordinate in its array is, on each axis, the block index times the block's extent plus the coordinate inside
  the block; the block indices are the printed index maps, decided once over the ten points. So the incidence and feature
  blocks of point `t` read at row `r` as the arrays at row 1000·t + r, and the whole-array blocks read as their arrays.
  The scratch holds, after every point, the message table scaled per hyperedge, which the first point stored. Hence entry
  (r, d) of the block point `t` leaves is the result function at (1000·t + r, d): what each point writes back is its block
  of that one function. Row `n` lies in the block of point `n / 1000`, so the blocks cover the array, and the array ends
  holding the function.
-/
import proofs.«135583_g910533067196_cont_9to1c4b_380_9_alg».proof.Proof.K1Defs
import proofs.«135583_g910533067196_cont_9to1c4b_380_9_alg».proof.Proof.Spec
import proofs.«135583_g910533067196_cont_9to1c4b_380_9_alg».proof.Proof.K1Pay
import Idealize.ShloMosaic.Lib.ValueIdx
import Idealize.ShloMosaic.Lib.Pipeline.Value
import Idealize.ShloMosaic.PureOps.Ideal.Laws

noncomputable section

namespace Cert.KernelIdeal.HandV

open Cert.KernelIdeal Cert.KernelIdeal.Gen Cert.KernelIdeal.Hand Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b)) (c : Dev nD)

/-! ## Where each window's block sits in its array -/

/-- The printed index maps, decided over the ten points: a window of row blocks is at block row `t`, block column 0; a
    window of a whole array is at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `r` of point `t`'s block is row `1000 t + r` of the array. -/
def rowOf (t : Fin cfg1.N) (r : Fin 1000) : Fin 10000 :=
  ⟨t.val * 1000 + r.val, by have ht := t.isLt; have hN : cfg1.N = 10 := N_1; have hr := r.isLt; omega⟩

/-! ## The blocks read at an index

A block's coordinate in its array is, on each axis, the block index times the block's extent plus the coordinate inside
the block. -/

/-- The incidence block of point `t` at (r, e): the incidence matrix at row `1000 t + r`. -/
theorem blk0_apply (t : Fin cfg1.N) (r : Fin 1000) (e : Fin 4096) :
    iblk1 V c 0 t (ix2 r e) = V c main_arg1 (ix2 (rowOf t r) e) := by
  obtain ⟨e00, e01, e10, e11, -⟩ := idx_facts1 t
  show V c main_arg1 (((cfg1.win 0).blk t).view.emb (ix2 r e)) = V c main_arg1 (ix2 (rowOf t r) e)
  refine congrArg _ ?_
  funext a; apply Fin.ext
  match a with
  | ⟨0, _⟩ => show win1_0.index t (0 : Fin 2) * 1000 + 1 * r.val = t.val * 1000 + r.val; omega
  | ⟨1, _⟩ => show win1_0.index t (1 : Fin 2) * 4096 + 1 * e.val = e.val; omega

/-- The feature block of point `t` at (r, d): the node features at row `1000 t + r`. -/
theorem blk1_apply (t : Fin cfg1.N) (r : Fin 1000) (d : Fin 128) :
    iblk1 V c 1 t (ix2 r d) = V c main_arg0 (ix2 (rowOf t r) d) := by
  obtain ⟨e00, e01, e10, e11, -⟩ := idx_facts1 t
  show V c main_arg0 (((cfg1.win 1).blk t).view.emb (ix2 r d)) = V c main_arg0 (ix2 (rowOf t r) d)
  refine congrArg _ ?_
  funext a; apply Fin.ext
  match a with
  | ⟨0, _⟩ => show win1_1.index t (0 : Fin 2) * 1000 + 1 * r.val = t.val * 1000 + r.val; omega
  | ⟨1, _⟩ => show win1_1.index t (1 : Fin 2) * 128 + 1 * d.val = d.val; omega

/-- The message table's block at any point is the table. -/
theorem blk2_apply (t : Fin cfg1.N) (a0 : Fin 128) (a1 : Fin 4096) :
    iblk1 V c 2 t (ix2 a0 a1) = V c main_v0_0 (ix2 a0 a1) := by
  obtain ⟨-, -, -, -, e20, e21, e30, e31, e40, e41, e50, e51, -⟩ := idx_facts1 t
  show V c main_v0_0 (((cfg1.win 2).blk t).view.emb (ix2 a0 a1)) = V c main_v0_0 (ix2 a0 a1)
  refine congrArg _ ?_
  funext a; apply Fin.ext
  match a with
  | ⟨0, _⟩ => show win1_2.index t (0 : Fin 2) * 128 + 1 * a0.val = a0.val; omega
  | ⟨1, _⟩ => show win1_2.index t (1 : Fin 2) * 4096 + 1 * a1.val = a1.val; omega

/-- The column sums' block at any point is the row of column sums. -/
theorem blk3_apply (t : Fin cfg1.N) (a0 : Fin 1) (a1 : Fin 4096) :
    iblk1 V c 3 t (ix2 a0 a1) = V c main_v0_1 (ix2 a0 a1) := by
  obtain ⟨-, -, -, -, e20, e21, e30, e31, e40, e41, e50, e51, -⟩ := idx_facts1 t
  show V c main_v0_1 (((cfg1.win 3).blk t).view.emb (ix2 a0 a1)) = V c main_v0_1 (ix2 a0 a1)
  refine congrArg _ ?_
  funext a; apply Fin.ext
  match a with
  | ⟨0, _⟩ => show win1_3.index t (0 : Fin 2) * 1 + 1 * a0.val = a0.val; omega
  | ⟨1, _⟩ => show win1_3.index t (1 : Fin 2) * 4096 + 1 * a1.val = a1.val; omega

/-- The weighted column sums' block at any point is the row of weighted column sums. -/
theorem blk4_apply (t : Fin cfg1.N) (a0 : Fin 1) (a1 : Fin 4096) :
    iblk1 V c 4 t (ix2 a0 a1) = V c main_v0_2 (ix2 a0 a1) := by
  obtain ⟨-, -, -, -, e20, e21, e30, e31, e40, e41, e50, e51, -⟩ := idx_facts1 t
  show V c main_v0_2 (((cfg1.win 4).blk t).view.emb (ix2 a0 a1)) = V c main_v0_2 (ix2 a0 a1)
  refine congrArg _ ?_
  funext a; apply Fin.ext
  match a with
  | ⟨0, _⟩ => show win1_4.index t (0 : Fin 2) * 1 + 1 * a0.val = a0.val; omega
  | ⟨1, _⟩ => show win1_4.index t (1 : Fin 2) * 4096 + 1 * a1.val = a1.val; omega

/-- The transposed weights' block at any point is the matrix. -/
theorem blk5_apply (t : Fin cfg1.N) (a0 : Fin 128) (a1 : Fin 128) :
    iblk1 V c 5 t (ix2 a0 a1) = V c main_v1 (ix2 a0 a1) := by
  obtain ⟨-, -, -, -, e20, e21, e30, e31, e40, e41, e50, e51, -⟩ := idx_facts1 t
  show V c main_v1 (((cfg1.win 5).blk t).view.emb (ix2 a0 a1)) = V c main_v1 (ix2 a0 a1)
  refine congrArg _ ?_
  funext a; apply Fin.ext
  match a with
  | ⟨0, _⟩ => show win1_5.index t (0 : Fin 2) * 128 + 1 * a0.val = a0.val; omega
  | ⟨1, _⟩ => show win1_5.index t (1 : Fin 2) * 128 + 1 * a1.val = a1.val; omega

/-- Entry (r, d) of point `t`'s result block is entry (`1000 t + r`, d) of the result array. -/
theorem emb6_apply (t : Fin cfg1.N) (r : Fin 1000) (d : Fin 128) :
    ((cfg1.win 6).blk t).view.emb (ix2 r d) = ix2 (rowOf t r) d := by
  obtain ⟨-, -, -, -, -, -, -, -, -, -, -, -, e60, e61⟩ := idx_facts1 t
  funext a; apply Fin.ext
  match a with
  | ⟨0, _⟩ => show win1_6.index t (0 : Fin 2) * 1000 + 1 * r.val = t.val * 1000 + r.val; omega
  | ⟨1, _⟩ => show win1_6.index t (1 : Fin 2) * 128 + 1 * d.val = d.val; omega

/-! ## The result as one function of the arrays the pass is entered with -/

/-- The mixed feature of node `n`, from the node features `X`, the incidence matrix `B`, the message table `T` and the
    rows `C`, `S` of column sums and weighted column sums: the messages scaled per hyperedge by the inverse root of
    `S / C`, gathered along row `n` of `B`, normalised by the inverse root of the row's sum, mixed with the node's own
    feature. -/
def combK (X : Cert.Layer.SX.Idx → EReal) (B : Cert.Layer.SB.Idx → EReal) (T : (⟨2, ![128, 4096]⟩ : Shape).Idx → EReal)
    (C S : (⟨2, ![1, 4096]⟩ : Shape).Idx → EReal) (n : Fin 10000) (d : Fin 128) : EReal :=
  Cert.Layer.c09 * ((∑ e : Fin 4096, B (ix2 n e) * (T (ix2 d e) * Ideal.rsqrt (Ideal.div (S (ix2 (0 : Fin 1) e)) (C (ix2 (0 : Fin 1) e)))))
      * Ideal.rsqrt (∑ e : Fin 4096, B (ix2 n e)))
    + Cert.Layer.c01 * X (ix2 n d)

/-- Half the mixed feature plus half its image under the transposed weights `WT`. -/
def outK (X : Cert.Layer.SX.Idx → EReal) (B : Cert.Layer.SB.Idx → EReal) (T : (⟨2, ![128, 4096]⟩ : Shape).Idx → EReal)
    (C S : (⟨2, ![1, 4096]⟩ : Shape).Idx → EReal) (WT : Cert.Layer.SW.Idx → EReal) (n : Fin 10000) (d : Fin 128) : EReal :=
  Cert.Layer.c05 * combK X B T C S n d + Cert.Layer.c05 * ∑ k : Fin 128, combK X B T C S n k * WT (ix2 k d)

/-! ## The arrays the pass is entered with, at their shapes -/

/-- The node features. -/
abbrev arrX : Cert.Layer.SX.Idx → EReal := V c main_arg0
/-- The incidence matrix. -/
abbrev arrB : Cert.Layer.SB.Idx → EReal := V c main_arg1
/-- The message table, feature-major. -/
abbrev arrT : (⟨2, ![128, 4096]⟩ : Shape).Idx → EReal := V c main_v0_0
/-- The row of column sums. -/
abbrev arrC : (⟨2, ![1, 4096]⟩ : Shape).Idx → EReal := V c main_v0_1
/-- The row of weighted column sums. -/
abbrev arrS : (⟨2, ![1, 4096]⟩ : Shape).Idx → EReal := V c main_v0_2
/-- The transposed weights. -/
abbrev arrWT : Cert.Layer.SW.Idx → EReal := V c main_v1

/-! ## One point's result, over any blocks that read as the arrays do -/

/-- If the blocks handed to the body read as the arrays at node `n` — the incidence and feature blocks at their row `r`,
    the transposed weights entry by entry — and the scratch reads as the scaled message table, then entry (r, d) of the
    body's result is the result function at (n, d). -/
theorem point_value (X : Cert.Layer.SX.Idx → EReal) (B : Cert.Layer.SB.Idx → EReal) (T : (⟨2, ![128, 4096]⟩ : Shape).Idx → EReal)
    (C S : (⟨2, ![1, 4096]⟩ : Shape).Idx → EReal) (WT : Cert.Layer.SW.Idx → EReal)
    (v3 : Vec Ideal S1000x4096 .f32) (v7 : Vec Ideal S128x4096 .bf16) (v14 : Vec Ideal S1000x128 .f32) (v21 : Vec Ideal S128x128 .f32)
    (n : Fin 10000) (r : Fin 1000)
    (h3 : ∀ e : Fin 4096, v3 (ix2 r e) = B (ix2 n e)) (h14 : ∀ d : Fin 128, v14 (ix2 r d) = X (ix2 n d))
    (h7 : ∀ (d : Fin 128) (e : Fin 4096), v7 (ix2 d e) = T (ix2 d e) * Ideal.rsqrt (Ideal.div (S (ix2 (0 : Fin 1) e)) (C (ix2 (0 : Fin 1) e))))
    (h21 : ∀ k d : Fin 128, v21 (ix2 k d) = WT (ix2 k d)) (d : Fin 128) :
    k1_pay2 (F := Ideal) v3 v7 v14 v21 (ix2 r d) = outK X B T C S WT n d := by
  have hmix : ∀ d' : Fin 128, mix v3 v7 v14 r d' = combK X B T C S n d' := by
    intro d'
    unfold mix combK
    simp only [h3, h14, h7]
  rw [out_apply]
  unfold outK
  simp only [hmix, h21]

/-! ## What the scratch holds, and what a point leaves in the result's buffer -/

/-- After any point the scratch reads as the message table scaled per hyperedge: the first point stores that, from the
    whole-array blocks, and no later point stores into it. -/
theorem scratch_apply (n : ℕ) (hn : n < cfg1.N) (d : Fin 128) (e : Fin 4096) :
    (acc1 V c n hn).2 (ix2 d e)
      = arrT V c (ix2 d e) * Ideal.rsqrt (Ideal.div (arrS V c (ix2 (0 : Fin 1) e)) (arrC V c (ix2 (0 : Fin 1) e))) := by
  induction n with
  | zero =>
    show k1_pay1 (F := Ideal) (iblk1 V c 4 ⟨0, hn⟩) (iblk1 V c 3 ⟨0, hn⟩) (iblk1 V c 2 ⟨0, hn⟩) (ix2 d e) = _
    rw [scale_apply, blk2_apply, blk3_apply, blk4_apply]
  | succ n ih => exact ih (Nat.lt_of_succ_lt hn)

/-- The result block a point leaves is the body's payload over the point's blocks and the scratch as the point leaves it. -/
theorem acc1_fst (t : Fin cfg1.N) :
    (acc1 V c t.val t.isLt).1 = k1_pay2 (iblk1 V c 0 t) (acc1 V c t.val t.isLt).2 (iblk1 V c 1 t) (iblk1 V c 5 t) := by
  obtain ⟨n, hn⟩ := t
  cases n with
  | zero => rfl
  | succ n => rfl

/-- The result array as one function of the arrays the pass is entered with. -/
abbrev outArr : S10000x128.Idx → EReal := fun i =>
  outK (arrX V c) (arrB V c) (arrT V c) (arrC V c) (arrS V c) (arrWT V c) (i 0) (i 1)

/-- Entry `j` of the block point `t` leaves is the result function at the entry's place in the array. -/
theorem left_apply (t : Fin cfg1.N) (j : S1000x128.Idx) :
    k1_pay2 (F := Ideal) (iblk1 V c 0 t) (acc1 V c t.val t.isLt).2 (iblk1 V c 1 t) (iblk1 V c 5 t) j
      = outArr V c (((cfg1.win 6).blk t).view.emb j) := by
  obtain ⟨r, d, rfl⟩ : ∃ (r : Fin 1000) (d : Fin 128), j = ix2 r d := ⟨j 0, j 1, eq_ix2 j⟩
  rw [emb6_apply]
  exact point_value (arrX V c) (arrB V c) (arrT V c) (arrC V c) (arrS V c) (arrWT V c)
    (iblk1 V c 0 t) (acc1 V c t.val t.isLt).2 (iblk1 V c 1 t) (iblk1 V c 5 t) (rowOf t r) r
    (fun e => blk0_apply V c t r e) (fun d => blk1_apply V c t r d)
    (fun d e => scratch_apply V c t.val t.isLt d e) (fun k d => blk5_apply V c t k d) d

/-- WHAT POINT `t` WRITES BACK is block `t` of the result function. -/
theorem flushed6_eq (t : Fin cfg1.N) :
    (dat1 (F := Ideal) V c).flushed 6 t = ((cfg1.win 6).blk t).view.read (Elt Ideal) (outArr V c) := by
  show (cfg1.win 6).cut (grid1.coords t) ((dat1 V c).after 6 t) = _
  rw [after1_6, acc1_fst]
  funext j
  exact left_apply V c t j

/-! ## The blocks cover the array -/

/-- An index of the result array is in point `t`'s block iff each coordinate is in the block's range on its axis. -/
theorem mem_blk6 (t : Fin cfg1.N) (i : S10000x128.Idx) :
    i ∈ ((cfg1.win 6).blk t).view.set ↔ ∀ a : Fin 2, win1_6.index t a * S1000x128.size a ≤ (i a).val ∧ (i a).val < win1_6.index t a * S1000x128.size a + S1000x128.size a := by
  show i ∈ ((View.whole main_v2).slice (win1_6.rect t)).set ↔ _
  rw [View.set_slice_whole, Rect.mem_set_unit]
  exact Iff.rfl

/-- Every index of the result array is in the block of the point its row falls in: row `n` is in block `n / 1000`. -/
theorem cover6 (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 10 := N_1
  let t : Fin cfg1.N := ⟨(i 0).val / 1000, by omega⟩
  obtain ⟨-, -, -, -, -, -, -, -, -, -, -, -, e60, e61⟩ := idx_facts1 t
  have ht : t.val = (i 0).val / 1000 := rfl
  refine ⟨t, flush1_6 t, ?_⟩
  rw [mem_blk6]
  intro a
  match a with
  | ⟨0, _⟩ => show win1_6.index t (0 : Fin 2) * 1000 ≤ (i 0).val ∧ (i 0).val < win1_6.index t (0 : Fin 2) * 1000 + 1000; omega
  | ⟨1, _⟩ => show win1_6.index t (1 : Fin 2) * 128 ≤ (i 1).val ∧ (i 1).val < win1_6.index t (1 : Fin 2) * 128 + 128; omega

/-! ## The result array after the pass -/

/-- After the last point the result array holds the result function of the arrays the pass was entered with. -/
theorem final1_out :
    (dat1 (F := Ideal) V c).arrAt 6 cfg1.N
      = fun i => outK (V c main_arg0) (V c main_arg1) (V c main_v0_0) (V c main_v0_1) (V c main_v0_2) (V c main_v1) (i 0) (i 1) :=
  (dat1 (F := Ideal) V c).arrAt_eq_of_cover 6 (outArr V c) (fun t _ => flushed6_eq V c t) cover6

end Cert.KernelIdeal.HandV

end
-- ==== Proof.KValue.lean ====
/-
  What the two-pass program leaves in its result array, at the extended reals: the layer's function of the arguments.

  The second pass's result array, read after its last point, is its closed form over the arrays it was entered with: the
  two argument arrays, the first pass's three results, and the transposed weights. The first pass's results are the
  message table, the column sums and the degree-weighted column sums of the arguments; the transposed weights at (k, d)
  are the weights at (d, k). Substituting, the closed form is the specification term for term: the edge degree is the
  quotient of the two column sums, the node degree the row sum, and the sums and products are already arranged as the
  specification arranges them.
-/
import proofs.«135583_g910533067196_cont_9to1c4b_380_9_alg».proof.Proof.Frame
import proofs.«135583_g910533067196_cont_9to1c4b_380_9_alg».proof.Proof.K0Value
import proofs.«135583_g910533067196_cont_9to1c4b_380_9_alg».proof.Proof.K1Value
import proofs.«135583_g910533067196_cont_9to1c4b_380_9_alg».proof.Proof.Spec

set_option maxRecDepth 16384

noncomputable section

namespace Cert.KernelIdeal.HandV

open Cert.KernelIdeal Cert.KernelIdeal.Gen Cert.KernelIdeal.Hand
open Idealize.ShloMosaic Idealize.ShloMosaic.TcCoe
open Idealize.SL Idealize.SL.Sem
open Idealize.ShloMosaic.ValueIdx

variable (m : (ℓ : Loc nD τ sig) → Buf (Elt Ideal) ℓ) (ρ : Dev nD → PrngReg) (c : Dev nD)

/-- The second pass's closed form, with the first pass's results and the transposed weights substituted, is the
    specification term for term (over any arrays). -/
theorem outK_spec (X : Cert.Layer.SX.Idx → EReal) (B : Cert.Layer.SB.Idx → EReal) (W WT : Cert.Layer.SW.Idx → EReal)
    (hWT : ∀ k d : Fin 128, WT (ix2 k d) = W (ix2 d k)) (n : Fin 10000) (d : Fin 128) :
    outK X B (fun i => Cert.Layer.msg X B (i 0) (i 1)) (fun i => Cert.Layer.colSum B (i 1))
        (fun i => Cert.Layer.wSum B (i 1)) WT n d
      = Cert.Layer.out X B W n d := by
  unfold outK combK Cert.Layer.out Cert.Layer.comb Cert.Layer.agg Cert.Layer.edgeDeg Cert.Layer.nodeDeg
  simp only [hWT]

/-- The closed form depends on its six arrays only through their values. -/
theorem outK_congr {X X' : Cert.Layer.SX.Idx → EReal} {B B' : Cert.Layer.SB.Idx → EReal}
    {T T' : (⟨2, ![128, 4096]⟩ : Shape).Idx → EReal} {C C' S S' : (⟨2, ![1, 4096]⟩ : Shape).Idx → EReal}
    {WT WT' : Cert.Layer.SW.Idx → EReal}
    (hX : X' = X) (hB : B' = B) (hT : T' = T) (hC : C' = C) (hS : S' = S) (hW : WT' = WT) (n : Fin 10000) (d : Fin 128) :
    outK X' B' T' C' S' WT' n d = outK X B T C S WT n d := by
  subst hX hB hT hC hS hW; rfl

/-- The result array after the run is the layer's function of the three argument arrays as launched. -/
theorem value_eq : B3 m ρ c (Proc.devRef .tc main_v2)
    = Cert.Layer.G (m ((c : Thread nD τ).loc main_arg0)) (m ((c : Thread nD τ).loc main_arg1)) (m ((c : Thread nD τ).loc main_arg2)) := by
  refine (fin_out m ρ c).trans ((final1_out (ent1 m ρ) c).trans ?_)
  have hT : ent1 m ρ c main_v0_0
      = fun i => Cert.Layer.msg (m ((c : Thread nD τ).loc main_arg0)) (m ((c : Thread nD τ).loc main_arg1)) (i 0) (i 1) :=
    (ent1_msg m ρ c).trans (final0_msg (ent0 m ρ) c)
  have hC : ent1 m ρ c main_v0_1 = fun i => Cert.Layer.colSum (m ((c : Thread nD τ).loc main_arg1)) (i 1) :=
    (ent1_col m ρ c).trans (final0_col (ent0 m ρ) c)
  have hS : ent1 m ρ c main_v0_2 = fun i => Cert.Layer.wSum (m ((c : Thread nD τ).loc main_arg1)) (i 1) :=
    (ent1_w m ρ c).trans (final0_w (ent0 m ρ) c)
  funext i
  obtain ⟨n, d, rfl⟩ : ∃ (n : Fin 10000) (d : Fin 128), i = ix2 n d := ⟨i 0, i 1, eq_ix2 i⟩
  show outK (ent1 m ρ c main_arg0) (ent1 m ρ c main_arg1) (ent1 m ρ c main_v0_0) (ent1 m ρ c main_v0_1) (ent1 m ρ c main_v0_2)
      (ent1 m ρ c main_v1) n d = Cert.Layer.out _ _ _ n d
  refine (outK_congr (ent1_x m ρ c) (ent1_B m ρ c) hT hC hS rfl n d).trans ?_
  exact outK_spec _ _ _ _ (fun k d => ent1_WT_apply m ρ c k d) n d

/-- THE KERNEL'S RUN at the extended reals: it terminates, nothing faulting, with the result array at the layer's
    function of the launched arguments and the arguments unchanged. -/
theorem kernel_run : θ_run defs (onTc (τ := τ) (main (F := Ideal))) ⟨m, fun _ => 0, ρ⟩ (fun r => ∀ c : Dev nD,
      r.2.mem ((c.tc : Thread nD τ).loc main_v2)
        = Cert.Layer.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v2 (by decide))).trans (value_eq m ρ c),
     (h c _ (mem_uc main_arg0 (by decide))).trans (fin_x m ρ c),
     (h c _ (mem_uc main_arg1 (by decide))).trans (fin_B m ρ c),
     (h c _ (mem_uc main_arg2 (by decide))).trans (fin_W m ρ c)⟩) (run_both m ρ)

end Cert.KernelIdeal.HandV

end
-- ==== Proof.LibRsqrtDiv.lean ====
/-
  The inverse square root as a quotient: on the extended reals, away from the negatives, `rsqrt y` is `1 / sqrt y`.
  A program that writes `1.0 / sqrt(y)` and one that writes `rsqrt(y)` therefore denote the same value wherever
  `0 ≤ y`; below zero they differ only in which junk value they give, so the hypothesis cannot be dropped.
-/
import Idealize.ShloMosaic.PureOps.Ideal
import Idealize.ShloMosaic.Lib.IdealHost

noncomputable section

namespace Cert.Layer

open Idealize.ShloMosaic

/-- For `0 ≤ y` the inverse square root of `y` is the quotient of the float one (the pattern `0x3F800000`, the
    extended real `1`) by the square root of `y`, at every corner: at `y = 0` both are `⊤` (`1 / 0` is the infinity
    of the numerator's sign), at `y = ⊤` both are `0` (`⊤⁻¹ = 0`), and at a positive real `r` both are `(√r)⁻¹`. For
    `y < 0` the left side is `⊥` while the right is `1 · ⊥⁻¹ = 0`, hence the hypothesis. -/
theorem rsqrt_eq_one_div_sqrt {y : EReal} (hy : 0 ≤ y) :
    Ideal.rsqrt y = Ideal.div (Ideal.ofBits .f32 0x3F800000#32) (Ideal.sqrt y) := by
  rw [Ideal.ofBits_one_f32]
  induction y using EReal.rec with
  | bot => exact absurd hy (by simp)
  | top => simp [Ideal.div]
  | coe r =>
    have hr : 0 ≤ r := by exact_mod_cast hy
    rw [Ideal.rsqrt_coe, Ideal.sqrt_coe, if_neg (not_lt.mpr hr), if_neg (not_lt.mpr hr)]
    by_cases h0 : r = 0
    · subst h0
      simp [Ideal.div]
    · rw [if_neg h0]
      have hs : Real.sqrt r ≠ 0 := (Real.sqrt_pos.mpr (lt_of_le_of_ne hr (Ne.symm h0))).ne'
      unfold Ideal.div
      rw [if_neg (by exact_mod_cast hs), one_mul, EReal.coe_inv]

end Cert.Layer

end
-- ==== Proof.RefValue.lean ====
/-
  The reference's run read back as the layer's function (see Spec.lean): stage by stage, each operation of the reference's
  program read at an index, then the two arrangements of the same sums and products joined.
-/
import proofs.«135583_g910533067196_cont_9to1c4b_380_9_alg».proof.Defs
import proofs.«135583_g910533067196_cont_9to1c4b_380_9_alg».proof.Proof.Gen.ReferenceIdeal.Read
import proofs.«135583_g910533067196_cont_9to1c4b_380_9_alg».proof.Proof.Gen.Pre_finite_inputs
import proofs.«135583_g910533067196_cont_9to1c4b_380_9_alg».proof.Proof.Spec
import proofs.«135583_g910533067196_cont_9to1c4b_380_9_alg».proof.Proof.LibRsqrtDiv

noncomputable section

namespace Cert.Layer.Ref

open Cert.ReferenceIdeal Cert.ReferenceIdeal.Gen Cert.ReferenceIdeal.Read
open Idealize.ShloMosaic Idealize.ShloMosaic.ValueIdx Idealize.ShloMosaic.TcCoe Idealize.SL.Sem

/-! ## The program's index maps at literal coordinates

Each layout operation of the reference reads its operand at an index computed from the result's index; at an index
given by its coordinates these are again indices given by coordinates. -/

/-- A row sum runs along the row: row `n`, position `k`. -/
theorem idx_v2 (n : Fin 10000) (k : Fin 4096) : idx_main_v2 (ix1 n) k = ix2 n k := by
  funext a; match a with | ⟨0, _⟩ => rfl | ⟨1, _⟩ => rfl

/-- A column sum runs down the column: position `k`, column `e`. -/
theorem idx_v7 (e : Fin 4096) (k : Fin 10000) : idx_main_v7 (ix1 e) k = ix2 k e := by
  funext a; match a with | ⟨0, _⟩ => rfl | ⟨1, _⟩ => rfl

/-- The weighted column sum runs down the column likewise. -/
theorem idx_v6 (e : Fin 4096) (k : Fin 10000) : idx_main_v6 (ix1 e) k = ix2 k e := by
  funext a; match a with | ⟨0, _⟩ => rfl | ⟨1, _⟩ => rfl

/-- A per-row value spread over the row's entries is read at the row. -/
theorem idx_v3_v4 (n : Fin 10000) (e : Fin 4096) : idx_main_v3 (idx_main_v4 (ix2 n e)) = ix1 n := by
  funext a; match a with | ⟨0, _⟩ => rfl

/-- A per-column value spread over the column's entries is read at the column. -/
theorem idx_v12_v13 (n : Fin 10000) (e : Fin 4096) : idx_main_v12 (idx_main_v13 (ix2 n e)) = ix1 e := by
  funext a; match a with | ⟨0, _⟩ => rfl

/-- A per-node value spread over the node's features is read at the node. -/
theorem idx_v18_v20 (n : Fin 10000) (d : Fin 128) : idx_main_v18 (idx_main_v20 (ix2 n d)) = ix1 n := by
  funext a; match a with | ⟨0, _⟩ => rfl

/-- The transposed incidence at (hyperedge `e`, node `k`) is the incidence at (`k`, `e`). -/
theorem idx_v0_l1 (e : Fin 4096) (d : Fin 128) (k : Fin 10000) :
    idx_main_v0 (lidx_main_v1 (ix2 e d) k) = ix2 k e := by
  funext a; match a with | ⟨0, _⟩ => rfl | ⟨1, _⟩ => rfl

/-- The first product's right factor: node `k`, feature `d`. -/
theorem idx_r1 (e : Fin 4096) (d : Fin 128) (k : Fin 10000) : ridx_main_v1 (ix2 e d) k = ix2 k d := by
  funext a; match a with | ⟨0, _⟩ => rfl | ⟨1, _⟩ => rfl

/-- The second product's left factor: node `n`, hyperedge `k`. -/
theorem idx_l19 (n : Fin 10000) (d : Fin 128) (k : Fin 4096) : lidx_main_v19 (ix2 n d) k = ix2 n k := by
  funext a; match a with | ⟨0, _⟩ => rfl | ⟨1, _⟩ => rfl

/-- The second product's right factor: hyperedge `k`, feature `d`. -/
theorem idx_r19 (n : Fin 10000) (d : Fin 128) (k : Fin 4096) : ridx_main_v19 (ix2 n d) k = ix2 k d := by
  funext a; match a with | ⟨0, _⟩ => rfl | ⟨1, _⟩ => rfl

/-- The third product's left factor: node `n`, feature `k`. -/
theorem idx_l30 (n : Fin 10000) (d : Fin 128) (k : Fin 128) : lidx_main_v30 (ix2 n d) k = ix2 n k := by
  funext a; match a with | ⟨0, _⟩ => rfl | ⟨1, _⟩ => rfl

/-- The transposed weights at (`k`, `d`) are the weights at (`d`, `k`). -/
theorem idx_v29_r30 (n : Fin 10000) (d : Fin 128) (k : Fin 128) :
    idx_main_v29 (ridx_main_v30 (ix2 n d) k) = ix2 d k := by
  funext a; match a with | ⟨0, _⟩ => rfl | ⟨1, _⟩ => rfl

/-! ## The degrees -/

variable (x : FVec Ideal S10000x128 .f32) (B : FVec Ideal S10000x4096 .f32) (W : FVec Ideal S128x128 .f32)

/-- The reference's row sums are the node degrees. -/
theorem read_v2 (n : Fin 10000) : val_main_v2 (F := Ideal) B (ix1 n) = nodeDeg B n := by
  rw [val_main_v2_apply, val_main_cst_apply, Ideal.ofBits_def, Ideal.ofBits_zero_f32, zero_add]
  exact Finset.sum_congr rfl fun k _ => congrArg B (idx_v2 n k)

/-- The reference's column sums. -/
theorem read_v7 (e : Fin 4096) : val_main_v7 (F := Ideal) B (ix1 e) = colSum B e := by
  rw [val_main_v7_apply, val_main_cst_1_apply, Ideal.ofBits_def, Ideal.ofBits_zero_f32, zero_add]
  exact Finset.sum_congr rfl fun k _ => congrArg B (idx_v7 e k)

/-- The reference's weighted column sums: it multiplies each entry by its row's degree on the left, the layer on the
    right. -/
theorem read_v6 (e : Fin 4096) : val_main_v6 (F := Ideal) B (ix1 e) = wSum B e := by
  rw [val_main_v6_apply, val_main_cst_0_apply, Ideal.ofBits_def, Ideal.ofBits_zero_f32, zero_add]
  refine Finset.sum_congr rfl fun k _ => ?_
  rw [idx_v6 e k, val_main_v5_apply, val_main_v4_apply, val_main_v3_apply, idx_v3_v4, read_v2, Ideal.mulf_def]
  exact mul_comm _ _

/-- The reference's hyperedge degrees: the weighted column sum over the plain one. -/
theorem read_v8 (e : Fin 4096) : val_main_v8 (F := Ideal) B (ix1 e) = edgeDeg B e := by
  unfold edgeDeg
  rw [val_main_v8_apply, read_v6, read_v7, Ideal.hostDivf_def]

/-! ## The inverse roots

The reference writes `1 / sqrt`; where the degree is not negative that is the inverse square root. -/

/-- Per hyperedge. -/
theorem read_v11 (he : ∀ e, 0 ≤ edgeDeg B e) (e : Fin 4096) :
    val_main_v11 (F := Ideal) B (ix1 e) = Ideal.rsqrt (edgeDeg B e) := by
  rw [val_main_v11_apply, val_main_v10_apply, val_main_cst_2_apply, val_main_v9_apply, read_v8, Ideal.ofBits_def,
    Ideal.hostUnary_sqrt_def, Ideal.hostDivf_def]
  exact (rsqrt_eq_one_div_sqrt (he e)).symm

/-- Per node. -/
theorem read_v17 (hn : ∀ n, 0 ≤ nodeDeg B n) (n : Fin 10000) :
    val_main_v17 (F := Ideal) B (ix1 n) = Ideal.rsqrt (nodeDeg B n) := by
  rw [val_main_v17_apply, val_main_v16_apply, val_main_cst_3_apply, val_main_v15_apply, read_v2, Ideal.ofBits_def,
    Ideal.hostUnary_sqrt_def, Ideal.hostDivf_def]
  exact (rsqrt_eq_one_div_sqrt (hn n)).symm

/-! ## Messages and their gathering -/

/-- The incidence with each column scaled by its hyperedge's inverse root degree. -/
theorem read_v14 (he : ∀ e, 0 ≤ edgeDeg B e) (n : Fin 10000) (e : Fin 4096) :
    val_main_v14 (F := Ideal) B (ix2 n e) = B (ix2 n e) * Ideal.rsqrt (edgeDeg B e) := by
  rw [val_main_v14_apply, val_main_v13_apply, val_main_v12_apply, idx_v12_v13, read_v11 B he, Ideal.mulf_def]

/-- The node → hyperedge messages: the reference holds them hyperedge-major with the incidence as the left factor. -/
theorem read_v1 (e : Fin 4096) (d : Fin 128) : val_main_v1 (F := Ideal) x B (ix2 e d) = msg x B d e := by
  rw [val_main_v1_apply]
  refine Finset.sum_congr rfl fun k _ => ?_
  rw [val_main_v0_apply, idx_v0_l1, idx_r1]
  exact mul_comm _ _

/-- The hyperedge → node gathering: the reference's term `(B · r) · m` is the layer's `B · (m · r)`. -/
theorem read_v19 (he : ∀ e, 0 ≤ edgeDeg B e) (n : Fin 10000) (d : Fin 128) :
    val_main_v19 (F := Ideal) x B (ix2 n d) = agg x B n d := by
  rw [val_main_v19_apply]
  refine Finset.sum_congr rfl fun k _ => ?_
  rw [idx_l19, idx_r19, read_v14 B he, read_v1, mul_assoc, mul_comm (Ideal.rsqrt _)]

/-- Normalised per node: the reference puts the node's inverse root degree on the left. -/
theorem read_v21 (hn : ∀ n, 0 ≤ nodeDeg B n) (he : ∀ e, 0 ≤ edgeDeg B e) (n : Fin 10000) (d : Fin 128) :
    val_main_v21 (F := Ideal) x B (ix2 n d) = Ideal.rsqrt (nodeDeg B n) * agg x B n d := by
  rw [val_main_v21_apply, val_main_v20_apply, val_main_v18_apply, idx_v18_v20, read_v17 B hn, read_v19 x B he,
    Ideal.mulf_def]

/-! ## The mix with the node's own feature, and the weights -/

/-- The mixed feature. -/
theorem read_v26 (hn : ∀ n, 0 ≤ nodeDeg B n) (he : ∀ e, 0 ≤ edgeDeg B e) (n : Fin 10000) (d : Fin 128) :
    val_main_v26 (F := Ideal) x B (ix2 n d) = comb x B n d := by
  rw [val_main_v26_apply, val_main_v23_apply, val_main_v22_apply, val_main_cst_4_apply, val_main_v25_apply,
    val_main_v24_apply, val_main_cst_5_apply, read_v21 x B hn he, mul_comm (Ideal.rsqrt _)]
  rfl

/-- The result at a node and a feature. -/
theorem read_v33 (hn : ∀ n, 0 ≤ nodeDeg B n) (he : ∀ e, 0 ≤ edgeDeg B e) (n : Fin 10000) (d : Fin 128) :
    val_main_v33 (F := Ideal) x B W (ix2 n d) = Cert.Layer.out x B W n d := by
  rw [val_main_v33_apply, val_main_v28_apply, val_main_v27_apply, val_main_cst_6_apply, val_main_v32_apply,
    val_main_v31_apply, val_main_cst_7_apply, val_main_v30_apply, read_v26 x B hn he]
  have hs : ∑ k : Fin 128, val_main_v26 (F := Ideal) x B (lidx_main_v30 (ix2 n d) k)
        * val_main_v29 (F := Ideal) W (ridx_main_v30 (ix2 n d) k)
      = ∑ k : Fin 128, comb x B n k * W (ix2 d k) :=
    Finset.sum_congr rfl fun k _ => by rw [idx_l30, read_v26 x B hn he, val_main_v29_apply, idx_v29_r30]
  rw [hs]
  rfl

/-- The reference's result array is the layer's function of its three arguments, the degrees being nonnegative (so
    that each `1 / sqrt` is the inverse root). -/
theorem ref_eq_G (x : FVec Ideal Cert.ReferenceIdeal.S10000x128 .f32) (B : FVec Ideal Cert.ReferenceIdeal.S10000x4096 .f32)
    (W : FVec Ideal Cert.ReferenceIdeal.S128x128 .f32) (hn : ∀ n, 0 ≤ Cert.Layer.nodeDeg B n)
    (he : ∀ e, 0 ≤ Cert.Layer.edgeDeg B e) :
    Cert.ReferenceIdeal.Read.val_main_v33 (F := Ideal) x B W = Cert.Layer.G x B W := by
  funext i
  obtain ⟨n, d, rfl⟩ : ∃ (n : Fin 10000) (d : Fin 128), i = ix2 n d := ⟨i 0, i 1, eq_ix2 i⟩
  exact (read_v33 x B W hn he n d).trans (G_apply x B W n d).symm

/-! ## The reference's run -/

/-- On every device, from any memory with zero counters whose incidence argument has nonnegative degrees, the
    reference terminates with its result the layer's function of the three arguments and the arguments unchanged: its
    generated run, the result term read as the layer's function. -/
theorem ref_run (m' : (ℓ : Loc Cert.ReferenceIdeal.nD Cert.ReferenceIdeal.τ Cert.ReferenceIdeal.sig) → Buf (Elt Ideal) ℓ)
    (ρ' : Dev Cert.ReferenceIdeal.nD → PrngReg)
    (hn : ∀ (c : Dev Cert.ReferenceIdeal.nD) n, 0 ≤ Cert.Layer.nodeDeg (m' ((c.tc : Thread Cert.ReferenceIdeal.nD Cert.ReferenceIdeal.τ).loc Cert.ReferenceIdeal.main_arg1)) n)
    (he : ∀ (c : Dev Cert.ReferenceIdeal.nD) e, 0 ≤ Cert.Layer.edgeDeg (m' ((c.tc : Thread Cert.ReferenceIdeal.nD Cert.ReferenceIdeal.τ).loc Cert.ReferenceIdeal.main_arg1)) e) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v33)
          = Cert.Layer.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono
    (fun _ h c => ⟨(h c).1.trans ((val_main_v33_eq _ _ _).trans (ref_eq_G _ _ _ (hn c) (he c))), (h c).2⟩)
    (Cert.ReferenceIdeal.Value.run (F := Ideal) m' ρ')

/-! ## The reference's frame -/

/-- The reference runs and leaves its arguments unchanged: its generated run with the result dropped. -/
theorem frame_ref : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

end Cert.Layer.Ref

end
-- ==== Proof.PreFacts.lean ====
/-
  What the precondition says about the two degree vectors.

  The precondition is the conjunction of five all-reductions. Its last two compare, entry by entry, with zero
    node_degree(n) = Σ_e B(n,e)                                              (row sums of the incidence matrix)
    edge_degree(e) = (Σ_n node_degree(n) · B(n,e)) / (Σ_n B(n,e))            (weighted column sums over plain ones)
  On the extended reals a sum computed from the initial value 0 is the plain sum, a broadcast reads its operand at the
  kept coordinates, and the product commutes, so these two vectors are the specification's `nodeDeg` and `edgeDeg`.
  A reduction by "and" from 1 that comes out 1 met only 1s, and a comparison "greater than" is 1 exactly when the strict
  inequality holds: hence every node degree and every hyperedge degree is positive.
-/
import proofs.«135583_g910533067196_cont_9to1c4b_380_9_alg».proof.Pre_finite_inputs
import proofs.«135583_g910533067196_cont_9to1c4b_380_9_alg».proof.Proof.Spec
import Idealize.ShloMosaic.Lib.ReduceAll
import Idealize.ShloMosaic.Lib.ValueIdx
import Idealize.ShloMosaic.Lib.Pipeline.Value
import Idealize.ShloMosaic.PureOps.Ideal.Laws

noncomputable section

namespace Cert.Layer.Pre

open Idealize.ShloMosaic Idealize.ShloMosaic.ValueIdx Cert.Pre_finite_inputs Cert.Pre_finite_inputs.Facts

/-- A one-bit word built from a Boolean is 1 exactly when the Boolean is true. -/
theorem ofBool_eq_one_iff (b : Bool) : BitVec.ofBool b = 1#1 ↔ b = true := by cases b <;> decide

/-- On the extended reals the comparison "greater than" yields the bit 1 only when the strict inequality holds. -/
theorem lt_of_cmp_ogt {a b : EReal} (h : Ideal.cmp .ogt a b = 1#1) : b < a := by
  unfold Ideal.cmp at h
  exact of_decide_eq_true ((ofBool_eq_one_iff _).1 h)

/-- The scalar zero broadcast to any shape reads 0 at every index. -/
theorem zeroVec_apply {t : Shape} (hb : S_.BroadcastsInDim t (![] : Fin 0 → Fin t.rank)) (j : t.Idx) :
    broadcastInDim t ![] hb (constant (F := Ideal) S_ .f32 0x00000000#32) j = 0 := by
  rw [broadcastInDim_apply _ hb _ j ix0 (fun a => a.elim0), constant_apply, Ideal.ofBits_zero_f32]

variable [Cert.Pre_finite_inputs.Facts]

/-- The row sums of the incidence matrix, as the precondition computes them, are the node degrees. -/
theorem nodeStage_apply (B : FVec Ideal S10000x4096 .f32) (n : Fin 10000) :
    Host.reduceAdd B (constant (F := Ideal) S_ .f32 0x00000000#32) reducesTo_S10000x4096_S10000_d1 h_S_ (ix1 n)
      = Cert.Layer.nodeDeg B n := by
  simp only [Host.reduceAdd, Ideal.hostReduceAdd_def]
  rw [Ideal.hostReduceAdd_single reducesTo_S10000x4096_S10000_d1 (by decide)]
  rw [constant_apply, Ideal.ofBits_zero_f32, zero_add]
  unfold Cert.Layer.nodeDeg
  refine Finset.sum_congr rfl fun k _ => ?_
  exact congrArg B (funext fun a => Fin.ext (by match a with | ⟨0, _⟩ => rfl | ⟨1, _⟩ => rfl))

/-- The column sums of the incidence matrix, as the precondition computes them. -/
theorem colStage_apply (B : FVec Ideal S10000x4096 .f32) (e : Fin 4096) :
    Host.reduceAdd B (constant (F := Ideal) S_ .f32 0x00000000#32) reducesTo_S10000x4096_S4096_d0 h_S_ (ix1 e)
      = Cert.Layer.colSum B e := by
  simp only [Host.reduceAdd, Ideal.hostReduceAdd_def]
  rw [Ideal.hostReduceAdd_single reducesTo_S10000x4096_S4096_d0 (by decide)]
  rw [constant_apply, Ideal.ofBits_zero_f32, zero_add]
  unfold Cert.Layer.colSum
  refine Finset.sum_congr rfl fun k _ => ?_
  exact congrArg B (funext fun a => Fin.ext (by match a with | ⟨0, _⟩ => rfl | ⟨1, _⟩ => rfl))

/-- A vector over the nodes broadcast along the hyperedge axis reads, at (n, e), its entry at n. -/
theorem bcastNode_apply (v : FVec Ideal S10000 .f32) (n : Fin 10000) (e : Fin 4096) :
    broadcastInDim S10000x4096 ![0, 1] bcast_S10000x1_S10000x4096_0_1
        (broadcastInDim S10000x1 ![0] bcast_S10000_S10000x1_0 v) (ix2 n e) = v (ix1 n) := by
  refine (broadcastInDim_apply _ bcast_S10000x1_S10000x4096_0_1 _ (ix2 n e) (ix2 n (0 : Fin 1)) (fun a => match a with
    | ⟨0, _⟩ => by show n.val = if (10000 : Nat) = 1 then 0 else n.val; rw [if_neg (by decide)]
    | ⟨1, _⟩ => by show 0 = if (1 : Nat) = 1 then 0 else e.val; rw [if_pos rfl])).trans ?_
  exact broadcastInDim_apply _ bcast_S10000_S10000x1_0 v (ix2 n (0 : Fin 1)) (ix1 n) (fun a => match a with
    | ⟨0, _⟩ => by show n.val = if (10000 : Nat) = 1 then 0 else n.val; rw [if_neg (by decide)])

/-- The column sums weighted by the node degrees, as the precondition computes them. -/
theorem wStage_apply (B : FVec Ideal S10000x4096 .f32) (e : Fin 4096) :
    Host.reduceAdd
        (mulf (broadcastInDim S10000x4096 ![0, 1] bcast_S10000x1_S10000x4096_0_1
          (broadcastInDim S10000x1 ![0] bcast_S10000_S10000x1_0
            (Host.reduceAdd B (constant (F := Ideal) S_ .f32 0x00000000#32) reducesTo_S10000x4096_S10000_d1 h_S_))) B)
        (constant (F := Ideal) S_ .f32 0x00000000#32) reducesTo_S10000x4096_S4096_d0 h_S_ (ix1 e)
      = Cert.Layer.wSum B e := by
  generalize hv : Host.reduceAdd B (constant (F := Ideal) S_ .f32 0x00000000#32) reducesTo_S10000x4096_S10000_d1 h_S_ = v
  have hvn : ∀ n : Fin 10000, v (ix1 n) = Cert.Layer.nodeDeg B n := fun n => by rw [← hv]; exact nodeStage_apply B n
  have hR : S10000x4096.Reduces [0] S4096 := by decide
  simp only [Host.reduceAdd, Ideal.hostReduceAdd_def]
  rw [Ideal.hostReduceAdd_single reducesTo_S10000x4096_S4096_d0 hR]
  rw [constant_apply, Ideal.ofBits_zero_f32, zero_add]
  unfold Cert.Layer.wSum
  have key : ∀ k : Fin 10000,
      mulf (broadcastInDim S10000x4096 ![0, 1] bcast_S10000x1_S10000x4096_0_1
        (broadcastInDim S10000x1 ![0] bcast_S10000_S10000x1_0 v)) B (hR.lift (ix1 e) k)
        = B (ix2 k e) * Cert.Layer.nodeDeg B k := fun k => by
    have hidx : hR.lift (ix1 e) k = ix2 k e :=
      funext fun a => Fin.ext (by match a with | ⟨0, _⟩ => rfl | ⟨1, _⟩ => rfl)
    rw [hidx, mulf_apply, bcastNode_apply, hvn, mul_comm]
  exact Finset.sum_congr rfl fun k _ => key k

/-- The precondition holds only if every node degree and every hyperedge degree is positive: its last two
    all-reductions compare exactly these two degree vectors with zero. -/
theorem pos_of_pre (x : FVec Ideal Cert.Pre_finite_inputs.S10000x128 .f32)
    (B : FVec Ideal Cert.Pre_finite_inputs.S10000x4096 .f32) (W : FVec Ideal Cert.Pre_finite_inputs.S128x128 .f32)
    (h : Cert.Pre_finite_inputs.fn (F := Ideal) x B W = fun _ => 1#1) :
    (∀ n : Fin 10000, 0 < Cert.Layer.nodeDeg B n) ∧ (∀ e : Fin 4096, 0 < Cert.Layer.edgeDeg B e) := by
  haveI : Subsingleton S_.Idx := ⟨fun a b => funext fun d => d.elim0⟩
  have h0 := congrFun h ix0
  dsimp only [fn, fn_part1] at h0
  obtain ⟨h1, hE⟩ := IntOp.andi_eq_one.1 h0
  obtain ⟨_, hN⟩ := IntOp.andi_eq_one.1 h1
  refine ⟨fun n => ?_, fun e => ?_⟩
  · have hb := Host.reduce_andi_all _ _ _ _ ix0 hN (ix1 n)
    have hlt := lt_of_cmp_ogt hb
    rwa [zeroVec_apply, nodeStage_apply] at hlt
  · have hb := Host.reduce_andi_all _ _ _ _ ix0 hE (ix1 e)
    have hlt := lt_of_cmp_ogt hb
    rw [zeroVec_apply] at hlt
    show 0 < Ideal.div (Cert.Layer.wSum B e) (Cert.Layer.colSum B e)
    rw [← wStage_apply, ← colStage_apply]
    exact hlt

end Cert.Layer.Pre

end
-- ==== Proof.lean ====
/-
  The certificate of a hypergraph layer computed in two streaming passes over a dense incidence matrix, against its
  plain array-language reference.

  With B the incidence matrix, x the node features and W the weights, both programs compute
    out = ½·c + ½·c·Wᵀ,   c = 0.9·(D_n^{-1/2} · B · D_e^{-1/2} · Bᵀ x) + 0.1·x,
  D_n the row sums of B and D_e the row-sum-weighted column sums over the plain column sums. The two-pass program
  accumulates Bᵀx (feature-major) and the two column sums over ten blocks of a thousand rows, then scales the table by
  rsqrt D_e once and finishes block by block; the reference does the same sums whole and divides by square roots.
  On the extended reals regrouping a sum and reassociating a product change nothing, and rsqrt y is 1/sqrt y exactly
  when 0 ≤ y: the precondition keeps both degrees positive, where the reference's own 1/sqrt is defined.

  The frames of the two-pass program (word-level and at the extended reals) are one proof at any float instance, read off
  the run of its three items; the reference's frame and run are its generated run; the idealization rewrote nothing.
-/
import proofs.«135583_g910533067196_cont_9to1c4b_380_9_alg».proof.Defs
import proofs.«135583_g910533067196_cont_9to1c4b_380_9_alg».proof.Proof.Gen.Kernel
import proofs.«135583_g910533067196_cont_9to1c4b_380_9_alg».proof.Proof.Gen.KernelIdeal
import proofs.«135583_g910533067196_cont_9to1c4b_380_9_alg».proof.Proof.Gen.ReferenceIdeal
import proofs.«135583_g910533067196_cont_9to1c4b_380_9_alg».proof.Proof.Gen.Pre_finite_inputs
import proofs.«135583_g910533067196_cont_9to1c4b_380_9_alg».proof.Proof.WFrame
import proofs.«135583_g910533067196_cont_9to1c4b_380_9_alg».proof.Proof.KValue
import proofs.«135583_g910533067196_cont_9to1c4b_380_9_alg».proof.Proof.RefValue
import proofs.«135583_g910533067196_cont_9to1c4b_380_9_alg».proof.Proof.PreFacts

noncomputable section

namespace Cert.Proof

open Idealize.ShloMosaic Idealize.ShloMosaic.TcCoe Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Hand.frame_all (F := Bits) m ρ

/-- So does the program read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

/-- At the extended reals, from memories agreeing on the arguments and under the precondition, both programs end with
    the layer's function of the arguments: the two-pass program by its run read back, the reference by its generated run
    rearranged, the positivity of both degrees (from the precondition) making rsqrt and 1/sqrt one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hpos := fun c => @Cert.Layer.Pre.pos_of_pre Cert.Pre_finite_inputs.Gen.facts _ _ _ (hpre c)
  refine ⟨fun c => Cert.Layer.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.HandV.kernel_run m ρ, ?_⟩
  have hr := Cert.Layer.Ref.ref_run m' ρ'
    (fun c n => by rw [(hagree c).2.1]; exact le_of_lt ((hpos c).1 n))
    (fun c e => by rw [(hagree c).2.1]; exact le_of_lt ((hpos c).2 e))
  refine (θ_run (Cert.ReferenceIdeal.defs (F := Ideal)) _ _).mono (fun r h c => ⟨?_, (h c).2⟩) hr
  rw [(h c).1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.Layer.Ref.frame_ref, trivial, algebraic⟩

end Cert.Proof

end
